-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x56x56x256 : Shape := ⟨4, ![32, 56, 56, 256]⟩
abbrev S256 : Shape := ⟨1, ![256]⟩
abbrev S_ : Shape := ⟨0, ![]⟩

class Facts : Prop where
  bcast_S_S32x56x56x256 : S_.BroadcastsInDim S32x56x56x256 (![] : Fin 0 → Fin S32x56x56x256.rank)
  reducesTo_S32x56x56x256_S_d0_1_2_3 : S32x56x56x256.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S32x56x56x256 .f32) (main_arg1 : FVec F S32x56x56x256 .f32) (main_arg2 : FVec F S256 .f32) (main_arg3 : FVec F S256 .f32) (main_arg4 : FVec F S256 .f32) (main_arg5 : FVec F S256 .f32) : IVec S_ 1 :=
  let main_v0 : FVec F S32x56x56x256 .f32 := Host.absf main_arg0
  let main_cst : FVec F S_ .f32 := constant S_ .f32 0x7F800000#32
  let main_v1 : FVec F S32x56x56x256 .f32 := broadcastInDim S32x56x56x256 ![] bcast_S_S32x56x56x256 main_cst
  let main_v2 : IVec S32x56x56x256 1 := cmpf .olt main_v0 main_v1
  let main_c : IVec S_ 1 := constantI S_ 1 1#1
  let main_v3 : IVec S_ 1 := (fun x v => Host.reduce IntOp.andi x v reducesTo_S32x56x56x256_S_d0_1_2_3 h_S_) main_v2 main_c
  let main_v4 : FVec F S32x56x56x256 .f32 := Host.absf main_arg1
  let main_cst_0 : FVec F S_ .f32 := constant S_ .f32 0x7F800000#32
  let main_v5 : FVec F S32x56x56x256 .f32 := broadcastInDim S32x56x56x256 ![] bcast_S_S32x56x56x256 main_cst_0
  let main_v6 : IVec S32x56x56x256 1 := cmpf .olt main_v4 main_v5
  let main_c_1 : IVec S_ 1 := constantI S_ 1 1#1
  let main_v7 : IVec S_ 1 := (fun x v => Host.reduce IntOp.andi x v reducesTo_S32x56x56x256_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S32x56x56x256 : Shape := ⟨4, ![32, 56, 56, 256]⟩
abbrev S256 : Shape := ⟨1, ![256]⟩
abbrev S100352x256 : Shape := ⟨2, ![100352, 256]⟩
abbrev S16x256 : Shape := ⟨2, ![16, 256]⟩
abbrev S3136x256 : Shape := ⟨2, ![3136, 256]⟩
abbrev S8x256 : Shape := ⟨2, ![8, 256]⟩
abbrev S1x256 : Shape := ⟨2, ![1, 256]⟩
abbrev S_ : Shape := ⟨0, ![]⟩
abbrev S100352x512 : Shape := ⟨2, ![100352, 512]⟩
abbrev S1568x256 : Shape := ⟨2, ![1568, 256]⟩
abbrev S1568x512 : Shape := ⟨2, ![1568, 512]⟩
abbrev S1568x256x1 : Shape := ⟨3, ![1568, 256, 1]⟩
abbrev S1568x256x2 : Shape := ⟨3, ![1568, 256, 2]⟩
abbrev S32x56x56x256x2 : Shape := ⟨5, ![32, 56, 56, 256, 2]⟩

abbrev nBuf : Space → Nat
  | .hbm => 98
  | .vmem => 29
  | .smem => 0
  | _ => 0

abbrev bufTy : (tb : Table) → Fin (tcTables nBuf tb) → BufTy
  | .hbm, ⟨0, _⟩ => ⟨S32x56x56x256, .f32⟩
  | .hbm, ⟨1, _⟩ => ⟨S32x56x56x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S100352x256, .f32⟩
  | .hbm, ⟨7, _⟩ => ⟨S100352x256, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S16x256, .f32⟩
  | .hbm, ⟨12, _⟩ => ⟨S16x256, .f32⟩
  | .hbm, ⟨13, _⟩ => ⟨S1x256, .f32⟩
  | .hbm, ⟨14, _⟩ => ⟨S256, .f32⟩
  | .hbm, ⟨15, _⟩ => ⟨S1x256, .f32⟩
  | .hbm, ⟨16, _⟩ => ⟨S256, .f32⟩
  | .hbm, ⟨17, _⟩ => ⟨S256, .f32⟩
  | .hbm, ⟨18, _⟩ => ⟨S1x256, .f32⟩
  | .hbm, ⟨19, _⟩ => ⟨S256, .f32⟩
  | .hbm, ⟨20, _⟩ => ⟨S1x256, .f32⟩
  | .hbm, ⟨21, _⟩ => ⟨S256, .f32⟩
  | .hbm, ⟨22, _⟩ => ⟨S256, .f32⟩
  | .hbm, ⟨23, _⟩ => ⟨S1x256, .f32⟩
  | .hbm, ⟨24, _⟩ => ⟨S256, .f32⟩
  | .hbm, ⟨25, _⟩ => ⟨S1x256, .f32⟩
  | .hbm, ⟨26, _⟩ => ⟨S256, .f32⟩
  | .hbm, ⟨27, _⟩ => ⟨S256, .f32⟩
  | .hbm, ⟨28, _⟩ => ⟨S1x256, .f32⟩
  | .hbm, ⟨29, _⟩ => ⟨S256, .f32⟩
  | .hbm, ⟨30, _⟩ => ⟨S1x256, .f32⟩
  | .hbm, ⟨31, _⟩ => ⟨S256, .f32⟩
  | .hbm, ⟨32, _⟩ => ⟨S256, .f32⟩
  | .hbm, ⟨33, _⟩ => ⟨S1x256, .f32⟩
  | .hbm, ⟨34, _⟩ => ⟨S256, .f32⟩
  | .hbm, ⟨35, _⟩ => ⟨S1x256, .f32⟩
  | .hbm, ⟨36, _⟩ => ⟨S256, .f32⟩
  | .hbm, ⟨37, _⟩ => ⟨S256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S256, .f32⟩
  | .hbm, ⟨57, _⟩ => ⟨S_, .f32⟩
  | .hbm, ⟨58, _⟩ => ⟨S256, .f32⟩
  | .hbm, ⟨59, _⟩ => ⟨S256, .f32⟩
  | .hbm, ⟨60, _⟩ => ⟨S_, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S256, .f32⟩
  | .hbm, ⟨65, _⟩ => ⟨S256, .f32⟩
  | .hbm, ⟨66, _⟩ => ⟨S256, .f32⟩
  | .hbm, ⟨67, _⟩ => ⟨S256, .f32⟩
  | .hbm, ⟨68, _⟩ => ⟨S256, .f32⟩
  | .hbm, ⟨69, _⟩ => ⟨S256, .f32⟩
  | .hbm, ⟨70, _⟩ => ⟨S256, .f32⟩
  | .hbm, ⟨71, _⟩ => ⟨S256, .f32⟩
  | .hbm, ⟨72, _⟩ => ⟨S256, .f32⟩
  | .hbm, ⟨73, _⟩ => ⟨S256, .f32⟩
  | .hbm, ⟨74, _⟩ => ⟨S256, .f32⟩
  | .hbm, ⟨75, _⟩ => ⟨S256, .f32⟩
  | .hbm, ⟨76, _⟩ => ⟨S256, .f32⟩
  | .hbm, ⟨77, _⟩ => ⟨S_, .f32⟩
  | .hbm, ⟨78, _⟩ => ⟨S256, .f32⟩
  | .hbm, ⟨79, _⟩ => ⟨S256, .f32⟩
  | .hbm, ⟨80, _⟩ => ⟨S256, .f32⟩
  | .hbm, ⟨81, _⟩ => ⟨S256, .f32⟩
  | .hbm, ⟨82, _⟩ => ⟨S256, .f32⟩
  | .hbm, ⟨83, _⟩ => ⟨S256, .f32⟩
  | .hbm, ⟨84, _⟩ => ⟨S256, .f32⟩
  | .hbm, ⟨85, _⟩ => ⟨S256, .f32⟩
  | .hbm, ⟨86, _⟩ => ⟨S256, .f32⟩
  | .hbm, ⟨87, _⟩ => ⟨S1x256, .f32⟩
  | .hbm, ⟨88, _⟩ => ⟨S1x256, .f32⟩
  | .hbm, ⟨89, _⟩ => ⟨S1x256, .f32⟩
  | .hbm, ⟨90, _⟩ => ⟨S1x256, .f32⟩
  | .hbm, ⟨91, _⟩ => ⟨S1x256, .f32⟩
  | .hbm, ⟨92, _⟩ => ⟨S1x256, .f32⟩
  | .hbm, ⟨93, _⟩ => ⟨S1x256, .f32⟩
  | .hbm, ⟨94, _⟩ => ⟨S1x256, .f32⟩
  | .hbm, ⟨95, _⟩ => ⟨S1x256, .f32⟩
  | .hbm, ⟨96, _⟩ => ⟨S100352x512, .f32⟩
  | .hbm, ⟨97, _⟩ => ⟨S32x56x56x256x2, .f32⟩
  | .local _ .vmem, ⟨0, _⟩ => ⟨S3136x256, .f32⟩
  | .local _ .vmem, ⟨1, _⟩ => ⟨S3136x256, .f32⟩
  | .local _ .vmem, ⟨2, _⟩ => ⟨S3136x256, .f32⟩
  | .local _ .vmem, ⟨3, _⟩ => ⟨S3136x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | .local _ .vmem, ⟨14, _⟩ => ⟨S1568x256, .f32⟩
  | .local _ .vmem, ⟨15, _⟩ => ⟨S1568x256, .f32⟩
  | .local _ .vmem, ⟨16, _⟩ => ⟨S1568x256, .f32⟩
  | .local _ .vmem, ⟨17, _⟩ => ⟨S1568x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1568x512, .f32⟩
  | .local _ .vmem, ⟨28, _⟩ => ⟨S1568x512, .f32⟩
  | _, _ => ⟨S32x56x56x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_cst_0 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_6 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg11_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem11_1 : DmaSem sig := 28

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3136x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3136x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1568x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1568x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1568x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  shapeCasts_S32x56x56x256_S100352x256 : S32x56x56x256.ShapeCasts S100352x256
  inb_S8x256_S8x256_0_0 : ∀ a, (![0, 0] : Fin 2 → Nat) a + S8x256.size a ≤ S8x256.size a
  h_S8x256 : 0 < S8x256.numel
  inb_S3136x256_S3136x256_0_0 : ∀ a, (![0, 0] : Fin 2 → Nat) a + S3136x256.size a ≤ S3136x256.size a
  h_S3136x256 : 0 < S3136x256.numel
  shapeCasts_S3136x256_S3136x256 : S3136x256.ShapeCasts S3136x256
  inb_S8x256_S1x256_0_0 : ∀ a, (![0, 0] : Fin 2 → Nat) a + S1x256.size a ≤ S8x256.size a
  h_S1x256 : 0 < S1x256.numel
  shapeCasts_S1x256_S1x256 : S1x256.ShapeCasts S1x256
  reduces_S3136x256_S256 : S3136x256.Reduces [0] S256
  shapeCasts_S256_S1x256 : S256.ShapeCasts S1x256
  slices_S16x256_S1x256_0_0 : S16x256.Slices ![0, 0] S1x256
  shapeCasts_S1x256_S256 : S1x256.ShapeCasts S256
  slices_S16x256_S1x256_8_0 : S16x256.Slices ![8, 0] S1x256
  bcast_S_S256 : S_.BroadcastsInDim S256 (![] : Fin 0 → Fin S256.rank)
  inb_S1568x256_S1568x256_0_0 : ∀ a, (![0, 0] : Fin 2 → Nat) a + S1568x256.size a ≤ S1568x256.size a
  h_S1568x256 : 0 < S1568x256.numel
  shapeCasts_S1568x256_S1568x256 : S1568x256.ShapeCasts S1568x256
  inb_S1x256_S1x256_0_0 : ∀ a, (![0, 0] : Fin 2 → Nat) a + S1x256.size a ≤ S1x256.size a
  broadcasts_S1x256_S1568x256 : S1x256.Broadcasts S1568x256
  shapeCasts_S1568x256_S1568x256x1 : S1568x256.ShapeCasts S1568x256x1
  concatenates_S1568x256x1_S1568x256x1_S1568x256x2_d2 : Shape.Concatenates [S1568x256x1, S1568x256x1] S1568x256x2 2
  shapeCasts_S1568x256x2_S1568x512 : S1568x256x2.ShapeCasts S1568x512
  inb_S1568x512_S1568x512_0_0 : ∀ a, (![0, 0] : Fin 2 → Nat) a + S1568x512.size a ≤ S1568x512.size a
  h_S1568x512 : 0 < S1568x512.numel
  shapeCasts_S100352x512_S32x56x56x256x2 : S100352x512.ShapeCasts S32x56x56x256x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3136x256.size a ≤ S100352x256.size a
  hwx0_0 : ∀ i : grid0.Coords, EltTy.bits .f32 = 32 ∨ (Rect.block (s := S100352x256) S3136x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3136x256.size a ≤ S100352x256.size a
  hwx0_1 : ∀ i : grid0.Coords, EltTy.bits .f32 = 32 ∨ (Rect.block (s := S100352x256) S3136x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S16x256.size a
  hwx0_2 : ∀ i : grid0.Coords, EltTy.bits .f32 = 32 ∨ (Rect.block (s := S16x256) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S16x256.size a
  hwx0_3 : ∀ i : grid0.Coords, EltTy.bits .f32 = 32 ∨ (Rect.block (s := S16x256) S8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S16x256.size a
  hwx0_4 : ∀ i : grid0.Coords, EltTy.bits .f32 = 32 ∨ (Rect.block (s := S16x256) S8x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256.size a ≤ S16x256.size a
  hwx0_5 : ∀ i : grid0.Coords, EltTy.bits .f32 = 32 ∨ (Rect.block (s := S16x256) S8x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256.size a ≤ S16x256.size a
  hwx0_6 : ∀ i : grid0.Coords, EltTy.bits .f32 = 32 ∨ (Rect.block (s := S16x256) S8x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1568x256.size a ≤ S100352x256.size a
  hwx1_0 : ∀ i : grid1.Coords, EltTy.bits .f32 = 32 ∨ (Rect.block (s := S100352x256) S1568x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1568x256.size a ≤ S100352x256.size a
  hwx1_1 : ∀ i : grid1.Coords, EltTy.bits .f32 = 32 ∨ (Rect.block (s := S100352x256) S1568x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1568x512.size a ≤ S100352x512.size a
  hwx1_11 : ∀ i : grid1.Coords, EltTy.bits .f32 = 32 ∨ (Rect.block (s := S100352x512) S1568x512.size (cc1_transform_11 i) (hinb1_11 i)).WholeWords (EltTy.packing .f32)

variable [Facts₀]

abbrev win0_0 : Pipeline.Window sig grid0 :=
  Pipeline.Window.ofSpec (Memref.whole main_v0) S3136x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3136x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S8x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S8x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_4) S8x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0) S1568x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1568x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v69) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v70) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v71) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v72) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v73) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v74) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v75) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v76) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v77) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v78) S1568x512.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S32x56x56x256 : Shape := ⟨4, ![32, 56, 56, 256]⟩
abbrev S256 : Shape := ⟨1, ![256]⟩
abbrev S_ : Shape := ⟨0, ![]⟩
abbrev S1x1x1x256 : Shape := ⟨4, ![1, 1, 1, 256]⟩
abbrev S32x56x56x256x1 : Shape := ⟨5, ![32, 56, 56, 256, 1]⟩
abbrev S32x56x56x256x2 : Shape := ⟨5, ![32, 56, 56, 256, 2]⟩

abbrev nBuf : Space → Nat
  | .hbm => 105
  | .vmem => 0
  | .smem => 0
  | _ => 0

abbrev bufTy : (tb : Table) → Fin (tcTables nBuf tb) → BufTy
  | .hbm, ⟨0, _⟩ => ⟨S32x56x56x256, .f32⟩
  | .hbm, ⟨1, _⟩ => ⟨S32x56x56x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S1x1x1x256, .f32⟩
  | .hbm, ⟨17, _⟩ => ⟨S32x56x56x256, .f32⟩
  | .hbm, ⟨18, _⟩ => ⟨S32x56x56x256, .f32⟩
  | .hbm, ⟨19, _⟩ => ⟨S1x1x1x256, .f32⟩
  | .hbm, ⟨20, _⟩ => ⟨S32x56x56x256, .f32⟩
  | .hbm, ⟨21, _⟩ => ⟨S32x56x56x256, .f32⟩
  | .hbm, ⟨22, _⟩ => ⟨S32x56x56x256, .f32⟩
  | .hbm, ⟨23, _⟩ => ⟨S_, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S32x56x56x256, .f32⟩
  | .hbm, ⟨32, _⟩ => ⟨S_, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S32x56x56x256, .f32⟩
  | .hbm, ⟨38, _⟩ => ⟨S_, .f32⟩
  | .hbm, ⟨39, _⟩ => ⟨S256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S256, .f32⟩
  | .hbm, ⟨57, _⟩ => ⟨S256, .f32⟩
  | .hbm, ⟨58, _⟩ => ⟨S_, .f32⟩
  | .hbm, ⟨59, _⟩ => ⟨S256, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S256, .f32⟩
  | .hbm, ⟨65, _⟩ => ⟨S256, .f32⟩
  | .hbm, ⟨66, _⟩ => ⟨S256, .f32⟩
  | .hbm, ⟨67, _⟩ => ⟨S256, .f32⟩
  | .hbm, ⟨68, _⟩ => ⟨S1x1x1x256, .f32⟩
  | .hbm, ⟨69, _⟩ => ⟨S32x56x56x256, .f32⟩
  | .hbm, ⟨70, _⟩ => ⟨S32x56x56x256, .f32⟩
  | .hbm, ⟨71, _⟩ => ⟨S1x1x1x256, .f32⟩
  | .hbm, ⟨72, _⟩ => ⟨S32x56x56x256, .f32⟩
  | .hbm, ⟨73, _⟩ => ⟨S32x56x56x256, .f32⟩
  | .hbm, ⟨74, _⟩ => ⟨S32x56x56x256, .f32⟩
  | .hbm, ⟨75, _⟩ => ⟨S1x1x1x256, .f32⟩
  | .hbm, ⟨76, _⟩ => ⟨S32x56x56x256, .f32⟩
  | .hbm, ⟨77, _⟩ => ⟨S32x56x56x256, .f32⟩
  | .hbm, ⟨78, _⟩ => ⟨S1x1x1x256, .f32⟩
  | .hbm, ⟨79, _⟩ => ⟨S32x56x56x256, .f32⟩
  | .hbm, ⟨80, _⟩ => ⟨S32x56x56x256, .f32⟩
  | .hbm, ⟨81, _⟩ => ⟨S32x56x56x256, .f32⟩
  | .hbm, ⟨82, _⟩ => ⟨S1x1x1x256, .f32⟩
  | .hbm, ⟨83, _⟩ => ⟨S32x56x56x256, .f32⟩
  | .hbm, ⟨84, _⟩ => ⟨S32x56x56x256, .f32⟩
  | .hbm, ⟨85, _⟩ => ⟨S1x1x1x256, .f32⟩
  | .hbm, ⟨86, _⟩ => ⟨S32x56x56x256, .f32⟩
  | .hbm, ⟨87, _⟩ => ⟨S32x56x56x256, .f32⟩
  | .hbm, ⟨88, _⟩ => ⟨S32x56x56x256, .f32⟩
  | .hbm, ⟨89, _⟩ => ⟨S1x1x1x256, .f32⟩
  | .hbm, ⟨90, _⟩ => ⟨S32x56x56x256, .f32⟩
  | .hbm, ⟨91, _⟩ => ⟨S32x56x56x256, .f32⟩
  | .hbm, ⟨92, _⟩ => ⟨S1x1x1x256, .f32⟩
  | .hbm, ⟨93, _⟩ => ⟨S32x56x56x256, .f32⟩
  | .hbm, ⟨94, _⟩ => ⟨S32x56x56x256, .f32⟩
  | .hbm, ⟨95, _⟩ => ⟨S1x1x1x256, .f32⟩
  | .hbm, ⟨96, _⟩ => ⟨S32x56x56x256, .f32⟩
  | .hbm, ⟨97, _⟩ => ⟨S32x56x56x256, .f32⟩
  | .hbm, ⟨98, _⟩ => ⟨S32x56x56x256, .f32⟩
  | .hbm, ⟨99, _⟩ => ⟨S1x1x1x256, .f32⟩
  | .hbm, ⟨100, _⟩ => ⟨S32x56x56x256, .f32⟩
  | .hbm, ⟨101, _⟩ => ⟨S32x56x56x256, .f32⟩
  | .hbm, ⟨102, _⟩ => ⟨S32x56x56x256x1, .f32⟩
  | .hbm, ⟨103, _⟩ => ⟨S32x56x56x256x1, .f32⟩
  | .hbm, ⟨104, _⟩ => ⟨S32x56x56x256x2, .f32⟩
  | _, _ => ⟨S32x56x56x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_cst_9 : Ref sig .tc := ⟨.hbm, 40, rfl⟩
abbrev main_v24 : Ref sig .tc := ⟨.hbm, 41, rfl⟩
abbrev main_v25 : Ref sig .tc := ⟨.hbm, 42, rfl⟩
abbrev main_cst_10 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩

abbrev nD : Nat := 1
abbrev τ : Topo := Topo.v7x

variable {F : FTy → Type} [FloatOps F]

class Facts₀ : Prop where
  reducesTo_S32x56x56x256_S256_d0_1_2 : S32x56x56x256.ReducesTo [0, 1, 2] S256
  h_S_ : 0 < S_.numel
  bcast_S_S256 : S_.BroadcastsInDim S256 (![] : Fin 0 → Fin S256.rank)
  bcast_S256_S1x1x1x256_3 : S256.BroadcastsInDim S1x1x1x256 (![3] : Fin 1 → Fin S1x1x1x256.rank)
  bcast_S1x1x1x256_S32x56x56x256_0_1_2_3 : S1x1x1x256.BroadcastsInDim S32x56x56x256 (![0, 1, 2, 3] : Fin 4 → Fin S32x56x56x256.rank)
  bcast_S32x56x56x256_S32x56x56x256x1_0_1_2_3 : S32x56x56x256.BroadcastsInDim S32x56x56x256x1 (![0, 1, 2, 3] : Fin 4 → Fin S32x56x56x256x1.rank)
  concatenates_S32x56x56x256x1_S32x56x56x256x1_S32x56x56x256x2_d4 : Shape.Concatenates [S32x56x56x256x1, S32x56x56x256x1] S32x56x56x256x2 4

variable [Facts₀]

class Facts : Prop extends Facts₀ where

variable [Facts]
-- ==== Proof.RunValue.lean ====
/-
  The idealized kernel program's run with its result named. The program is two kernel regions among three stretches
  of host operations; the buffer contents at each boundary are a fold from the launch memory, and at the return every
  unscoped buffer holds the last fold's contents. Read at the result buffer this says what the program computes: the
  last stretch of host operations applied to what the second region leaves; read at an argument it says the argument
  is unchanged.
-/
import proofs.«177178_j57784490000847_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and each argument as launched. -/
theorem run : θ_run defs (onTc (τ := τ) (main (F := F))) ⟨m, fun _ => 0, ρ⟩ (fun r => ∀ c : Dev nD,
      r.2.mem ((c.tc : Thread nD τ).loc main_v79) = W5 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v79 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.RunValue

end
-- ==== Proof.StatsBody.lean ====
/-
  The first kernel's body, read at an index. At each grid point the body adds, to row 0 of each of its five
  accumulator blocks [8, 256], the sum over the point's 3136 rows of: the real parts, the imaginary parts, their
  squares, and their product — one running total per channel and per moment.
-/
import proofs.«177178_j57784490000847_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stats

open Cert.KernelIdeal Cert.KernelIdeal.Gen Idealize.ShloMosaic Idealize.ShloMosaic.ValueIdx

/-- The sum over the 3136 rows of a block, as a one-row array, read at channel ch. -/
theorem colsum_apply (v : FVec Ideal S3136x256 .f32) (hφ : FKind.Formats .f32)
    (hacc : (0x00000000#32 : BitVec 32) = FKind.add.neutral .f32 hφ) (u : Fin 1) (ch : Fin 256) :
    shapeCast S1x256 (multiReduction .add [0] S256 v 0x00000000#32 reduces_S3136x256_S256 hφ hacc) shapeCasts_S256_S1x256 (ix2 u ch)
      = ∑ k : Fin 3136, v (ix2 k ch) := by
  refine (shapeCast_a_1a_apply _ shapeCasts_S256_S1x256 u ch).trans ?_
  refine (Ideal.multiReduction_add_single v 0x00000000#32 reduces_S3136x256_S256 hφ hacc (ix1 ch)).trans ?_
  refine Finset.sum_congr rfl fun k _ => congrArg v ?_
  funext a
  match a with
  | ⟨0, _⟩ => rfl
  | ⟨1, _⟩ => rfl

/-- The running total of the real parts after a point: the row before plus the block's column sums. -/
theorem sum_re_apply (x : Vec Ideal S3136x256 .f32) (acc : Vec Ideal S1x256 .f32) (u : Fin 1) (ch : Fin 256) :
    k0_pay10 (F := Ideal) x acc (ix2 u ch) = acc (ix2 u ch) + ∑ k : Fin 3136, x (ix2 k ch) := by
  unfold k0_pay10 k0_pay8
  simp only [shapeCast_self]
  exact congrArg (acc (ix2 u ch) + ·) (colsum_apply x _ _ u ch)

/-- The running total of the imaginary parts. -/
theorem sum_im_apply (y : Vec Ideal S3136x256 .f32) (acc : Vec Ideal S1x256 .f32) (u : Fin 1) (ch : Fin 256) :
    k0_pay11 (F := Ideal) y acc (ix2 u ch) = acc (ix2 u ch) + ∑ k : Fin 3136, y (ix2 k ch) := by
  unfold k0_pay11 k0_pay9
  simp only [shapeCast_self]
  exact congrArg (acc (ix2 u ch) + ·) (colsum_apply y _ _ u ch)

/-- The running total of the squared real parts. -/
theorem sum_rr_apply (x : Vec Ideal S3136x256 .f32) (acc : Vec Ideal S1x256 .f32) (u : Fin 1) (ch : Fin 256) :
    k0_pay12 (F := Ideal) x acc (ix2 u ch) = acc (ix2 u ch) + ∑ k : Fin 3136, x (ix2 k ch) * x (ix2 k ch) := by
  unfold k0_pay12 k0_pay8
  simp only [shapeCast_self]
  exact congrArg (acc (ix2 u ch) + ·) (colsum_apply (mulf x x) _ _ u ch)

/-- The running total of the squared imaginary parts. -/
theorem sum_ii_apply (y : Vec Ideal S3136x256 .f32) (acc : Vec Ideal S1x256 .f32) (u : Fin 1) (ch : Fin 256) :
    k0_pay1 (F := Ideal) (k0_pay13 acc) (k0_pay14 y) (ix2 u ch) = acc (ix2 u ch) + ∑ k : Fin 3136, y (ix2 k ch) * y (ix2 k ch) := by
  unfold k0_pay1 k0_pay13 k0_pay14 k0_pay9
  simp only [shapeCast_self]
  exact congrArg (acc (ix2 u ch) + ·) (colsum_apply (mulf y y) _ _ u ch)

/-- The running total of the products real · imaginary. -/
theorem sum_ri_apply (x y : Vec Ideal S3136x256 .f32) (acc : Vec Ideal S1x256 .f32) (u : Fin 1) (ch : Fin 256) :
    k0_pay2 (F := Ideal) (k0_pay8 x) (k0_pay9 y) acc (ix2 u ch) = acc (ix2 u ch) + ∑ k : Fin 3136, x (ix2 k ch) * y (ix2 k ch) := by
  unfold k0_pay2 k0_pay8 k0_pay9
  simp only [shapeCast_self]
  exact congrArg (acc (ix2 u ch) + ·) (colsum_apply (mulf x y) _ _ u ch)

end Cert.KernelIdeal.Stats

end
-- ==== Proof.StatsPieces.lean ====
/-
  What the first kernel's body leaves in row 0 of each accumulator block. At a core's first grid point the body
  zeroes the five blocks and then adds the point's column sums to row 0, so row 0 holds zero plus the sums; at every
  other point it adds the column sums to what row 0 held before.
-/
import proofs.«177178_j57784490000847_2_alg».proof.Proof.Gen.KernelIdeal.Frame
import proofs.«177178_j57784490000847_2_alg».proof.Proof.StatsBody

set_option maxRecDepth 16384

noncomputable section

namespace Cert.KernelIdeal.Stats

open Cert.KernelIdeal Cert.KernelIdeal.Gen Idealize.ShloMosaic Idealize.ShloMosaic.TcCoe Idealize.SL.Sem Idealize.ShloMosaic.ValueIdx Idealize.ShloMosaic.Tactic

theorem hz : (![0, 0] : Fin 2 → Nat) = fun _ => 0 := funext fun a => by fin_cases a <;> rfl

/-- Row 0, lane ch of a block [8, 256] is entry (0, ch) of its first-row rectangle. -/
theorem row0_emb (ch : Fin 256) : (ix2 (0 : Fin 8) ch : S8x256.Idx)
    = (Rect.unit (s := S8x256) ![0, 0] ![1, 256] inb_S8x256_S1x256_0_0).emb (ix2 (0 : Fin 1) ch) := by
  funext a
  apply Fin.ext
  match a with
  | ⟨0, _⟩ => rfl
  | ⟨1, _⟩ => show ch.val = 0 + 1 * ch.val; omega

/-- The zero block read at row 0 is 0. -/
theorem zero_row (v : View sig .tc .vmem S8x256 .f32) (pz : FVec Ideal S8x256 .f32)
    (hpz : pz = broadcast S8x256 (Scalar.ofBits (F := Ideal) .f32 0x00000000#32)) (ch : Fin 256) :
    (v.readCov (Val := Elt Ideal) [⟨Rect.unit (s := S8x256) ![0, 0] S8x256.size inb_S8x256_S8x256_0_0, pz⟩]
      (Rect.unit (s := S8x256) ![0, 0] S1x256.size inb_S8x256_S1x256_0_0).toLoadRect (ix2 (0 : Fin 1) ch) : EReal) = 0 := by
  rw [View.readCov_eq_canon_ld _ _ _ (fun y => ⟨_, List.mem_singleton_self _, View.mem_set_unit_zero hz inb_S8x256_S8x256_0_0 y⟩),
    View.canon_unit_zero hz]
  subst hpz
  exact Ideal.ofBits_zero_f32

/-- At a point that does not restart: row 0 of accumulator 0 is what it held plus the block's column sums. -/
theorem step_re (c : Dev nD) (i : grid0.Coords) (arg2 : Memref sig .tc .vmem S3136x256 .f32) (harg2 : arg2.IsWhole) (arg3 : Memref sig .tc .vmem S3136x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S8x256 .f32) (harg8 : arg8.IsWhole) (hc0 : ¬cond0_0 i)
    (x0 x1 : Vec Ideal S3136x256 .f32) (xo2 xo3 xo4 xo5 xo6 : Vec Ideal S8x256 .f32) (ch : Fin 256) :
    out0_B_2 (F := Ideal) c i arg2 harg2 arg3 harg3 arg4 harg4 arg5 harg5 arg6 harg6 arg7 harg7 arg8 harg8 hc0 x0 x1 xo2 xo3 xo4 xo5 xo6 (ix2 (0 : Fin 8) ch)
      = xo2 (ix2 (0 : Fin 8) ch) + ∑ k : Fin 3136, x0 (ix2 k ch) := by
  unfold out0_B_2
  unfold kernelRun0_B
  dsimp only
  sl_unfold_words
  rw [row0_emb ch, View.read_writes_cons_emb]
  simp only [View.readAt_eq_ld, harg2.read_unread, harg3.read_unread, harg4.read_unread, View.ld_unit_zero (S := S3136x256) hz]
  refine (sum_re_apply _ _ 0 ch).trans ?_
  rfl

/-- At a point that restarts: row 0 of accumulator 0 is zero plus the block's column sums. -/
theorem start_re (c : Dev nD) (i : grid0.Coords) (arg2 : Memref sig .tc .vmem S3136x256 .f32) (harg2 : arg2.IsWhole) (arg3 : Memref sig .tc .vmem S3136x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S8x256 .f32) (harg8 : arg8.IsWhole) (hc0 : cond0_0 i)
    (x0 x1 : Vec Ideal S3136x256 .f32) (ch : Fin 256) :
    out0_A_2 (F := Ideal) c i arg2 harg2 arg3 harg3 arg4 harg4 arg5 harg5 arg6 harg6 arg7 harg7 arg8 harg8 hc0 x0 x1 (ix2 (0 : Fin 8) ch)
      = 0 + ∑ k : Fin 3136, x0 (ix2 k ch) := by
  unfold out0_A_2
  rw [View.read_writes_eq_canon _ _ _ (cover0_A_2 c i arg2 harg2 arg3 harg3 arg4 harg4 arg5 harg5 arg6 harg6 arg7 harg7 arg8 harg8 hc0 x0 x1)]
  unfold kernelRun0_A
  dsimp only
  sl_unfold_words
  rw [row0_emb ch, View.canon_cons_emb]
  simp only [View.readAt_eq_ld, harg2.read_unread, harg3.read_unread, View.ld_unit_zero (S := S3136x256) hz]
  refine (sum_re_apply _ _ 0 ch).trans ?_
  exact congrArg (· + _) (zero_row _ k0_pay3 rfl ch)

/-- At a point that does not restart: row 0 of accumulator 1 is what it held plus the block's column sums. -/
theorem step_im (c : Dev nD) (i : grid0.Coords) (arg2 : Memref sig .tc .vmem S3136x256 .f32) (harg2 : arg2.IsWhole) (arg3 : Memref sig .tc .vmem S3136x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S8x256 .f32) (harg8 : arg8.IsWhole) (hc0 : ¬cond0_0 i)
    (x0 x1 : Vec Ideal S3136x256 .f32) (xo2 xo3 xo4 xo5 xo6 : Vec Ideal S8x256 .f32) (ch : Fin 256) :
    out0_B_3 (F := Ideal) c i arg2 harg2 arg3 harg3 arg4 harg4 arg5 harg5 arg6 harg6 arg7 harg7 arg8 harg8 hc0 x0 x1 xo2 xo3 xo4 xo5 xo6 (ix2 (0 : Fin 8) ch)
      = xo3 (ix2 (0 : Fin 8) ch) + ∑ k : Fin 3136, x1 (ix2 k ch) := by
  unfold out0_B_3
  unfold kernelRun0_B
  dsimp only
  sl_unfold_words
  rw [row0_emb ch, View.read_writes_cons_emb]
  simp only [View.readAt_eq_ld, harg2.read_unread, harg3.read_unread, harg5.read_unread, View.ld_unit_zero (S := S3136x256) hz]
  refine (sum_im_apply _ _ 0 ch).trans ?_
  rfl

/-- At a point that restarts: row 0 of accumulator 1 is zero plus the block's column sums. -/
theorem start_im (c : Dev nD) (i : grid0.Coords) (arg2 : Memref sig .tc .vmem S3136x256 .f32) (harg2 : arg2.IsWhole) (arg3 : Memref sig .tc .vmem S3136x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S8x256 .f32) (harg8 : arg8.IsWhole) (hc0 : cond0_0 i)
    (x0 x1 : Vec Ideal S3136x256 .f32) (ch : Fin 256) :
    out0_A_3 (F := Ideal) c i arg2 harg2 arg3 harg3 arg4 harg4 arg5 harg5 arg6 harg6 arg7 harg7 arg8 harg8 hc0 x0 x1 (ix2 (0 : Fin 8) ch)
      = 0 + ∑ k : Fin 3136, x1 (ix2 k ch) := by
  unfold out0_A_3
  rw [View.read_writes_eq_canon _ _ _ (cover0_A_3 c i arg2 harg2 arg3 harg3 arg4 harg4 arg5 harg5 arg6 harg6 arg7 harg7 arg8 harg8 hc0 x0 x1)]
  unfold kernelRun0_A
  dsimp only
  sl_unfold_words
  rw [row0_emb ch, View.canon_cons_emb]
  simp only [View.readAt_eq_ld, harg2.read_unread, harg3.read_unread, View.ld_unit_zero (S := S3136x256) hz]
  refine (sum_im_apply _ _ 0 ch).trans ?_
  exact congrArg (· + _) (zero_row _ k0_pay4 rfl ch)

/-- At a point that does not restart: row 0 of accumulator 2 is what it held plus the block's column sums. -/
theorem step_rr (c : Dev nD) (i : grid0.Coords) (arg2 : Memref sig .tc .vmem S3136x256 .f32) (harg2 : arg2.IsWhole) (arg3 : Memref sig .tc .vmem S3136x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S8x256 .f32) (harg8 : arg8.IsWhole) (hc0 : ¬cond0_0 i)
    (x0 x1 : Vec Ideal S3136x256 .f32) (xo2 xo3 xo4 xo5 xo6 : Vec Ideal S8x256 .f32) (ch : Fin 256) :
    out0_B_4 (F := Ideal) c i arg2 harg2 arg3 harg3 arg4 harg4 arg5 harg5 arg6 harg6 arg7 harg7 arg8 harg8 hc0 x0 x1 xo2 xo3 xo4 xo5 xo6 (ix2 (0 : Fin 8) ch)
      = xo4 (ix2 (0 : Fin 8) ch) + ∑ k : Fin 3136, x0 (ix2 k ch) * x0 (ix2 k ch) := by
  unfold out0_B_4
  unfold kernelRun0_B
  dsimp only
  sl_unfold_words
  rw [row0_emb ch, View.read_writes_cons_emb]
  simp only [View.readAt_eq_ld, harg2.read_unread, harg3.read_unread, harg6.read_unread, View.ld_unit_zero (S := S3136x256) hz]
  refine (sum_rr_apply _ _ 0 ch).trans ?_
  rfl

/-- At a point that restarts: row 0 of accumulator 2 is zero plus the block's column sums. -/
theorem start_rr (c : Dev nD) (i : grid0.Coords) (arg2 : Memref sig .tc .vmem S3136x256 .f32) (harg2 : arg2.IsWhole) (arg3 : Memref sig .tc .vmem S3136x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S8x256 .f32) (harg8 : arg8.IsWhole) (hc0 : cond0_0 i)
    (x0 x1 : Vec Ideal S3136x256 .f32) (ch : Fin 256) :
    out0_A_4 (F := Ideal) c i arg2 harg2 arg3 harg3 arg4 harg4 arg5 harg5 arg6 harg6 arg7 harg7 arg8 harg8 hc0 x0 x1 (ix2 (0 : Fin 8) ch)
      = 0 + ∑ k : Fin 3136, x0 (ix2 k ch) * x0 (ix2 k ch) := by
  unfold out0_A_4
  rw [View.read_writes_eq_canon _ _ _ (cover0_A_4 c i arg2 harg2 arg3 harg3 arg4 harg4 arg5 harg5 arg6 harg6 arg7 harg7 arg8 harg8 hc0 x0 x1)]
  unfold kernelRun0_A
  dsimp only
  sl_unfold_words
  rw [row0_emb ch, View.canon_cons_emb]
  simp only [View.readAt_eq_ld, harg2.read_unread, harg3.read_unread, View.ld_unit_zero (S := S3136x256) hz]
  refine (sum_rr_apply _ _ 0 ch).trans ?_
  exact congrArg (· + _) (zero_row _ k0_pay5 rfl ch)

/-- At a point that does not restart: row 0 of accumulator 3 is what it held plus the block's column sums. -/
theorem step_ii (c : Dev nD) (i : grid0.Coords) (arg2 : Memref sig .tc .vmem S3136x256 .f32) (harg2 : arg2.IsWhole) (arg3 : Memref sig .tc .vmem S3136x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S8x256 .f32) (harg8 : arg8.IsWhole) (hc0 : ¬cond0_0 i)
    (x0 x1 : Vec Ideal S3136x256 .f32) (xo2 xo3 xo4 xo5 xo6 : Vec Ideal S8x256 .f32) (ch : Fin 256) :
    out0_B_5 (F := Ideal) c i arg2 harg2 arg3 harg3 arg4 harg4 arg5 harg5 arg6 harg6 arg7 harg7 arg8 harg8 hc0 x0 x1 xo2 xo3 xo4 xo5 xo6 (ix2 (0 : Fin 8) ch)
      = xo5 (ix2 (0 : Fin 8) ch) + ∑ k : Fin 3136, x1 (ix2 k ch) * x1 (ix2 k ch) := by
  unfold out0_B_5
  unfold kernelRun0_B
  dsimp only
  sl_unfold_words
  rw [row0_emb ch, View.read_writes_cons_emb]
  simp only [View.readAt_eq_ld, harg2.read_unread, harg3.read_unread, harg7.read_unread, View.ld_unit_zero (S := S3136x256) hz]
  refine (sum_ii_apply _ _ 0 ch).trans ?_
  rfl

/-- At a point that restarts: row 0 of accumulator 3 is zero plus the block's column sums. -/
theorem start_ii (c : Dev nD) (i : grid0.Coords) (arg2 : Memref sig .tc .vmem S3136x256 .f32) (harg2 : arg2.IsWhole) (arg3 : Memref sig .tc .vmem S3136x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S8x256 .f32) (harg8 : arg8.IsWhole) (hc0 : cond0_0 i)
    (x0 x1 : Vec Ideal S3136x256 .f32) (ch : Fin 256) :
    out0_A_5 (F := Ideal) c i arg2 harg2 arg3 harg3 arg4 harg4 arg5 harg5 arg6 harg6 arg7 harg7 arg8 harg8 hc0 x0 x1 (ix2 (0 : Fin 8) ch)
      = 0 + ∑ k : Fin 3136, x1 (ix2 k ch) * x1 (ix2 k ch) := by
  unfold out0_A_5
  rw [View.read_writes_eq_canon _ _ _ (cover0_A_5 c i arg2 harg2 arg3 harg3 arg4 harg4 arg5 harg5 arg6 harg6 arg7 harg7 arg8 harg8 hc0 x0 x1)]
  unfold kernelRun0_A
  dsimp only
  sl_unfold_words
  rw [row0_emb ch, View.canon_cons_emb]
  simp only [View.readAt_eq_ld, harg2.read_unread, harg3.read_unread, View.ld_unit_zero (S := S3136x256) hz]
  refine (sum_ii_apply _ _ 0 ch).trans ?_
  exact congrArg (· + _) (zero_row _ k0_pay6 rfl ch)

/-- At a point that does not restart: row 0 of accumulator 4 is what it held plus the block's column sums. -/
theorem step_ri (c : Dev nD) (i : grid0.Coords) (arg2 : Memref sig .tc .vmem S3136x256 .f32) (harg2 : arg2.IsWhole) (arg3 : Memref sig .tc .vmem S3136x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S8x256 .f32) (harg8 : arg8.IsWhole) (hc0 : ¬cond0_0 i)
    (x0 x1 : Vec Ideal S3136x256 .f32) (xo2 xo3 xo4 xo5 xo6 : Vec Ideal S8x256 .f32) (ch : Fin 256) :
    out0_B_6 (F := Ideal) c i arg2 harg2 arg3 harg3 arg4 harg4 arg5 harg5 arg6 harg6 arg7 harg7 arg8 harg8 hc0 x0 x1 xo2 xo3 xo4 xo5 xo6 (ix2 (0 : Fin 8) ch)
      = xo6 (ix2 (0 : Fin 8) ch) + ∑ k : Fin 3136, x0 (ix2 k ch) * x1 (ix2 k ch) := by
  unfold out0_B_6
  unfold kernelRun0_B
  dsimp only
  sl_unfold_words
  rw [row0_emb ch, View.read_writes_cons_emb]
  simp only [View.readAt_eq_ld, harg2.read_unread, harg3.read_unread, harg8.read_unread, View.ld_unit_zero (S := S3136x256) hz]
  refine (sum_ri_apply _ _ _ 0 ch).trans ?_
  rfl

/-- At a point that restarts: row 0 of accumulator 4 is zero plus the block's column sums. -/
theorem start_ri (c : Dev nD) (i : grid0.Coords) (arg2 : Memref sig .tc .vmem S3136x256 .f32) (harg2 : arg2.IsWhole) (arg3 : Memref sig .tc .vmem S3136x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S8x256 .f32) (harg8 : arg8.IsWhole) (hc0 : cond0_0 i)
    (x0 x1 : Vec Ideal S3136x256 .f32) (ch : Fin 256) :
    out0_A_6 (F := Ideal) c i arg2 harg2 arg3 harg3 arg4 harg4 arg5 harg5 arg6 harg6 arg7 harg7 arg8 harg8 hc0 x0 x1 (ix2 (0 : Fin 8) ch)
      = 0 + ∑ k : Fin 3136, x0 (ix2 k ch) * x1 (ix2 k ch) := by
  unfold out0_A_6
  rw [View.read_writes_eq_canon _ _ _ (cover0_A_6 c i arg2 harg2 arg3 harg3 arg4 harg4 arg5 harg5 arg6 harg6 arg7 harg7 arg8 harg8 hc0 x0 x1)]
  unfold kernelRun0_A
  dsimp only
  sl_unfold_words
  rw [row0_emb ch, View.canon_cons_emb]
  simp only [View.readAt_eq_ld, harg2.read_unread, harg3.read_unread, View.ld_unit_zero (S := S3136x256) hz]
  refine (sum_ri_apply _ _ _ 0 ch).trans ?_
  exact congrArg (· + _) (zero_row _ k0_pay7 rfl ch)

end Cert.KernelIdeal.Stats

end
-- ==== Proof.LibBlockSum.lean ====
/-
  Finite sums cut into consecutive blocks, and a sum over a padded range whose padding is zero.

  A sum over `Fin (nb * bs)` is the sum, over the `nb` blocks, of the sums over each block's `bs` consecutive
  indices: block `b` holds the indices `b * bs + i`, `i < bs`. This is the re-indexing of `Fin (nb * bs)` by
  quotient and remainder, so it holds in every commutative additive monoid; no finiteness of the summands is asked
  for, which is what lets it be used on the extended reals. The instance for 8192 = 4 · 2048 is written as the left
  fold from zero that an accumulator performs — start at zero, add the block sums one after another — both as one closed
  expression and as a recurrence. Last, a sum over `Fin (a + p)` whose final `p` summands vanish is the sum over
  `Fin a`.
-/
import Mathlib.Algebra.BigOperators.Fin
import Mathlib.Logic.Equiv.Fin.Basic
import Mathlib.Data.EReal.Basic

open scoped BigOperators

namespace Cert.LibBlockSum

/-- Index `i` of block `b` lies below the total length. -/
theorem blk_lt {nb bs : ℕ} (b : Fin nb) (i : Fin bs) : b.val * bs + i.val < nb * bs :=
  calc b.val * bs + i.val < b.val * bs + bs := Nat.add_lt_add_left i.isLt _
    _ = (b.val + 1) * bs := (Nat.succ_mul _ _).symm
    _ ≤ nb * bs := Nat.mul_le_mul_right _ b.isLt

/-- A sum over `nb * bs` consecutive indices is the sum over the `nb` blocks of the sums over each block. -/
theorem sum_blocks {M : Type*} [AddCommMonoid M] (nb bs : ℕ) (f : Fin (nb * bs) → M) :
    ∑ k : Fin (nb * bs), f k = ∑ b : Fin nb, ∑ i : Fin bs, f ⟨b.val * bs + i.val, blk_lt b i⟩ := by
  rw [← Equiv.sum_comp finProdFinEquiv f, Fintype.sum_prod_type]
  refine Finset.sum_congr rfl fun b _ => Finset.sum_congr rfl fun i _ => ?_
  congr 1
  apply Fin.ext
  show i.val + bs * b.val = b.val * bs + i.val
  rw [Nat.add_comm, Nat.mul_comm]

/-- 8192 summands as four blocks of 2048, added to zero one block after another, left to right. -/
theorem sum_8192_as_4x2048 (f : Fin 8192 → EReal) :
    ∑ k : Fin 8192, f k
      = ((((0 + ∑ i : Fin 2048, f ⟨0 * 2048 + i.val, by omega⟩)
            + ∑ i : Fin 2048, f ⟨1 * 2048 + i.val, by omega⟩)
            + ∑ i : Fin 2048, f ⟨2 * 2048 + i.val, by omega⟩)
            + ∑ i : Fin 2048, f ⟨3 * 2048 + i.val, by omega⟩) := by
  have h := sum_blocks 4 2048 f
  rw [Fin.sum_univ_four] at h
  rw [zero_add]
  exact h

/-- The same as a recurrence: an accumulator that starts at zero and at step `n` (of four) adds the sum over block `n`
    ends at the whole sum. -/
theorem acc_8192_as_4x2048 (f : Fin 8192 → EReal) (acc : ℕ → EReal) (h0 : acc 0 = 0)
    (hs : ∀ (n : ℕ) (hn : n < 4), acc (n + 1) = acc n + ∑ i : Fin 2048, f ⟨n * 2048 + i.val, by omega⟩) :
    acc 4 = ∑ k : Fin 8192, f k := by
  have e1 : acc 1 = acc 0 + _ := hs 0 (by omega)
  have e2 : acc 2 = acc 1 + _ := hs 1 (by omega)
  have e3 : acc 3 = acc 2 + _ := hs 2 (by omega)
  have e4 : acc 4 = acc 3 + _ := hs 3 (by omega)
  rw [e4, e3, e2, e1, h0, sum_8192_as_4x2048 f]

/-- The same with the four block sums given as a function on `Fin 4`. -/
theorem fold_8192_as_4x2048 (f : Fin 8192 → EReal) (g : Fin 4 → EReal)
    (hg : ∀ b : Fin 4, g b = ∑ i : Fin 2048, f ⟨b.val * 2048 + i.val, by omega⟩) :
    (((0 + g 0) + g 1) + g 2) + g 3 = ∑ k : Fin 8192, f k := by
  rw [hg 0, hg 1, hg 2, hg 3, sum_8192_as_4x2048 f]
  rfl

/-- A sum whose last `p` summands are zero is the sum of the first `a`. -/
theorem sum_pad_general {M : Type*} [AddCommMonoid M] (a p : ℕ) (f : Fin (a + p) → M)
    (h : ∀ j : Fin (a + p), a ≤ j.val → f j = 0) :
    ∑ j : Fin (a + p), f j = ∑ j : Fin a, f ⟨j.val, Nat.lt_add_right p j.isLt⟩ := by
  rw [Fin.sum_univ_add, Fintype.sum_eq_zero (fun j : Fin p => f (Fin.natAdd a j)) (fun j => h _ (Nat.le_add_right a j.val)),
    add_zero]
  rfl

/-- 384 summands of which those from 345 on are zero. -/
theorem sum_pad (f : Fin 384 → EReal) (h : ∀ j : Fin 384, 345 ≤ j.val → f j = 0) :
    ∑ j : Fin 384, f j = ∑ j : Fin 345, f ⟨j.val, by omega⟩ :=
  sum_pad_general 345 39 f h

end Cert.LibBlockSum
-- ==== Proof.Sums.lean ====
/-
  A running total kept per core. 100352 samples are cut into 32 blocks of 3136; a core takes 16 consecutive blocks
  and keeps a running total that restarts from zero at its first block. The two cores' final totals add up to the sum
  over all samples. Sums on the extended reals commute and associate, so no finiteness is needed.
-/
import proofs.«177178_j57784490000847_2_alg».proof.Proof.LibBlockSum
import Mathlib.Algebra.BigOperators.Intervals
import Mathlib.Data.EReal.Basic

open scoped BigOperators

noncomputable section

namespace Cert.Sums

/-- The sum over block t (3136 consecutive samples), zero past the last block. -/
def blockSum (f : Fin 100352 → EReal) (t : ℕ) : EReal :=
  if h : t < 32 then ∑ k : Fin 3136, f ⟨3136 * t + k.val, by have := k.isLt; omega⟩ else 0

/-- The running total after block n: restarted from zero at every sixteenth block. -/
def accAt (f : Fin 100352 → EReal) : ℕ → EReal
  | 0 => 0 + blockSum f 0
  | n + 1 => if (n + 1) % 16 = 0 then 0 + blockSum f (n + 1) else accAt f n + blockSum f (n + 1)

theorem accAt_restart (f : Fin 100352 → EReal) (n : ℕ) (h : n % 16 = 0) : accAt f n = 0 + blockSum f n := by
  cases n with
  | zero => rfl
  | succ n => exact if_pos h

theorem accAt_step (f : Fin 100352 → EReal) (n : ℕ) (h : ¬ n % 16 = 0) : accAt f n = accAt f (n - 1) + blockSum f n := by
  cases n with
  | zero => exact absurd (Nat.zero_mod _) h
  | succ n => exact if_neg h

/-- Within a core's run the running total is the sum of the blocks so far. -/
theorem accAt_core (f : Fin 100352 → EReal) (c : ℕ) : ∀ j : ℕ, j < 16 →
    accAt f (16 * c + j) = ∑ i ∈ Finset.range (j + 1), blockSum f (16 * c + i)
  | 0, _ => by
    rw [accAt_restart f _ (by omega), zero_add, Finset.sum_range_one]
  | j + 1, hj => by
    rw [accAt_step f _ (by omega), show 16 * c + (j + 1) - 1 = 16 * c + j from by omega, accAt_core f c j (by omega),
      Finset.sum_range_succ _ (j + 1)]

/-- The two cores' final totals add up to the sum over all samples. -/
theorem total (f : Fin 100352 → EReal) : accAt f 15 + accAt f 31 = ∑ n : Fin 100352, f n := by
  have h0 := accAt_core f 0 15 (by omega)
  have h1 := accAt_core f 1 15 (by omega)
  simp only [Nat.mul_zero, Nat.zero_add, Nat.mul_one] at h0 h1
  rw [h0, show (31 : ℕ) = 16 + 15 from rfl, h1]
  have hb := Cert.LibBlockSum.sum_blocks 32 3136 f
  rw [show (∑ n : Fin 100352, f n) = ∑ k : Fin (32 * 3136), f k from rfl, hb]
  have hr : (∑ b : Fin 32, ∑ i : Fin 3136, f ⟨b.val * 3136 + i.val, Cert.LibBlockSum.blk_lt b i⟩)
      = ∑ b ∈ Finset.range 32, blockSum f b := by
    rw [← Fin.sum_univ_eq_sum_range (fun b => blockSum f b) 32]
    refine Finset.sum_congr rfl fun b _ => ?_
    unfold blockSum
    rw [dif_pos b.isLt]
    refine Finset.sum_congr rfl fun i _ => congrArg f (Fin.ext ?_)
    show b.val * 3136 + i.val = 3136 * b.val + i.val
    omega
  rw [hr]
  exact (Finset.sum_range_add (fun b => blockSum f b) 16 16).symm

end Cert.Sums

end
-- ==== Proof.StatsArray.lean ====
/-
  What the first kernel region leaves in rows 0 and 8 of its five accumulator arrays [16, 256]. The grid is 2 cores
  by 16 steps; point t = 16·core + step reads rows 3136·t … of the two sample arrays, and each accumulator block
  (rows 8·core … 8·core + 7) is written back once, after the core's last step. Row 0 of a block is the running total
  of the core's 16 blocks of samples, for each of the five moments.
-/
import proofs.«177178_j57784490000847_2_alg».proof.Proof.Gen.KernelIdeal.Frame
import proofs.«177178_j57784490000847_2_alg».proof.Proof.StatsPieces
import proofs.«177178_j57784490000847_2_alg».proof.Proof.Sums

set_option maxRecDepth 16384

noncomputable section

namespace Cert.KernelIdeal.Stats

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The five moments of channel ch as functions of the sample number, over sample arrays X, Y [100352, 256]. -/
def mRe (X : S100352x256.Idx → EReal) (ch : Fin 256) : Fin 100352 → EReal := fun n => X (ix2 n ch)
def mProd (X Y : S100352x256.Idx → EReal) (ch : Fin 256) : Fin 100352 → EReal := fun n => X (ix2 n ch) * Y (ix2 n ch)

theorem t_lt0 (t : Fin cfg0.N) : t.val < 32 := by have h : cfg0.N = 32 := N_0; have := t.isLt; omega

/-- The index maps over the grid: a sample window takes row block t; an accumulator window block t / 16. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val / 16 ∧ win0_2.index t (1 : Fin 2) = 0)
    ∧ (win0_3.index t (0 : Fin 2) = t.val / 16 ∧ win0_3.index t (1 : Fin 2) = 0)
    ∧ (win0_4.index t (0 : Fin 2) = t.val / 16 ∧ win0_4.index t (1 : Fin 2) = 0)
    ∧ (win0_5.index t (0 : Fin 2) = t.val / 16 ∧ win0_5.index t (1 : Fin 2) = 0)
    ∧ (win0_6.index t (0 : Fin 2) = t.val / 16 ∧ win0_6.index t (1 : Fin 2) = 0) :=
  (by decide +kernel : ∀ t : Fin grid0.N, _)

/-- The sample windows' blocks at a point, as arrays of extended reals. -/
abbrev blkRe (c : Dev nD) (t : Fin cfg0.N) : Vec Ideal S3136x256 .f32 := iblk0 V c 0 t
abbrev blkIm (c : Dev nD) (t : Fin cfg0.N) : Vec Ideal S3136x256 .f32 := iblk0 V c 1 t

/-- Row k of sample block t is row 3136·t + k of the array. -/
theorem read0_re (c : Dev nD) (t : Fin cfg0.N) (k : Fin 3136) (ch : Fin 256) :
    blkRe V c t (ix2 k ch)
      = V c main_v0 (ix2 (⟨3136 * t.val + k.val, by have := t_lt0 t; omega⟩ : Fin 100352) ch) := by
  unfold blkRe iblk0
  rw [View.read_apply]
  show V c main_v0 _ = _
  congr 1
  funext a
  apply Fin.ext
  obtain ⟨⟨e0, e1⟩, -⟩ := idx_facts0 t
  match a with
  | ⟨0, _⟩ => show win0_0.index t (0 : Fin 2) * 3136 + 1 * k.val = 3136 * t.val + k.val; omega
  | ⟨1, _⟩ => show win0_0.index t (1 : Fin 2) * 256 + 1 * ch.val = ch.val; omega

theorem read0_im (c : Dev nD) (t : Fin cfg0.N) (k : Fin 3136) (ch : Fin 256) :
    blkIm V c t (ix2 k ch)
      = V c main_v1 (ix2 (⟨3136 * t.val + k.val, by have := t_lt0 t; omega⟩ : Fin 100352) ch) := by
  unfold blkIm iblk0
  rw [View.read_apply]
  show V c main_v1 _ = _
  congr 1
  funext a
  apply Fin.ext
  obtain ⟨-, ⟨e0, e1⟩, -⟩ := idx_facts0 t
  match a with
  | ⟨0, _⟩ => show win0_1.index t (0 : Fin 2) * 3136 + 1 * k.val = 3136 * t.val + k.val; omega
  | ⟨1, _⟩ => show win0_1.index t (1 : Fin 2) * 256 + 1 * ch.val = ch.val; omega

/-- A block's column sums are the block sum of the moment. -/
theorem blk_re (c : Dev nD) (t : Fin cfg0.N) (ch : Fin 256) :
    ∑ k : Fin 3136, blkRe V c t (ix2 k ch) = Cert.Sums.blockSum (mRe (V c main_v0) ch) t.val := by
  unfold Cert.Sums.blockSum
  rw [dif_pos (t_lt0 t)]
  exact Finset.sum_congr rfl fun k _ => read0_re V c t k ch
theorem blk_im (c : Dev nD) (t : Fin cfg0.N) (ch : Fin 256) :
    ∑ k : Fin 3136, blkIm V c t (ix2 k ch) = Cert.Sums.blockSum (mRe (V c main_v1) ch) t.val := by
  unfold Cert.Sums.blockSum
  rw [dif_pos (t_lt0 t)]
  exact Finset.sum_congr rfl fun k _ => read0_im V c t k ch
theorem blk_rr (c : Dev nD) (t : Fin cfg0.N) (ch : Fin 256) :
    ∑ k : Fin 3136, blkRe V c t (ix2 k ch) * blkRe V c t (ix2 k ch)
      = Cert.Sums.blockSum (mProd (V c main_v0) (V c main_v0) ch) t.val := by
  unfold Cert.Sums.blockSum
  rw [dif_pos (t_lt0 t)]
  exact Finset.sum_congr rfl fun k _ => by rw [read0_re V c t k ch]; rfl
theorem blk_ii (c : Dev nD) (t : Fin cfg0.N) (ch : Fin 256) :
    ∑ k : Fin 3136, blkIm V c t (ix2 k ch) * blkIm V c t (ix2 k ch)
      = Cert.Sums.blockSum (mProd (V c main_v1) (V c main_v1) ch) t.val := by
  unfold Cert.Sums.blockSum
  rw [dif_pos (t_lt0 t)]
  exact Finset.sum_congr rfl fun k _ => by rw [read0_im V c t k ch]; rfl
theorem blk_ri (c : Dev nD) (t : Fin cfg0.N) (ch : Fin 256) :
    ∑ k : Fin 3136, blkRe V c t (ix2 k ch) * blkIm V c t (ix2 k ch)
      = Cert.Sums.blockSum (mProd (V c main_v0) (V c main_v1) ch) t.val := by
  unfold Cert.Sums.blockSum
  rw [dif_pos (t_lt0 t)]
  exact Finset.sum_congr rfl fun k _ => by rw [read0_re V c t k ch, read0_im V c t k ch]; rfl

/-- Row 0 of accumulator 0 after point n is the running total of its moment. -/
theorem acc_re (c : Dev nD) (ch : Fin 256) : ∀ (n : ℕ) (hn : n < cfg0.N),
    (outsAt0 V c n hn).1 (ix2 (0 : Fin 8) ch) = Cert.Sums.accAt (mRe (V c main_v0) ch) n
  | 0, hn => by
    rw [outsAt0_A V c ⟨0, hn⟩ rfl]
    dsimp only
    rw [start_re, blk_re V c ⟨0, hn⟩ ch]
    rfl
  | n + 1, hn => by
    by_cases h0 : (n + 1) % 16 = 0
    · rw [outsAt0_A V c ⟨n + 1, hn⟩ h0]
      dsimp only
      rw [start_re, blk_re V c ⟨n + 1, hn⟩ ch, Cert.Sums.accAt_restart _ _ h0]
    · rw [outsAt0_B V c ⟨n + 1, hn⟩ h0]
      dsimp only
      rw [step_re, blk_re V c ⟨n + 1, hn⟩ ch, Cert.Sums.accAt_step _ _ h0]
      show (outsAt0 V c n _).1 (ix2 (0 : Fin 8) ch) + _ = Cert.Sums.accAt _ n + _
      rw [acc_re c ch n]

/-- Row 0 of accumulator 1 after point n is the running total of its moment. -/
theorem acc_im (c : Dev nD) (ch : Fin 256) : ∀ (n : ℕ) (hn : n < cfg0.N),
    (outsAt0 V c n hn).2.1 (ix2 (0 : Fin 8) ch) = Cert.Sums.accAt (mRe (V c main_v1) ch) n
  | 0, hn => by
    rw [outsAt0_A V c ⟨0, hn⟩ rfl]
    dsimp only
    rw [start_im, blk_im V c ⟨0, hn⟩ ch]
    rfl
  | n + 1, hn => by
    by_cases h0 : (n + 1) % 16 = 0
    · rw [outsAt0_A V c ⟨n + 1, hn⟩ h0]
      dsimp only
      rw [start_im, blk_im V c ⟨n + 1, hn⟩ ch, Cert.Sums.accAt_restart _ _ h0]
    · rw [outsAt0_B V c ⟨n + 1, hn⟩ h0]
      dsimp only
      rw [step_im, blk_im V c ⟨n + 1, hn⟩ ch, Cert.Sums.accAt_step _ _ h0]
      show (outsAt0 V c n _).2.1 (ix2 (0 : Fin 8) ch) + _ = Cert.Sums.accAt _ n + _
      rw [acc_im c ch n]

/-- Row 0 of accumulator 2 after point n is the running total of its moment. -/
theorem acc_rr (c : Dev nD) (ch : Fin 256) : ∀ (n : ℕ) (hn : n < cfg0.N),
    (outsAt0 V c n hn).2.2.1 (ix2 (0 : Fin 8) ch) = Cert.Sums.accAt (mProd (V c main_v0) (V c main_v0) ch) n
  | 0, hn => by
    rw [outsAt0_A V c ⟨0, hn⟩ rfl]
    dsimp only
    rw [start_rr, blk_rr V c ⟨0, hn⟩ ch]
    rfl
  | n + 1, hn => by
    by_cases h0 : (n + 1) % 16 = 0
    · rw [outsAt0_A V c ⟨n + 1, hn⟩ h0]
      dsimp only
      rw [start_rr, blk_rr V c ⟨n + 1, hn⟩ ch, Cert.Sums.accAt_restart _ _ h0]
    · rw [outsAt0_B V c ⟨n + 1, hn⟩ h0]
      dsimp only
      rw [step_rr, blk_rr V c ⟨n + 1, hn⟩ ch, Cert.Sums.accAt_step _ _ h0]
      show (outsAt0 V c n _).2.2.1 (ix2 (0 : Fin 8) ch) + _ = Cert.Sums.accAt _ n + _
      rw [acc_rr c ch n]

/-- Row 0 of accumulator 3 after point n is the running total of its moment. -/
theorem acc_ii (c : Dev nD) (ch : Fin 256) : ∀ (n : ℕ) (hn : n < cfg0.N),
    (outsAt0 V c n hn).2.2.2.1 (ix2 (0 : Fin 8) ch) = Cert.Sums.accAt (mProd (V c main_v1) (V c main_v1) ch) n
  | 0, hn => by
    rw [outsAt0_A V c ⟨0, hn⟩ rfl]
    dsimp only
    rw [start_ii, blk_ii V c ⟨0, hn⟩ ch]
    rfl
  | n + 1, hn => by
    by_cases h0 : (n + 1) % 16 = 0
    · rw [outsAt0_A V c ⟨n + 1, hn⟩ h0]
      dsimp only
      rw [start_ii, blk_ii V c ⟨n + 1, hn⟩ ch, Cert.Sums.accAt_restart _ _ h0]
    · rw [outsAt0_B V c ⟨n + 1, hn⟩ h0]
      dsimp only
      rw [step_ii, blk_ii V c ⟨n + 1, hn⟩ ch, Cert.Sums.accAt_step _ _ h0]
      show (outsAt0 V c n _).2.2.2.1 (ix2 (0 : Fin 8) ch) + _ = Cert.Sums.accAt _ n + _
      rw [acc_ii c ch n]

/-- Row 0 of accumulator 4 after point n is the running total of its moment. -/
theorem acc_ri (c : Dev nD) (ch : Fin 256) : ∀ (n : ℕ) (hn : n < cfg0.N),
    (outsAt0 V c n hn).2.2.2.2 (ix2 (0 : Fin 8) ch) = Cert.Sums.accAt (mProd (V c main_v0) (V c main_v1) ch) n
  | 0, hn => by
    rw [outsAt0_A V c ⟨0, hn⟩ rfl]
    dsimp only
    rw [start_ri, blk_ri V c ⟨0, hn⟩ ch]
    rfl
  | n + 1, hn => by
    by_cases h0 : (n + 1) % 16 = 0
    · rw [outsAt0_A V c ⟨n + 1, hn⟩ h0]
      dsimp only
      rw [start_ri, blk_ri V c ⟨n + 1, hn⟩ ch, Cert.Sums.accAt_restart _ _ h0]
    · rw [outsAt0_B V c ⟨n + 1, hn⟩ h0]
      dsimp only
      rw [step_ri, blk_ri V c ⟨n + 1, hn⟩ ch, Cert.Sums.accAt_step _ _ h0]
      show (outsAt0 V c n _).2.2.2.2 (ix2 (0 : Fin 8) ch) + _ = Cert.Sums.accAt _ n + _
      rw [acc_ri c ch n]

end Cert.KernelIdeal.Stats

end
-- ==== Proof.StatsFinal.lean ====
/-
  The accumulator arrays after the first region: block `core` of each array is written back once, after point
  16·core + 15, with what the core's running totals then are. So row 0 holds the first core's totals and row 8 the
  second core's.
-/
import proofs.«177178_j57784490000847_2_alg».proof.Proof.Gen.KernelIdeal.Frame
import proofs.«177178_j57784490000847_2_alg».proof.Proof.StatsArray

set_option maxRecDepth 16384

noncomputable section

namespace Cert.KernelIdeal.Stats

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem outsAt0_congr (c : Dev nD) {n n' : ℕ} (e : n = n') (h : n < cfg0.N) (h' : n' < cfg0.N) :
    outsAt0 V c n h = outsAt0 V c n' h' := by subst e; rfl

/-! ### Accumulator 0 -/

/-- Its block's contents after point n. -/
def after_re (c : Dev nD) (n : ℕ) : Vec Ideal S8x256 .f32 :=
  if h : n < cfg0.N then (outsAt0 V c n h).1 else fun _ => 0

/-- The array the write-backs leave: block i / 8 at the contents after the core's last point. -/
def G_re (c : Dev nD) : S16x256.Idx → EReal := fun i =>
  after_re V c (16 * ((i 0).val / 8) + 15)
    (ix2 (⟨(i 0).val % 8, Nat.mod_lt _ (by decide)⟩ : Fin 8) (⟨(i 1).val, (i 1).isLt⟩ : Fin 256))

theorem G_re_at (c : Dev nD) (t : Fin cfg0.N) (h15 : t.val % 16 = 15) (x y : ℕ) (r : Fin 8) (l : Fin 256)
    (hx : x = 8 * (t.val / 16) + r.val) (hy : y = l.val) (h1 : x % 8 < 8) (h2 : y < 256) :
    after_re V c (16 * (x / 8) + 15) (ix2 (⟨x % 8, h1⟩ : Fin 8) (⟨y, h2⟩ : Fin 256))
      = (outsAt0 V c t.val t.isLt).1 (ix2 r l) := by
  subst hx hy
  have hr := r.isLt
  have e1 : 16 * ((8 * (t.val / 16) + r.val) / 8) + 15 = t.val := by omega
  have e2 : (⟨(8 * (t.val / 16) + r.val) % 8, h1⟩ : Fin 8) = r := Fin.ext (by show (8 * (t.val / 16) + r.val) % 8 = r.val; omega)
  have e3 : (⟨l.val, h2⟩ : Fin 256) = l := Fin.ext rfl
  rw [e2, e3]
  unfold after_re
  rw [dif_pos (by rw [e1]; exact t.isLt), outsAt0_congr V c e1 _ t.isLt]

theorem flushed_re (c : Dev nD) (t : Fin cfg0.N) (hf : (cfg0.win 2).flush t = true) :
    (dat0 V c).flushed 2 t = ((cfg0.win 2).blk t).view.read (Elt Ideal) (G_re V c) := by
  have h15 : t.val % 16 = 15 := (flush0_2 t).mp hf
  show (cfg0.win 2).cut (grid0.coords t) ((dat0 V c).after 2 t) = _
  rw [after0_2]
  funext y
  have hy0 : (y 0).val < 8 := (y 0).isLt
  have hy1 : (y 1).val < 256 := (y 1).isLt
  have hx : ((cfg0.win 2).xinj (grid0.coords t) y : S8x256.Idx)
      = ix2 (⟨(y 0).val, hy0⟩ : Fin 8) (⟨(y 1).val, hy1⟩ : Fin 256) := by
    funext a
    match a with
    | ⟨0, _⟩ => rfl
    | ⟨1, _⟩ => rfl
  show (outsAt0 V c t.val t.isLt).1 ((cfg0.win 2).xinj (grid0.coords t) y) = G_re V c (((cfg0.win 2).blk t).view.emb y)
  rw [hx]
  obtain ⟨e0, e1⟩ := (idx_facts0 t).2.2.1
  have hrow : ((((cfg0.win 2).blk t).view.emb y) 0).val = 8 * (t.val / 16) + (y 0).val := by
    show win0_2.index t (0 : Fin 2) * 8 + 1 * (y 0).val = _; omega
  have hcol : ((((cfg0.win 2).blk t).view.emb y) 1).val = (y 1).val := by
    show win0_2.index t (1 : Fin 2) * 256 + 1 * (y 1).val = _; omega
  exact (G_re_at V c t h15 _ _ (⟨(y 0).val, hy0⟩ : Fin 8) (⟨(y 1).val, hy1⟩ : Fin 256) hrow hcol _ _).symm

theorem mem_blk_re (t : Fin cfg0.N) (i : S16x256.Idx) :
    i ∈ ((cfg0.win 2).blk t).view.set ↔ ∀ a : Fin 2, win0_2.index t a * S8x256.size a ≤ (i a).val ∧ (i a).val < win0_2.index t a * S8x256.size a + S8x256.size a := by
  show i ∈ ((View.whole main_v2_0).slice (win0_2.rect t)).set ↔ _
  rw [View.set_slice_whole, Rect.mem_set_unit]
  exact Iff.rfl

/-- The array after the region. -/
theorem final_re (c : Dev nD) : (dat0 V c).arrAt 2 cfg0.N = G_re V c :=
  (dat0 V c).arrAt_eq_of_cover 2 (G_re V c) (flushed_re V c) fun i => by
    have h0 : (i 0).val < 16 := (i 0).isLt
    have h1 : (i 1).val < 256 := (i 1).isLt
    have hN : cfg0.N = 32 := N_0
    refine ⟨⟨16 * ((i 0).val / 8) + 15, by rw [hN]; omega⟩, (flush0_2 _).mpr (by show (16 * ((i 0).val / 8) + 15) % 16 = 15; omega), ?_⟩
    rw [mem_blk_re]
    obtain ⟨e0, e1⟩ := (idx_facts0 ⟨16 * ((i 0).val / 8) + 15, by rw [hN]; omega⟩).2.2.1
    intro a
    match a with
    | ⟨0, _⟩ =>
      show win0_2.index _ (0 : Fin 2) * 8 ≤ (i 0).val ∧ (i 0).val < win0_2.index _ (0 : Fin 2) * 8 + 8
      rw [e0]; dsimp only; omega
    | ⟨1, _⟩ =>
      show win0_2.index _ (1 : Fin 2) * 256 ≤ (i 1).val ∧ (i 1).val < win0_2.index _ (1 : Fin 2) * 256 + 256
      rw [e1]; omega

/-- The array at an index with known coordinates. -/
theorem G_re_apply (c : Dev nD) (i : S16x256.Idx) (x y : ℕ) (hx : (i 0).val = x) (hy : (i 1).val = y)
    (h1 : x % 8 < 8) (h2 : y < 256) :
    G_re V c i = after_re V c (16 * (x / 8) + 15) (ix2 (⟨x % 8, h1⟩ : Fin 8) (⟨y, h2⟩ : Fin 256)) := by
  subst hx hy
  rfl

/-- Rows 0 and 8: the two cores' final running totals. -/
theorem row0_re (c : Dev nD) (ch : Fin 256) (A : S16x256.Idx → EReal) (hA : A = (dat0 V c).arrAt 2 cfg0.N) :
    A (ix2 (0 : Fin 16) ch) = Cert.Sums.accAt (mRe (V c main_v0) ch) 15 := by
  subst hA
  rw [final_re V c]
  have hN : (15 : ℕ) < cfg0.N := by have h : cfg0.N = 32 := N_0; omega
  rw [G_re_apply V c (ix2 (0 : Fin 16) ch) 0 ch.val rfl rfl (by decide) ch.isLt]
  show after_re V c 15 (ix2 (0 : Fin 8) ch) = _
  unfold after_re
  rw [dif_pos hN]
  exact acc_re V c ch 15 hN
theorem row8_re (c : Dev nD) (ch : Fin 256) (A : S16x256.Idx → EReal) (hA : A = (dat0 V c).arrAt 2 cfg0.N) :
    A (ix2 (8 : Fin 16) ch) = Cert.Sums.accAt (mRe (V c main_v0) ch) 31 := by
  subst hA
  rw [final_re V c]
  have hN : (31 : ℕ) < cfg0.N := by have h : cfg0.N = 32 := N_0; omega
  rw [G_re_apply V c (ix2 (8 : Fin 16) ch) 8 ch.val rfl rfl (by decide) ch.isLt]
  show after_re V c 31 (ix2 (0 : Fin 8) ch) = _
  unfold after_re
  rw [dif_pos hN]
  exact acc_re V c ch 31 hN

/-- So rows 0 and 8 add up to the moment's sum over all samples. -/
theorem total_re (c : Dev nD) (ch : Fin 256) (A : S16x256.Idx → EReal) (hA : A = (dat0 V c).arrAt 2 cfg0.N) :
    A (ix2 (0 : Fin 16) ch) + A (ix2 (8 : Fin 16) ch) = ∑ n : Fin 100352, mRe (V c main_v0) ch n := by
  rw [row0_re V c ch A hA, row8_re V c ch A hA, Cert.Sums.total]

/-! ### Accumulator 1 -/

/-- Its block's contents after point n. -/
def after_im (c : Dev nD) (n : ℕ) : Vec Ideal S8x256 .f32 :=
  if h : n < cfg0.N then (outsAt0 V c n h).2.1 else fun _ => 0

/-- The array the write-backs leave: block i / 8 at the contents after the core's last point. -/
def G_im (c : Dev nD) : S16x256.Idx → EReal := fun i =>
  after_im V c (16 * ((i 0).val / 8) + 15)
    (ix2 (⟨(i 0).val % 8, Nat.mod_lt _ (by decide)⟩ : Fin 8) (⟨(i 1).val, (i 1).isLt⟩ : Fin 256))

theorem G_im_at (c : Dev nD) (t : Fin cfg0.N) (h15 : t.val % 16 = 15) (x y : ℕ) (r : Fin 8) (l : Fin 256)
    (hx : x = 8 * (t.val / 16) + r.val) (hy : y = l.val) (h1 : x % 8 < 8) (h2 : y < 256) :
    after_im V c (16 * (x / 8) + 15) (ix2 (⟨x % 8, h1⟩ : Fin 8) (⟨y, h2⟩ : Fin 256))
      = (outsAt0 V c t.val t.isLt).2.1 (ix2 r l) := by
  subst hx hy
  have hr := r.isLt
  have e1 : 16 * ((8 * (t.val / 16) + r.val) / 8) + 15 = t.val := by omega
  have e2 : (⟨(8 * (t.val / 16) + r.val) % 8, h1⟩ : Fin 8) = r := Fin.ext (by show (8 * (t.val / 16) + r.val) % 8 = r.val; omega)
  have e3 : (⟨l.val, h2⟩ : Fin 256) = l := Fin.ext rfl
  rw [e2, e3]
  unfold after_im
  rw [dif_pos (by rw [e1]; exact t.isLt), outsAt0_congr V c e1 _ t.isLt]

theorem flushed_im (c : Dev nD) (t : Fin cfg0.N) (hf : (cfg0.win 3).flush t = true) :
    (dat0 V c).flushed 3 t = ((cfg0.win 3).blk t).view.read (Elt Ideal) (G_im V c) := by
  have h15 : t.val % 16 = 15 := (flush0_3 t).mp hf
  show (cfg0.win 3).cut (grid0.coords t) ((dat0 V c).after 3 t) = _
  rw [after0_3]
  funext y
  have hy0 : (y 0).val < 8 := (y 0).isLt
  have hy1 : (y 1).val < 256 := (y 1).isLt
  have hx : ((cfg0.win 3).xinj (grid0.coords t) y : S8x256.Idx)
      = ix2 (⟨(y 0).val, hy0⟩ : Fin 8) (⟨(y 1).val, hy1⟩ : Fin 256) := by
    funext a
    match a with
    | ⟨0, _⟩ => rfl
    | ⟨1, _⟩ => rfl
  show (outsAt0 V c t.val t.isLt).2.1 ((cfg0.win 3).xinj (grid0.coords t) y) = G_im V c (((cfg0.win 3).blk t).view.emb y)
  rw [hx]
  obtain ⟨e0, e1⟩ := (idx_facts0 t).2.2.2.1
  have hrow : ((((cfg0.win 3).blk t).view.emb y) 0).val = 8 * (t.val / 16) + (y 0).val := by
    show win0_3.index t (0 : Fin 2) * 8 + 1 * (y 0).val = _; omega
  have hcol : ((((cfg0.win 3).blk t).view.emb y) 1).val = (y 1).val := by
    show win0_3.index t (1 : Fin 2) * 256 + 1 * (y 1).val = _; omega
  exact (G_im_at V c t h15 _ _ (⟨(y 0).val, hy0⟩ : Fin 8) (⟨(y 1).val, hy1⟩ : Fin 256) hrow hcol _ _).symm

theorem mem_blk_im (t : Fin cfg0.N) (i : S16x256.Idx) :
    i ∈ ((cfg0.win 3).blk t).view.set ↔ ∀ a : Fin 2, win0_3.index t a * S8x256.size a ≤ (i a).val ∧ (i a).val < win0_3.index t a * S8x256.size a + S8x256.size a := by
  show i ∈ ((View.whole main_v2_1).slice (win0_3.rect t)).set ↔ _
  rw [View.set_slice_whole, Rect.mem_set_unit]
  exact Iff.rfl

/-- The array after the region. -/
theorem final_im (c : Dev nD) : (dat0 V c).arrAt 3 cfg0.N = G_im V c :=
  (dat0 V c).arrAt_eq_of_cover 3 (G_im V c) (flushed_im V c) fun i => by
    have h0 : (i 0).val < 16 := (i 0).isLt
    have h1 : (i 1).val < 256 := (i 1).isLt
    have hN : cfg0.N = 32 := N_0
    refine ⟨⟨16 * ((i 0).val / 8) + 15, by rw [hN]; omega⟩, (flush0_3 _).mpr (by show (16 * ((i 0).val / 8) + 15) % 16 = 15; omega), ?_⟩
    rw [mem_blk_im]
    obtain ⟨e0, e1⟩ := (idx_facts0 ⟨16 * ((i 0).val / 8) + 15, by rw [hN]; omega⟩).2.2.2.1
    intro a
    match a with
    | ⟨0, _⟩ =>
      show win0_3.index _ (0 : Fin 2) * 8 ≤ (i 0).val ∧ (i 0).val < win0_3.index _ (0 : Fin 2) * 8 + 8
      rw [e0]; dsimp only; omega
    | ⟨1, _⟩ =>
      show win0_3.index _ (1 : Fin 2) * 256 ≤ (i 1).val ∧ (i 1).val < win0_3.index _ (1 : Fin 2) * 256 + 256
      rw [e1]; omega

/-- The array at an index with known coordinates. -/
theorem G_im_apply (c : Dev nD) (i : S16x256.Idx) (x y : ℕ) (hx : (i 0).val = x) (hy : (i 1).val = y)
    (h1 : x % 8 < 8) (h2 : y < 256) :
    G_im V c i = after_im V c (16 * (x / 8) + 15) (ix2 (⟨x % 8, h1⟩ : Fin 8) (⟨y, h2⟩ : Fin 256)) := by
  subst hx hy
  rfl

/-- Rows 0 and 8: the two cores' final running totals. -/
theorem row0_im (c : Dev nD) (ch : Fin 256) (A : S16x256.Idx → EReal) (hA : A = (dat0 V c).arrAt 3 cfg0.N) :
    A (ix2 (0 : Fin 16) ch) = Cert.Sums.accAt (mRe (V c main_v1) ch) 15 := by
  subst hA
  rw [final_im V c]
  have hN : (15 : ℕ) < cfg0.N := by have h : cfg0.N = 32 := N_0; omega
  rw [G_im_apply V c (ix2 (0 : Fin 16) ch) 0 ch.val rfl rfl (by decide) ch.isLt]
  show after_im V c 15 (ix2 (0 : Fin 8) ch) = _
  unfold after_im
  rw [dif_pos hN]
  exact acc_im V c ch 15 hN
theorem row8_im (c : Dev nD) (ch : Fin 256) (A : S16x256.Idx → EReal) (hA : A = (dat0 V c).arrAt 3 cfg0.N) :
    A (ix2 (8 : Fin 16) ch) = Cert.Sums.accAt (mRe (V c main_v1) ch) 31 := by
  subst hA
  rw [final_im V c]
  have hN : (31 : ℕ) < cfg0.N := by have h : cfg0.N = 32 := N_0; omega
  rw [G_im_apply V c (ix2 (8 : Fin 16) ch) 8 ch.val rfl rfl (by decide) ch.isLt]
  show after_im V c 31 (ix2 (0 : Fin 8) ch) = _
  unfold after_im
  rw [dif_pos hN]
  exact acc_im V c ch 31 hN

/-- So rows 0 and 8 add up to the moment's sum over all samples. -/
theorem total_im (c : Dev nD) (ch : Fin 256) (A : S16x256.Idx → EReal) (hA : A = (dat0 V c).arrAt 3 cfg0.N) :
    A (ix2 (0 : Fin 16) ch) + A (ix2 (8 : Fin 16) ch) = ∑ n : Fin 100352, mRe (V c main_v1) ch n := by
  rw [row0_im V c ch A hA, row8_im V c ch A hA, Cert.Sums.total]

/-! ### Accumulator 2 -/

/-- Its block's contents after point n. -/
def after_rr (c : Dev nD) (n : ℕ) : Vec Ideal S8x256 .f32 :=
  if h : n < cfg0.N then (outsAt0 V c n h).2.2.1 else fun _ => 0

/-- The array the write-backs leave: block i / 8 at the contents after the core's last point. -/
def G_rr (c : Dev nD) : S16x256.Idx → EReal := fun i =>
  after_rr V c (16 * ((i 0).val / 8) + 15)
    (ix2 (⟨(i 0).val % 8, Nat.mod_lt _ (by decide)⟩ : Fin 8) (⟨(i 1).val, (i 1).isLt⟩ : Fin 256))

theorem G_rr_at (c : Dev nD) (t : Fin cfg0.N) (h15 : t.val % 16 = 15) (x y : ℕ) (r : Fin 8) (l : Fin 256)
    (hx : x = 8 * (t.val / 16) + r.val) (hy : y = l.val) (h1 : x % 8 < 8) (h2 : y < 256) :
    after_rr V c (16 * (x / 8) + 15) (ix2 (⟨x % 8, h1⟩ : Fin 8) (⟨y, h2⟩ : Fin 256))
      = (outsAt0 V c t.val t.isLt).2.2.1 (ix2 r l) := by
  subst hx hy
  have hr := r.isLt
  have e1 : 16 * ((8 * (t.val / 16) + r.val) / 8) + 15 = t.val := by omega
  have e2 : (⟨(8 * (t.val / 16) + r.val) % 8, h1⟩ : Fin 8) = r := Fin.ext (by show (8 * (t.val / 16) + r.val) % 8 = r.val; omega)
  have e3 : (⟨l.val, h2⟩ : Fin 256) = l := Fin.ext rfl
  rw [e2, e3]
  unfold after_rr
  rw [dif_pos (by rw [e1]; exact t.isLt), outsAt0_congr V c e1 _ t.isLt]

theorem flushed_rr (c : Dev nD) (t : Fin cfg0.N) (hf : (cfg0.win 4).flush t = true) :
    (dat0 V c).flushed 4 t = ((cfg0.win 4).blk t).view.read (Elt Ideal) (G_rr V c) := by
  have h15 : t.val % 16 = 15 := (flush0_4 t).mp hf
  show (cfg0.win 4).cut (grid0.coords t) ((dat0 V c).after 4 t) = _
  rw [after0_4]
  funext y
  have hy0 : (y 0).val < 8 := (y 0).isLt
  have hy1 : (y 1).val < 256 := (y 1).isLt
  have hx : ((cfg0.win 4).xinj (grid0.coords t) y : S8x256.Idx)
      = ix2 (⟨(y 0).val, hy0⟩ : Fin 8) (⟨(y 1).val, hy1⟩ : Fin 256) := by
    funext a
    match a with
    | ⟨0, _⟩ => rfl
    | ⟨1, _⟩ => rfl
  show (outsAt0 V c t.val t.isLt).2.2.1 ((cfg0.win 4).xinj (grid0.coords t) y) = G_rr V c (((cfg0.win 4).blk t).view.emb y)
  rw [hx]
  obtain ⟨e0, e1⟩ := (idx_facts0 t).2.2.2.2.1
  have hrow : ((((cfg0.win 4).blk t).view.emb y) 0).val = 8 * (t.val / 16) + (y 0).val := by
    show win0_4.index t (0 : Fin 2) * 8 + 1 * (y 0).val = _; omega
  have hcol : ((((cfg0.win 4).blk t).view.emb y) 1).val = (y 1).val := by
    show win0_4.index t (1 : Fin 2) * 256 + 1 * (y 1).val = _; omega
  exact (G_rr_at V c t h15 _ _ (⟨(y 0).val, hy0⟩ : Fin 8) (⟨(y 1).val, hy1⟩ : Fin 256) hrow hcol _ _).symm

theorem mem_blk_rr (t : Fin cfg0.N) (i : S16x256.Idx) :
    i ∈ ((cfg0.win 4).blk t).view.set ↔ ∀ a : Fin 2, win0_4.index t a * S8x256.size a ≤ (i a).val ∧ (i a).val < win0_4.index t a * S8x256.size a + S8x256.size a := by
  show i ∈ ((View.whole main_v2_2).slice (win0_4.rect t)).set ↔ _
  rw [View.set_slice_whole, Rect.mem_set_unit]
  exact Iff.rfl

/-- The array after the region. -/
theorem final_rr (c : Dev nD) : (dat0 V c).arrAt 4 cfg0.N = G_rr V c :=
  (dat0 V c).arrAt_eq_of_cover 4 (G_rr V c) (flushed_rr V c) fun i => by
    have h0 : (i 0).val < 16 := (i 0).isLt
    have h1 : (i 1).val < 256 := (i 1).isLt
    have hN : cfg0.N = 32 := N_0
    refine ⟨⟨16 * ((i 0).val / 8) + 15, by rw [hN]; omega⟩, (flush0_4 _).mpr (by show (16 * ((i 0).val / 8) + 15) % 16 = 15; omega), ?_⟩
    rw [mem_blk_rr]
    obtain ⟨e0, e1⟩ := (idx_facts0 ⟨16 * ((i 0).val / 8) + 15, by rw [hN]; omega⟩).2.2.2.2.1
    intro a
    match a with
    | ⟨0, _⟩ =>
      show win0_4.index _ (0 : Fin 2) * 8 ≤ (i 0).val ∧ (i 0).val < win0_4.index _ (0 : Fin 2) * 8 + 8
      rw [e0]; dsimp only; omega
    | ⟨1, _⟩ =>
      show win0_4.index _ (1 : Fin 2) * 256 ≤ (i 1).val ∧ (i 1).val < win0_4.index _ (1 : Fin 2) * 256 + 256
      rw [e1]; omega

/-- The array at an index with known coordinates. -/
theorem G_rr_apply (c : Dev nD) (i : S16x256.Idx) (x y : ℕ) (hx : (i 0).val = x) (hy : (i 1).val = y)
    (h1 : x % 8 < 8) (h2 : y < 256) :
    G_rr V c i = after_rr V c (16 * (x / 8) + 15) (ix2 (⟨x % 8, h1⟩ : Fin 8) (⟨y, h2⟩ : Fin 256)) := by
  subst hx hy
  rfl

/-- Rows 0 and 8: the two cores' final running totals. -/
theorem row0_rr (c : Dev nD) (ch : Fin 256) (A : S16x256.Idx → EReal) (hA : A = (dat0 V c).arrAt 4 cfg0.N) :
    A (ix2 (0 : Fin 16) ch) = Cert.Sums.accAt (mProd (V c main_v0) (V c main_v0) ch) 15 := by
  subst hA
  rw [final_rr V c]
  have hN : (15 : ℕ) < cfg0.N := by have h : cfg0.N = 32 := N_0; omega
  rw [G_rr_apply V c (ix2 (0 : Fin 16) ch) 0 ch.val rfl rfl (by decide) ch.isLt]
  show after_rr V c 15 (ix2 (0 : Fin 8) ch) = _
  unfold after_rr
  rw [dif_pos hN]
  exact acc_rr V c ch 15 hN
theorem row8_rr (c : Dev nD) (ch : Fin 256) (A : S16x256.Idx → EReal) (hA : A = (dat0 V c).arrAt 4 cfg0.N) :
    A (ix2 (8 : Fin 16) ch) = Cert.Sums.accAt (mProd (V c main_v0) (V c main_v0) ch) 31 := by
  subst hA
  rw [final_rr V c]
  have hN : (31 : ℕ) < cfg0.N := by have h : cfg0.N = 32 := N_0; omega
  rw [G_rr_apply V c (ix2 (8 : Fin 16) ch) 8 ch.val rfl rfl (by decide) ch.isLt]
  show after_rr V c 31 (ix2 (0 : Fin 8) ch) = _
  unfold after_rr
  rw [dif_pos hN]
  exact acc_rr V c ch 31 hN

/-- So rows 0 and 8 add up to the moment's sum over all samples. -/
theorem total_rr (c : Dev nD) (ch : Fin 256) (A : S16x256.Idx → EReal) (hA : A = (dat0 V c).arrAt 4 cfg0.N) :
    A (ix2 (0 : Fin 16) ch) + A (ix2 (8 : Fin 16) ch) = ∑ n : Fin 100352, mProd (V c main_v0) (V c main_v0) ch n := by
  rw [row0_rr V c ch A hA, row8_rr V c ch A hA, Cert.Sums.total]

/-! ### Accumulator 3 -/

/-- Its block's contents after point n. -/
def after_ii (c : Dev nD) (n : ℕ) : Vec Ideal S8x256 .f32 :=
  if h : n < cfg0.N then (outsAt0 V c n h).2.2.2.1 else fun _ => 0

/-- The array the write-backs leave: block i / 8 at the contents after the core's last point. -/
def G_ii (c : Dev nD) : S16x256.Idx → EReal := fun i =>
  after_ii V c (16 * ((i 0).val / 8) + 15)
    (ix2 (⟨(i 0).val % 8, Nat.mod_lt _ (by decide)⟩ : Fin 8) (⟨(i 1).val, (i 1).isLt⟩ : Fin 256))

theorem G_ii_at (c : Dev nD) (t : Fin cfg0.N) (h15 : t.val % 16 = 15) (x y : ℕ) (r : Fin 8) (l : Fin 256)
    (hx : x = 8 * (t.val / 16) + r.val) (hy : y = l.val) (h1 : x % 8 < 8) (h2 : y < 256) :
    after_ii V c (16 * (x / 8) + 15) (ix2 (⟨x % 8, h1⟩ : Fin 8) (⟨y, h2⟩ : Fin 256))
      = (outsAt0 V c t.val t.isLt).2.2.2.1 (ix2 r l) := by
  subst hx hy
  have hr := r.isLt
  have e1 : 16 * ((8 * (t.val / 16) + r.val) / 8) + 15 = t.val := by omega
  have e2 : (⟨(8 * (t.val / 16) + r.val) % 8, h1⟩ : Fin 8) = r := Fin.ext (by show (8 * (t.val / 16) + r.val) % 8 = r.val; omega)
  have e3 : (⟨l.val, h2⟩ : Fin 256) = l := Fin.ext rfl
  rw [e2, e3]
  unfold after_ii
  rw [dif_pos (by rw [e1]; exact t.isLt), outsAt0_congr V c e1 _ t.isLt]

theorem flushed_ii (c : Dev nD) (t : Fin cfg0.N) (hf : (cfg0.win 5).flush t = true) :
    (dat0 V c).flushed 5 t = ((cfg0.win 5).blk t).view.read (Elt Ideal) (G_ii V c) := by
  have h15 : t.val % 16 = 15 := (flush0_5 t).mp hf
  show (cfg0.win 5).cut (grid0.coords t) ((dat0 V c).after 5 t) = _
  rw [after0_5]
  funext y
  have hy0 : (y 0).val < 8 := (y 0).isLt
  have hy1 : (y 1).val < 256 := (y 1).isLt
  have hx : ((cfg0.win 5).xinj (grid0.coords t) y : S8x256.Idx)
      = ix2 (⟨(y 0).val, hy0⟩ : Fin 8) (⟨(y 1).val, hy1⟩ : Fin 256) := by
    funext a
    match a with
    | ⟨0, _⟩ => rfl
    | ⟨1, _⟩ => rfl
  show (outsAt0 V c t.val t.isLt).2.2.2.1 ((cfg0.win 5).xinj (grid0.coords t) y) = G_ii V c (((cfg0.win 5).blk t).view.emb y)
  rw [hx]
  obtain ⟨e0, e1⟩ := (idx_facts0 t).2.2.2.2.2.1
  have hrow : ((((cfg0.win 5).blk t).view.emb y) 0).val = 8 * (t.val / 16) + (y 0).val := by
    show win0_5.index t (0 : Fin 2) * 8 + 1 * (y 0).val = _; omega
  have hcol : ((((cfg0.win 5).blk t).view.emb y) 1).val = (y 1).val := by
    show win0_5.index t (1 : Fin 2) * 256 + 1 * (y 1).val = _; omega
  exact (G_ii_at V c t h15 _ _ (⟨(y 0).val, hy0⟩ : Fin 8) (⟨(y 1).val, hy1⟩ : Fin 256) hrow hcol _ _).symm

theorem mem_blk_ii (t : Fin cfg0.N) (i : S16x256.Idx) :
    i ∈ ((cfg0.win 5).blk t).view.set ↔ ∀ a : Fin 2, win0_5.index t a * S8x256.size a ≤ (i a).val ∧ (i a).val < win0_5.index t a * S8x256.size a + S8x256.size a := by
  show i ∈ ((View.whole main_v2_3).slice (win0_5.rect t)).set ↔ _
  rw [View.set_slice_whole, Rect.mem_set_unit]
  exact Iff.rfl

/-- The array after the region. -/
theorem final_ii (c : Dev nD) : (dat0 V c).arrAt 5 cfg0.N = G_ii V c :=
  (dat0 V c).arrAt_eq_of_cover 5 (G_ii V c) (flushed_ii V c) fun i => by
    have h0 : (i 0).val < 16 := (i 0).isLt
    have h1 : (i 1).val < 256 := (i 1).isLt
    have hN : cfg0.N = 32 := N_0
    refine ⟨⟨16 * ((i 0).val / 8) + 15, by rw [hN]; omega⟩, (flush0_5 _).mpr (by show (16 * ((i 0).val / 8) + 15) % 16 = 15; omega), ?_⟩
    rw [mem_blk_ii]
    obtain ⟨e0, e1⟩ := (idx_facts0 ⟨16 * ((i 0).val / 8) + 15, by rw [hN]; omega⟩).2.2.2.2.2.1
    intro a
    match a with
    | ⟨0, _⟩ =>
      show win0_5.index _ (0 : Fin 2) * 8 ≤ (i 0).val ∧ (i 0).val < win0_5.index _ (0 : Fin 2) * 8 + 8
      rw [e0]; dsimp only; omega
    | ⟨1, _⟩ =>
      show win0_5.index _ (1 : Fin 2) * 256 ≤ (i 1).val ∧ (i 1).val < win0_5.index _ (1 : Fin 2) * 256 + 256
      rw [e1]; omega

/-- The array at an index with known coordinates. -/
theorem G_ii_apply (c : Dev nD) (i : S16x256.Idx) (x y : ℕ) (hx : (i 0).val = x) (hy : (i 1).val = y)
    (h1 : x % 8 < 8) (h2 : y < 256) :
    G_ii V c i = after_ii V c (16 * (x / 8) + 15) (ix2 (⟨x % 8, h1⟩ : Fin 8) (⟨y, h2⟩ : Fin 256)) := by
  subst hx hy
  rfl

/-- Rows 0 and 8: the two cores' final running totals. -/
theorem row0_ii (c : Dev nD) (ch : Fin 256) (A : S16x256.Idx → EReal) (hA : A = (dat0 V c).arrAt 5 cfg0.N) :
    A (ix2 (0 : Fin 16) ch) = Cert.Sums.accAt (mProd (V c main_v1) (V c main_v1) ch) 15 := by
  subst hA
  rw [final_ii V c]
  have hN : (15 : ℕ) < cfg0.N := by have h : cfg0.N = 32 := N_0; omega
  rw [G_ii_apply V c (ix2 (0 : Fin 16) ch) 0 ch.val rfl rfl (by decide) ch.isLt]
  show after_ii V c 15 (ix2 (0 : Fin 8) ch) = _
  unfold after_ii
  rw [dif_pos hN]
  exact acc_ii V c ch 15 hN
theorem row8_ii (c : Dev nD) (ch : Fin 256) (A : S16x256.Idx → EReal) (hA : A = (dat0 V c).arrAt 5 cfg0.N) :
    A (ix2 (8 : Fin 16) ch) = Cert.Sums.accAt (mProd (V c main_v1) (V c main_v1) ch) 31 := by
  subst hA
  rw [final_ii V c]
  have hN : (31 : ℕ) < cfg0.N := by have h : cfg0.N = 32 := N_0; omega
  rw [G_ii_apply V c (ix2 (8 : Fin 16) ch) 8 ch.val rfl rfl (by decide) ch.isLt]
  show after_ii V c 31 (ix2 (0 : Fin 8) ch) = _
  unfold after_ii
  rw [dif_pos hN]
  exact acc_ii V c ch 31 hN

/-- So rows 0 and 8 add up to the moment's sum over all samples. -/
theorem total_ii (c : Dev nD) (ch : Fin 256) (A : S16x256.Idx → EReal) (hA : A = (dat0 V c).arrAt 5 cfg0.N) :
    A (ix2 (0 : Fin 16) ch) + A (ix2 (8 : Fin 16) ch) = ∑ n : Fin 100352, mProd (V c main_v1) (V c main_v1) ch n := by
  rw [row0_ii V c ch A hA, row8_ii V c ch A hA, Cert.Sums.total]

/-! ### Accumulator 4 -/

/-- Its block's contents after point n. -/
def after_ri (c : Dev nD) (n : ℕ) : Vec Ideal S8x256 .f32 :=
  if h : n < cfg0.N then (outsAt0 V c n h).2.2.2.2 else fun _ => 0

/-- The array the write-backs leave: block i / 8 at the contents after the core's last point. -/
def G_ri (c : Dev nD) : S16x256.Idx → EReal := fun i =>
  after_ri V c (16 * ((i 0).val / 8) + 15)
    (ix2 (⟨(i 0).val % 8, Nat.mod_lt _ (by decide)⟩ : Fin 8) (⟨(i 1).val, (i 1).isLt⟩ : Fin 256))

theorem G_ri_at (c : Dev nD) (t : Fin cfg0.N) (h15 : t.val % 16 = 15) (x y : ℕ) (r : Fin 8) (l : Fin 256)
    (hx : x = 8 * (t.val / 16) + r.val) (hy : y = l.val) (h1 : x % 8 < 8) (h2 : y < 256) :
    after_ri V c (16 * (x / 8) + 15) (ix2 (⟨x % 8, h1⟩ : Fin 8) (⟨y, h2⟩ : Fin 256))
      = (outsAt0 V c t.val t.isLt).2.2.2.2 (ix2 r l) := by
  subst hx hy
  have hr := r.isLt
  have e1 : 16 * ((8 * (t.val / 16) + r.val) / 8) + 15 = t.val := by omega
  have e2 : (⟨(8 * (t.val / 16) + r.val) % 8, h1⟩ : Fin 8) = r := Fin.ext (by show (8 * (t.val / 16) + r.val) % 8 = r.val; omega)
  have e3 : (⟨l.val, h2⟩ : Fin 256) = l := Fin.ext rfl
  rw [e2, e3]
  unfold after_ri
  rw [dif_pos (by rw [e1]; exact t.isLt), outsAt0_congr V c e1 _ t.isLt]

theorem flushed_ri (c : Dev nD) (t : Fin cfg0.N) (hf : (cfg0.win 6).flush t = true) :
    (dat0 V c).flushed 6 t = ((cfg0.win 6).blk t).view.read (Elt Ideal) (G_ri V c) := by
  have h15 : t.val % 16 = 15 := (flush0_6 t).mp hf
  show (cfg0.win 6).cut (grid0.coords t) ((dat0 V c).after 6 t) = _
  rw [after0_6]
  funext y
  have hy0 : (y 0).val < 8 := (y 0).isLt
  have hy1 : (y 1).val < 256 := (y 1).isLt
  have hx : ((cfg0.win 6).xinj (grid0.coords t) y : S8x256.Idx)
      = ix2 (⟨(y 0).val, hy0⟩ : Fin 8) (⟨(y 1).val, hy1⟩ : Fin 256) := by
    funext a
    match a with
    | ⟨0, _⟩ => rfl
    | ⟨1, _⟩ => rfl
  show (outsAt0 V c t.val t.isLt).2.2.2.2 ((cfg0.win 6).xinj (grid0.coords t) y) = G_ri V c (((cfg0.win 6).blk t).view.emb y)
  rw [hx]
  obtain ⟨e0, e1⟩ := (idx_facts0 t).2.2.2.2.2.2
  have hrow : ((((cfg0.win 6).blk t).view.emb y) 0).val = 8 * (t.val / 16) + (y 0).val := by
    show win0_6.index t (0 : Fin 2) * 8 + 1 * (y 0).val = _; omega
  have hcol : ((((cfg0.win 6).blk t).view.emb y) 1).val = (y 1).val := by
    show win0_6.index t (1 : Fin 2) * 256 + 1 * (y 1).val = _; omega
  exact (G_ri_at V c t h15 _ _ (⟨(y 0).val, hy0⟩ : Fin 8) (⟨(y 1).val, hy1⟩ : Fin 256) hrow hcol _ _).symm

theorem mem_blk_ri (t : Fin cfg0.N) (i : S16x256.Idx) :
    i ∈ ((cfg0.win 6).blk t).view.set ↔ ∀ a : Fin 2, win0_6.index t a * S8x256.size a ≤ (i a).val ∧ (i a).val < win0_6.index t a * S8x256.size a + S8x256.size a := by
  show i ∈ ((View.whole main_v2_4).slice (win0_6.rect t)).set ↔ _
  rw [View.set_slice_whole, Rect.mem_set_unit]
  exact Iff.rfl

/-- The array after the region. -/
theorem final_ri (c : Dev nD) : (dat0 V c).arrAt 6 cfg0.N = G_ri V c :=
  (dat0 V c).arrAt_eq_of_cover 6 (G_ri V c) (flushed_ri V c) fun i => by
    have h0 : (i 0).val < 16 := (i 0).isLt
    have h1 : (i 1).val < 256 := (i 1).isLt
    have hN : cfg0.N = 32 := N_0
    refine ⟨⟨16 * ((i 0).val / 8) + 15, by rw [hN]; omega⟩, (flush0_6 _).mpr (by show (16 * ((i 0).val / 8) + 15) % 16 = 15; omega), ?_⟩
    rw [mem_blk_ri]
    obtain ⟨e0, e1⟩ := (idx_facts0 ⟨16 * ((i 0).val / 8) + 15, by rw [hN]; omega⟩).2.2.2.2.2.2
    intro a
    match a with
    | ⟨0, _⟩ =>
      show win0_6.index _ (0 : Fin 2) * 8 ≤ (i 0).val ∧ (i 0).val < win0_6.index _ (0 : Fin 2) * 8 + 8
      rw [e0]; dsimp only; omega
    | ⟨1, _⟩ =>
      show win0_6.index _ (1 : Fin 2) * 256 ≤ (i 1).val ∧ (i 1).val < win0_6.index _ (1 : Fin 2) * 256 + 256
      rw [e1]; omega

/-- The array at an index with known coordinates. -/
theorem G_ri_apply (c : Dev nD) (i : S16x256.Idx) (x y : ℕ) (hx : (i 0).val = x) (hy : (i 1).val = y)
    (h1 : x % 8 < 8) (h2 : y < 256) :
    G_ri V c i = after_ri V c (16 * (x / 8) + 15) (ix2 (⟨x % 8, h1⟩ : Fin 8) (⟨y, h2⟩ : Fin 256)) := by
  subst hx hy
  rfl

/-- Rows 0 and 8: the two cores' final running totals. -/
theorem row0_ri (c : Dev nD) (ch : Fin 256) (A : S16x256.Idx → EReal) (hA : A = (dat0 V c).arrAt 6 cfg0.N) :
    A (ix2 (0 : Fin 16) ch) = Cert.Sums.accAt (mProd (V c main_v0) (V c main_v1) ch) 15 := by
  subst hA
  rw [final_ri V c]
  have hN : (15 : ℕ) < cfg0.N := by have h : cfg0.N = 32 := N_0; omega
  rw [G_ri_apply V c (ix2 (0 : Fin 16) ch) 0 ch.val rfl rfl (by decide) ch.isLt]
  show after_ri V c 15 (ix2 (0 : Fin 8) ch) = _
  unfold after_ri
  rw [dif_pos hN]
  exact acc_ri V c ch 15 hN
theorem row8_ri (c : Dev nD) (ch : Fin 256) (A : S16x256.Idx → EReal) (hA : A = (dat0 V c).arrAt 6 cfg0.N) :
    A (ix2 (8 : Fin 16) ch) = Cert.Sums.accAt (mProd (V c main_v0) (V c main_v1) ch) 31 := by
  subst hA
  rw [final_ri V c]
  have hN : (31 : ℕ) < cfg0.N := by have h : cfg0.N = 32 := N_0; omega
  rw [G_ri_apply V c (ix2 (8 : Fin 16) ch) 8 ch.val rfl rfl (by decide) ch.isLt]
  show after_ri V c 31 (ix2 (0 : Fin 8) ch) = _
  unfold after_ri
  rw [dif_pos hN]
  exact acc_ri V c ch 31 hN

/-- So rows 0 and 8 add up to the moment's sum over all samples. -/
theorem total_ri (c : Dev nD) (ch : Fin 256) (A : S16x256.Idx → EReal) (hA : A = (dat0 V c).arrAt 6 cfg0.N) :
    A (ix2 (0 : Fin 16) ch) + A (ix2 (8 : Fin 16) ch) = ∑ n : Fin 100352, mProd (V c main_v0) (V c main_v1) ch n := by
  rw [row0_ri V c ch A hA, row8_ri V c ch A hA, Cert.Sums.total]

end Cert.KernelIdeal.Stats

end
-- ==== Proof.Spec.lean ====
/-
  The function both programs compute: a complex batch normalisation over the last axis of two real arrays
  [32, 56, 56, 256] (real and imaginary parts), per channel: centre by the channel means, whiten by the inverse
  square root of the regularised 2×2 covariance of (real, imaginary), apply a complex scale and shift, and return
  real and imaginary parts interleaved on a new last axis. Everything is on the extended reals.

  A channel has 32·56·56 = 100352 samples; sample `n` of channel `ch` sits at (n / 3136, n / 56 % 56, n % 56, ch).
  The covariance is spelt in two ways — the mean of products of centred values, and the mean of products minus the
  product of means — and the result is stated over either spelling; on finite inputs the two agree.
-/
import Idealize.ShloMosaic.PureOps.Ideal
import Idealize.ShloMosaic.Lib.ValueIdx

noncomputable section

namespace Cert.Spec

open Idealize.ShloMosaic Idealize.ShloMosaic.ValueIdx

/-- The input arrays' shape, the per-channel vectors' shape, the result's shape. -/
abbrev X4 : Shape := ⟨4, ![32, 56, 56, 256]⟩
abbrev C1 : Shape := ⟨1, ![256]⟩
abbrev O5 : Shape := ⟨5, ![32, 56, 56, 256, 2]⟩

/-- Sample `n` of channel `ch`: the index (n / 3136, n / 56 % 56, n % 56, ch). -/
def samp (n : Fin 100352) (ch : Fin 256) : X4.Idx :=
  ix4 (⟨n.val / 3136, by have := n.isLt; omega⟩ : Fin 32) (⟨n.val / 56 % 56, Nat.mod_lt _ (by decide)⟩ : Fin 56)
    (⟨n.val % 56, Nat.mod_lt _ (by decide)⟩ : Fin 56) ch

/-- The literals: 2, the regulariser 1e-3 as an f32 word, the sample count 100352. -/
def two : EReal := Ideal.ofBits .f32 0x40000000#32
def eps : EReal := Ideal.ofBits .f32 0x3A83126F#32
def cnt : EReal := Ideal.ofBits .f32 0x47C40000#32

/-! ## The inverse square root of a symmetric 2×2 matrix [[vrr, vri], [vri, vii]], entry by entry -/

def det (vrr vii vri : EReal) : EReal := vrr * vii - vri * vri
def ca (vrr vii vri : EReal) : EReal := Ideal.div vii (det vrr vii vri)
def cb (vrr vii vri : EReal) : EReal := Ideal.div (-vri) (det vrr vii vri)
def cd (vrr vii vri : EReal) : EReal := Ideal.div vrr (det vrr vii vri)
def cs (vrr vii vri : EReal) : EReal :=
  Ideal.sqrt (ca vrr vii vri * cd vrr vii vri - cb vrr vii vri * cb vrr vii vri)
def ct (vrr vii vri : EReal) : EReal :=
  Ideal.sqrt (ca vrr vii vri + cd vrr vii vri + two * cs vrr vii vri)
def s00 (vrr vii vri : EReal) : EReal := Ideal.div (ca vrr vii vri + cs vrr vii vri) (ct vrr vii vri)
def s01 (vrr vii vri : EReal) : EReal := Ideal.div (cb vrr vii vri) (ct vrr vii vri)
def s11 (vrr vii vri : EReal) : EReal := Ideal.div (cd vrr vii vri + cs vrr vii vri) (ct vrr vii vri)

/-! ## One element: whiten the centred pair, then scale and shift as complex numbers -/

def outr (x y mr mi p00 p01 : EReal) : EReal := p00 * (x - mr) + p01 * (y - mi)
def outi (x y mr mi p01 p11 : EReal) : EReal := p01 * (x - mr) + p11 * (y - mi)
def yr (x y mr mi p00 p01 p11 gr gi br : EReal) : EReal :=
  gr * outr x y mr mi p00 p01 - gi * outi x y mr mi p01 p11 + br
def yi (x y mr mi p00 p01 p11 gr gi bi : EReal) : EReal :=
  gr * outi x y mr mi p01 p11 + gi * outr x y mr mi p00 p01 + bi

/-! ## The statistics of a channel -/

/-- A channel's mean. -/
def mean (x : X4.Idx → EReal) (ch : Fin 256) : EReal := Ideal.div (∑ n : Fin 100352, x (samp n ch)) cnt
/-- The covariance of two arrays on a channel as the mean of products of centred values. -/
def covC (x y : X4.Idx → EReal) (ch : Fin 256) : EReal :=
  Ideal.div (∑ n : Fin 100352, (x (samp n ch) - mean x ch) * (y (samp n ch) - mean y ch)) cnt
/-- The same as the mean of products minus the product of means. -/
def covM (x y : X4.Idx → EReal) (ch : Fin 256) : EReal :=
  Ideal.div (∑ n : Fin 100352, x (samp n ch) * y (samp n ch)) cnt - mean x ch * mean y ch

/-- The result at (b, h, w, ch, k): real part for k = 0, imaginary part for k = 1, over a spelling `cov` of the
    covariance. -/
def resultAt (cov : (X4.Idx → EReal) → (X4.Idx → EReal) → Fin 256 → EReal) (xr xi : X4.Idx → EReal)
    (gr gi br bi : C1.Idx → EReal) (b : Fin 32) (h : Fin 56) (w : Fin 56) (ch : Fin 256) (k : Fin 2) : EReal :=
  if k.val = 0 then
    yr (xr (ix4 b h w ch)) (xi (ix4 b h w ch)) (mean xr ch) (mean xi ch)
      (s00 (cov xr xr ch + eps) (cov xi xi ch + eps) (cov xr xi ch))
      (s01 (cov xr xr ch + eps) (cov xi xi ch + eps) (cov xr xi ch))
      (s11 (cov xr xr ch + eps) (cov xi xi ch + eps) (cov xr xi ch))
      (gr (ix1 ch)) (gi (ix1 ch)) (br (ix1 ch))
  else
    yi (xr (ix4 b h w ch)) (xi (ix4 b h w ch)) (mean xr ch) (mean xi ch)
      (s00 (cov xr xr ch + eps) (cov xi xi ch + eps) (cov xr xi ch))
      (s01 (cov xr xr ch + eps) (cov xi xi ch + eps) (cov xr xi ch))
      (s11 (cov xr xr ch + eps) (cov xi xi ch + eps) (cov xr xi ch))
      (gr (ix1 ch)) (gi (ix1 ch)) (bi (ix1 ch))

/-- The whole result array over a spelling of the covariance. -/
def result (cov : (X4.Idx → EReal) → (X4.Idx → EReal) → Fin 256 → EReal) (xr xi : X4.Idx → EReal)
    (gr gi br bi : C1.Idx → EReal) : O5.Idx → EReal :=
  fun j => resultAt cov xr xi gr gi br bi (j 0) (j 1) (j 2) (j 3) (j 4)

end Cert.Spec

end
-- ==== Proof.HostMid.lean ====
/-
  The host operations between the two kernel regions, as functions of the five accumulator arrays [16, 256] the
  first region leaves (rows 0 and 8 hold the two cores' partial totals): the totals, the channel means, the
  regularised covariance in its moments spelling, and the entries of its inverse square root; each read at a channel.
-/
import proofs.«177178_j57784490000847_2_alg».proof.Proof.Gen.KernelIdeal
import proofs.«177178_j57784490000847_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Mid

open Cert.KernelIdeal Cert.KernelIdeal.Gen Idealize.ShloMosaic Idealize.ShloMosaic.ValueIdx

/-- The count, the regulariser and the constant 2 as vectors over the channels. -/
def cntV : FVec Ideal S256 .f32 := broadcastInDim S256 ![] bcast_S_S256 (constant (F := Ideal) S_ .f32 0x47C40000#32)
def epsV : FVec Ideal S256 .f32 := broadcastInDim S256 ![] bcast_S_S256 (constant (F := Ideal) S_ .f32 0x3A83126F#32)
def twoV : FVec Ideal S256 .f32 := broadcastInDim S256 ![] bcast_S_S256 (constant (F := Ideal) S_ .f32 0x40000000#32)

/-- The two cores' partial totals added: rows 0 and 8 of an accumulator array. -/
def tot (A : FVec Ideal S16x256 .f32) : FVec Ideal S256 .f32 :=
  addf (fun i => shapeCast S256 (extractStridedSlice S1x256 ![0, 0] A slices_S16x256_S1x256_0_0) shapeCasts_S1x256_S256 i)
    (fun i => shapeCast S256 (extractStridedSlice S1x256 ![8, 0] A slices_S16x256_S1x256_8_0) shapeCasts_S1x256_S256 i)

def meanV (A : FVec Ideal S16x256 .f32) : FVec Ideal S256 .f32 := Host.divf (F := Ideal) (tot A) cntV
/-- mean of products minus product of means. -/
def covV (P A B : FVec Ideal S16x256 .f32) : FVec Ideal S256 .f32 :=
  subf (Host.divf (F := Ideal) (tot P) cntV) (mulf (meanV A) (meanV B))
def varV (P A : FVec Ideal S16x256 .f32) : FVec Ideal S256 .f32 := addf (covV P A A) epsV

def detV (vrr vii vri : FVec Ideal S256 .f32) : FVec Ideal S256 .f32 := subf (mulf vrr vii) (mulf vri vri)
def aV (vrr vii vri : FVec Ideal S256 .f32) : FVec Ideal S256 .f32 := Host.divf (F := Ideal) vii (detV vrr vii vri)
def bV (vrr vii vri : FVec Ideal S256 .f32) : FVec Ideal S256 .f32 := Host.divf (F := Ideal) (Host.negf (F := Ideal) vri) (detV vrr vii vri)
def dV (vrr vii vri : FVec Ideal S256 .f32) : FVec Ideal S256 .f32 := Host.divf (F := Ideal) vrr (detV vrr vii vri)
def sV (vrr vii vri : FVec Ideal S256 .f32) : FVec Ideal S256 .f32 :=
  Host.sqrt (F := Ideal) (subf (mulf (aV vrr vii vri) (dV vrr vii vri)) (mulf (bV vrr vii vri) (bV vrr vii vri)))
def tV (vrr vii vri : FVec Ideal S256 .f32) : FVec Ideal S256 .f32 :=
  Host.sqrt (F := Ideal) (addf (addf (aV vrr vii vri) (dV vrr vii vri)) (mulf twoV (sV vrr vii vri)))
def s00V (vrr vii vri : FVec Ideal S256 .f32) : FVec Ideal S256 .f32 :=
  Host.divf (F := Ideal) (addf (aV vrr vii vri) (sV vrr vii vri)) (tV vrr vii vri)
def s01V (vrr vii vri : FVec Ideal S256 .f32) : FVec Ideal S256 .f32 :=
  Host.divf (F := Ideal) (bV vrr vii vri) (tV vrr vii vri)
def s11V (vrr vii vri : FVec Ideal S256 .f32) : FVec Ideal S256 .f32 :=
  Host.divf (F := Ideal) (addf (dV vrr vii vri) (sV vrr vii vri)) (tV vrr vii vri)

/-- A channel vector as a one-row array. -/
def row (v : FVec Ideal S256 .f32) : FVec Ideal S1x256 .f32 := fun i => shapeCast S1x256 v shapeCasts_S256_S1x256 i

theorem row_apply (v : FVec Ideal S256 .f32) (ch : Fin 256) : row v (ix2 (0 : Fin 1) ch) = v (ix1 ch) :=
  shapeCast_a_1a_apply v shapeCasts_S256_S1x256 0 ch

/-! ## Read at a channel -/

theorem cntV_apply (ch : Fin 256) : cntV (ix1 ch) = Cert.Spec.cnt := rfl
theorem epsV_apply (ch : Fin 256) : epsV (ix1 ch) = Cert.Spec.eps := rfl
theorem twoV_apply (ch : Fin 256) : twoV (ix1 ch) = Cert.Spec.two := rfl

/-- The total of a channel: rows 0 and 8 of the accumulator array. -/
theorem tot_apply (A : FVec Ideal S16x256 .f32) (ch : Fin 256) :
    tot A (ix1 ch) = A (ix2 (0 : Fin 16) ch) + A (ix2 (8 : Fin 16) ch) := by
  unfold tot
  show shapeCast S256 (extractStridedSlice S1x256 ![0, 0] A slices_S16x256_S1x256_0_0) shapeCasts_S1x256_S256 (ix1 ch)
      + shapeCast S256 (extractStridedSlice S1x256 ![8, 0] A slices_S16x256_S1x256_8_0) shapeCasts_S1x256_S256 (ix1 ch) = _
  rw [shapeCast_1a_a_apply, shapeCast_1a_a_apply]
  have e0 : extractStridedSlice S1x256 ![0, 0] A slices_S16x256_S1x256_0_0 (ix2 (0 : Fin 1) ch) = A (ix2 (0 : Fin 16) ch) := by
    unfold extractStridedSlice
    refine congrArg A (funext fun a => Fin.ext ?_)
    match a with
    | ⟨0, _⟩ => rfl
    | ⟨1, _⟩ => show 0 + ch.val = ch.val; omega
  have e8 : extractStridedSlice S1x256 ![8, 0] A slices_S16x256_S1x256_8_0 (ix2 (0 : Fin 1) ch) = A (ix2 (8 : Fin 16) ch) := by
    unfold extractStridedSlice
    refine congrArg A (funext fun a => Fin.ext ?_)
    match a with
    | ⟨0, _⟩ => rfl
    | ⟨1, _⟩ => show 0 + ch.val = ch.val; omega
  rw [e0, e8]

theorem meanV_apply (A : FVec Ideal S16x256 .f32) (ch : Fin 256) :
    meanV A (ix1 ch) = Ideal.div (A (ix2 (0 : Fin 16) ch) + A (ix2 (8 : Fin 16) ch)) Cert.Spec.cnt := by
  show Ideal.div (tot A (ix1 ch)) (cntV (ix1 ch)) = _
  rw [tot_apply, cntV_apply]

theorem covV_apply (P A B : FVec Ideal S16x256 .f32) (ch : Fin 256) :
    covV P A B (ix1 ch) = Ideal.div (P (ix2 (0 : Fin 16) ch) + P (ix2 (8 : Fin 16) ch)) Cert.Spec.cnt
      - meanV A (ix1 ch) * meanV B (ix1 ch) := by
  show Ideal.div (tot P (ix1 ch)) (cntV (ix1 ch)) - meanV A (ix1 ch) * meanV B (ix1 ch) = _
  rw [tot_apply, cntV_apply]

theorem varV_apply (P A : FVec Ideal S16x256 .f32) (ch : Fin 256) :
    varV P A (ix1 ch) = covV P A A (ix1 ch) + Cert.Spec.eps := rfl

theorem s00V_apply (vrr vii vri : FVec Ideal S256 .f32) (ch : Fin 256) :
    s00V vrr vii vri (ix1 ch) = Cert.Spec.s00 (vrr (ix1 ch)) (vii (ix1 ch)) (vri (ix1 ch)) := rfl
theorem s01V_apply (vrr vii vri : FVec Ideal S256 .f32) (ch : Fin 256) :
    s01V vrr vii vri (ix1 ch) = Cert.Spec.s01 (vrr (ix1 ch)) (vii (ix1 ch)) (vri (ix1 ch)) := rfl
theorem s11V_apply (vrr vii vri : FVec Ideal S256 .f32) (ch : Fin 256) :
    s11V vrr vii vri (ix1 ch) = Cert.Spec.s11 (vrr (ix1 ch)) (vii (ix1 ch)) (vri (ix1 ch)) := rfl

end Cert.KernelIdeal.Mid

end
-- ==== Proof.MidRun.lean ====
/-
  What the second kernel region finds in its eleven input arrays: the two sample arrays are the arguments reshaped
  to [100352, 256] (untouched by the first region and by the host operations between the regions), and the nine
  parameter rows are the host operations' values of the five accumulator arrays the first region leaves, or the
  per-channel arguments as rows.
-/
import proofs.«177178_j57784490000847_2_alg».proof.Proof.Gen.KernelIdeal.Frame
import proofs.«177178_j57784490000847_2_alg».proof.Proof.HostMid

set_option maxRecDepth 16384

noncomputable section

namespace Cert.KernelIdeal.MidRun

open Cert.KernelIdeal Cert.KernelIdeal.Gen Cert.KernelIdeal.Mid Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The five accumulator arrays as the first region leaves them. -/
abbrev acc0 (c : Dev nD) : FVec Ideal S16x256 .f32 := W2 m ρ c (Proc.devRef .tc main_v2_0)
abbrev acc1 (c : Dev nD) : FVec Ideal S16x256 .f32 := W2 m ρ c (Proc.devRef .tc main_v2_1)
abbrev acc2 (c : Dev nD) : FVec Ideal S16x256 .f32 := W2 m ρ c (Proc.devRef .tc main_v2_2)
abbrev acc3 (c : Dev nD) : FVec Ideal S16x256 .f32 := W2 m ρ c (Proc.devRef .tc main_v2_3)
abbrev acc4 (c : Dev nD) : FVec Ideal S16x256 .f32 := W2 m ρ c (Proc.devRef .tc main_v2_4)

/-- The regularised covariance entries over the channels. -/
abbrev vrr (c : Dev nD) : FVec Ideal S256 .f32 := varV (acc2 m ρ c) (acc0 m ρ c)
abbrev vii (c : Dev nD) : FVec Ideal S256 .f32 := varV (acc3 m ρ c) (acc1 m ρ c)
abbrev vri (c : Dev nD) : FVec Ideal S256 .f32 := covV (acc4 m ρ c) (acc0 m ρ c) (acc1 m ρ c)

set_option maxHeartbeats 4000000 in
theorem mean_re (c : Dev nD) : V3 m ρ c main_v69 = row (meanV (acc0 m ρ c)) := by
  show StableHlo.after hostOps1 (W2 m ρ c) (Proc.devRef .tc main_v69) = _
  after_results_simp <;> rfl

set_option maxHeartbeats 4000000 in
theorem mean_im (c : Dev nD) : V3 m ρ c main_v70 = row (meanV (acc1 m ρ c)) := by
  show StableHlo.after hostOps1 (W2 m ρ c) (Proc.devRef .tc main_v70) = _
  after_results_simp <;> rfl

set_option maxHeartbeats 4000000 in
theorem p00 (c : Dev nD) : V3 m ρ c main_v71 = row (s00V (vrr m ρ c) (vii m ρ c) (vri m ρ c)) := by
  show StableHlo.after hostOps1 (W2 m ρ c) (Proc.devRef .tc main_v71) = _
  after_results_simp <;> rfl

set_option maxHeartbeats 4000000 in
theorem p01 (c : Dev nD) : V3 m ρ c main_v72 = row (s01V (vrr m ρ c) (vii m ρ c) (vri m ρ c)) := by
  show StableHlo.after hostOps1 (W2 m ρ c) (Proc.devRef .tc main_v72) = _
  after_results_simp <;> rfl

set_option maxHeartbeats 4000000 in
theorem p11 (c : Dev nD) : V3 m ρ c main_v73 = row (s11V (vrr m ρ c) (vii m ρ c) (vri m ρ c)) := by
  show StableHlo.after hostOps1 (W2 m ρ c) (Proc.devRef .tc main_v73) = _
  after_results_simp <;> rfl

/-- A per-channel argument reaches the first region's exit unchanged. -/
theorem W2_arg2 (c : Dev nD) : W2 m ρ c (Proc.devRef .tc main_arg2) = m ((c : Thread nD τ).loc main_arg2) :=
  (W2_of_ne m ρ c main_arg2 (by decide)).trans (by show StableHlo.after hostOps0 (W0 m ρ c) _ = _; after_results)
theorem W2_arg3 (c : Dev nD) : W2 m ρ c (Proc.devRef .tc main_arg3) = m ((c : Thread nD τ).loc main_arg3) :=
  (W2_of_ne m ρ c main_arg3 (by decide)).trans (by show StableHlo.after hostOps0 (W0 m ρ c) _ = _; after_results)
theorem W2_arg4 (c : Dev nD) : W2 m ρ c (Proc.devRef .tc main_arg4) = m ((c : Thread nD τ).loc main_arg4) :=
  (W2_of_ne m ρ c main_arg4 (by decide)).trans (by show StableHlo.after hostOps0 (W0 m ρ c) _ = _; after_results)
theorem W2_arg5 (c : Dev nD) : W2 m ρ c (Proc.devRef .tc main_arg5) = m ((c : Thread nD τ).loc main_arg5) :=
  (W2_of_ne m ρ c main_arg5 (by decide)).trans (by show StableHlo.after hostOps0 (W0 m ρ c) _ = _; after_results)

set_option maxHeartbeats 4000000 in
theorem gamma_re (c : Dev nD) : V3 m ρ c main_v74 = row (m ((c : Thread nD τ).loc main_arg2)) := by
  rw [← W2_arg2 m ρ c]
  show StableHlo.after hostOps1 (W2 m ρ c) (Proc.devRef .tc main_v74) = _
  after_results_simp <;> rfl
set_option maxHeartbeats 4000000 in
theorem gamma_im (c : Dev nD) : V3 m ρ c main_v75 = row (m ((c : Thread nD τ).loc main_arg3)) := by
  rw [← W2_arg3 m ρ c]
  show StableHlo.after hostOps1 (W2 m ρ c) (Proc.devRef .tc main_v75) = _
  after_results_simp <;> rfl
set_option maxHeartbeats 4000000 in
theorem beta_re (c : Dev nD) : V3 m ρ c main_v76 = row (m ((c : Thread nD τ).loc main_arg4)) := by
  rw [← W2_arg4 m ρ c]
  show StableHlo.after hostOps1 (W2 m ρ c) (Proc.devRef .tc main_v76) = _
  after_results_simp <;> rfl
set_option maxHeartbeats 4000000 in
theorem beta_im (c : Dev nD) : V3 m ρ c main_v77 = row (m ((c : Thread nD τ).loc main_arg5)) := by
  rw [← W2_arg5 m ρ c]
  show StableHlo.after hostOps1 (W2 m ρ c) (Proc.devRef .tc main_v77) = _
  after_results_simp <;> rfl

/-- The sample arrays: the arguments reshaped, at both regions' entries. -/
theorem V1_re (c : Dev nD) : V1 m ρ c main_v0 = fun i => shapeCast S100352x256 (m ((c : Thread nD τ).loc main_arg0)) shapeCasts_S32x56x56x256_S100352x256 i := by
  show StableHlo.after hostOps0 (W0 m ρ c) (Proc.devRef .tc main_v0) = _
  after_results; rfl
theorem V1_im (c : Dev nD) : V1 m ρ c main_v1 = fun i => shapeCast S100352x256 (m ((c : Thread nD τ).loc main_arg1)) shapeCasts_S32x56x56x256_S100352x256 i := by
  show StableHlo.after hostOps0 (W0 m ρ c) (Proc.devRef .tc main_v1) = _
  after_results; rfl

theorem W2_re (c : Dev nD) : W2 m ρ c (Proc.devRef .tc main_v0) = V1 m ρ c main_v0 :=
  (W2_arr m ρ c 0).trans ((dat0 (V1 m ρ) c).arrAt_in 0 rfl _)
theorem W2_im (c : Dev nD) : W2 m ρ c (Proc.devRef .tc main_v1) = V1 m ρ c main_v1 :=
  (W2_arr m ρ c 1).trans ((dat0 (V1 m ρ) c).arrAt_in 1 rfl _)

set_option maxHeartbeats 4000000 in
theorem V3_re (c : Dev nD) : V3 m ρ c main_v0 = V1 m ρ c main_v0 := by
  rw [← W2_re m ρ c]
  show StableHlo.after hostOps1 (W2 m ρ c) (Proc.devRef .tc main_v0) = _
  after_results_simp <;> rfl
set_option maxHeartbeats 4000000 in
theorem V3_im (c : Dev nD) : V3 m ρ c main_v1 = V1 m ρ c main_v1 := by
  rw [← W2_im m ρ c]
  show StableHlo.after hostOps1 (W2 m ρ c) (Proc.devRef .tc main_v1) = _
  after_results_simp <;> rfl

end Cert.KernelIdeal.MidRun

end
-- ==== Proof.TransformBody.lean ====
/-
  The second kernel's body as one function of its blocks, read at an index. The body centres the pair (real,
  imaginary) by the channel means, applies the 2×2 whitening matrix, the complex scale and shift, and stores real and
  imaginary parts interleaved along the lanes: lane 2·ch + k of row r holds part k of channel ch.
-/
import proofs.«177178_j57784490000847_2_alg».proof.Proof.Gen.KernelIdeal.Skeleton
import proofs.«177178_j57784490000847_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Transform

open Cert.KernelIdeal Cert.KernelIdeal.Gen Idealize.ShloMosaic Idealize.ShloMosaic.ValueIdx

/-- The body's one stored value, from its eleven input blocks. -/
def body (x0 x1 : Vec Ideal S1568x256 .f32) (x2 x3 x4 x5 x6 x7 x8 x9 x10 : Vec Ideal S1x256 .f32) : FVec Ideal S1568x512 .f32 :=
  k1_pay1 (F := Ideal) (k1_pay5 x0 x1 x2 x3 x4 x5) (k1_pay6 x0 x1 x2 x3 x5 x6) (k1_pay7 x7) (k1_pay8 x8)
    (k1_pay9 x0 x1 x2 x3 x4 x5 x6 x7 x8) (k1_pay10 x9) x10

/-- A parameter row [1, 256] broadcast down 1568 rows, read at (r, ch). -/
theorem bcast_row (v : FVec Ideal S1x256 .f32) (r : Fin 1568) (ch : Fin 256) :
    broadcastTo S1568x256 v broadcasts_S1x256_S1568x256 (ix2 r ch) = v (ix2 (0 : Fin 1) ch) := by
  refine broadcastTo_apply v _ (ix2 r ch) (ix2 (0 : Fin 1) ch) fun a => ?_
  match a with
  | ⟨0, _⟩ => rfl
  | ⟨1, _⟩ => rfl

/-- The centred real part at (r, ch). -/
theorem centred_re (x0 : Vec Ideal S1568x256 .f32) (x2 : Vec Ideal S1x256 .f32) (r : Fin 1568) (ch : Fin 256) :
    k1_pay2 (F := Ideal) x0 x2 (ix2 r ch) = x0 (ix2 r ch) - x2 (ix2 (0 : Fin 1) ch) := by
  unfold k1_pay2
  simp only [shapeCast_self]
  exact congrArg (x0 (ix2 r ch) - ·) (bcast_row x2 r ch)

theorem centred_im (x1 : Vec Ideal S1568x256 .f32) (x3 : Vec Ideal S1x256 .f32) (r : Fin 1568) (ch : Fin 256) :
    k1_pay3 (F := Ideal) x1 x3 (ix2 r ch) = x1 (ix2 r ch) - x3 (ix2 (0 : Fin 1) ch) := by
  unfold k1_pay3
  simp only [shapeCast_self]
  exact congrArg (x1 (ix2 r ch) - ·) (bcast_row x3 r ch)

/-- The whitened real part at (r, ch). -/
theorem whitened_re (x0 x1 : Vec Ideal S1568x256 .f32) (x2 x3 x4 x5 : Vec Ideal S1x256 .f32) (r : Fin 1568) (ch : Fin 256) :
    k1_pay5 (F := Ideal) x0 x1 x2 x3 x4 x5 (ix2 r ch)
      = Cert.Spec.outr (x0 (ix2 r ch)) (x1 (ix2 r ch)) (x2 (ix2 (0 : Fin 1) ch)) (x3 (ix2 (0 : Fin 1) ch))
          (x4 (ix2 (0 : Fin 1) ch)) (x5 (ix2 (0 : Fin 1) ch)) := by
  unfold k1_pay5 k1_pay4 Cert.Spec.outr
  simp only [shapeCast_self]
  show broadcastTo S1568x256 x4 _ (ix2 r ch) * k1_pay2 x0 x2 (ix2 r ch)
      + broadcastTo S1568x256 x5 _ (ix2 r ch) * k1_pay3 x1 x3 (ix2 r ch) = _
  rw [bcast_row, bcast_row, centred_re, centred_im]

/-- The whitened imaginary part at (r, ch). -/
theorem whitened_im (x0 x1 : Vec Ideal S1568x256 .f32) (x2 x3 x5 x6 : Vec Ideal S1x256 .f32) (r : Fin 1568) (ch : Fin 256) :
    k1_pay6 (F := Ideal) x0 x1 x2 x3 x5 x6 (ix2 r ch)
      = Cert.Spec.outi (x0 (ix2 r ch)) (x1 (ix2 r ch)) (x2 (ix2 (0 : Fin 1) ch)) (x3 (ix2 (0 : Fin 1) ch))
          (x5 (ix2 (0 : Fin 1) ch)) (x6 (ix2 (0 : Fin 1) ch)) := by
  unfold k1_pay6 k1_pay4 Cert.Spec.outi
  simp only [shapeCast_self]
  show broadcastTo S1568x256 x5 _ (ix2 r ch) * k1_pay2 x0 x2 (ix2 r ch)
      + broadcastTo S1568x256 x6 _ (ix2 r ch) * k1_pay3 x1 x3 (ix2 r ch) = _
  rw [bcast_row, bcast_row, centred_re, centred_im]

/-- The complex-scaled and shifted real part at (r, ch). -/
theorem scaled_re (x0 x1 : Vec Ideal S1568x256 .f32) (x2 x3 x4 x5 x6 x7 x8 x9 : Vec Ideal S1x256 .f32) (r : Fin 1568) (ch : Fin 256) :
    (k1_pay9 (F := Ideal) x0 x1 x2 x3 x4 x5 x6 x7 x8 (ix2 r ch)
        + broadcastTo S1568x256 (k1_pay10 (F := Ideal) x9) broadcasts_S1x256_S1568x256 (ix2 r ch) : EReal)
      = Cert.Spec.yr (x0 (ix2 r ch)) (x1 (ix2 r ch)) (x2 (ix2 (0 : Fin 1) ch)) (x3 (ix2 (0 : Fin 1) ch))
          (x4 (ix2 (0 : Fin 1) ch)) (x5 (ix2 (0 : Fin 1) ch)) (x6 (ix2 (0 : Fin 1) ch))
          (x7 (ix2 (0 : Fin 1) ch)) (x8 (ix2 (0 : Fin 1) ch)) (x9 (ix2 (0 : Fin 1) ch)) := by
  unfold k1_pay9 k1_pay7 k1_pay8 k1_pay10 Cert.Spec.yr
  simp only [shapeCast_self]
  show broadcastTo S1568x256 x7 _ (ix2 r ch) * k1_pay5 x0 x1 x2 x3 x4 x5 (ix2 r ch)
      - broadcastTo S1568x256 x8 _ (ix2 r ch) * k1_pay6 x0 x1 x2 x3 x5 x6 (ix2 r ch)
      + broadcastTo S1568x256 x9 _ (ix2 r ch) = _
  rw [bcast_row, bcast_row, bcast_row, whitened_re, whitened_im]

/-- The complex-scaled and shifted imaginary part at (r, ch). -/
theorem scaled_im (x0 x1 : Vec Ideal S1568x256 .f32) (x2 x3 x4 x5 x6 x7 x8 x10 : Vec Ideal S1x256 .f32) (r : Fin 1568) (ch : Fin 256) :
    (broadcastTo S1568x256 (k1_pay7 (F := Ideal) x7) broadcasts_S1x256_S1568x256 (ix2 r ch) * k1_pay6 (F := Ideal) x0 x1 x2 x3 x5 x6 (ix2 r ch)
        + broadcastTo S1568x256 (k1_pay8 (F := Ideal) x8) broadcasts_S1x256_S1568x256 (ix2 r ch) * k1_pay5 (F := Ideal) x0 x1 x2 x3 x4 x5 (ix2 r ch)
        + broadcastTo S1568x256 (shapeCast S1x256 x10 shapeCasts_S1x256_S1x256) broadcasts_S1x256_S1568x256 (ix2 r ch) : EReal)
      = Cert.Spec.yi (x0 (ix2 r ch)) (x1 (ix2 r ch)) (x2 (ix2 (0 : Fin 1) ch)) (x3 (ix2 (0 : Fin 1) ch))
          (x4 (ix2 (0 : Fin 1) ch)) (x5 (ix2 (0 : Fin 1) ch)) (x6 (ix2 (0 : Fin 1) ch))
          (x7 (ix2 (0 : Fin 1) ch)) (x8 (ix2 (0 : Fin 1) ch)) (x10 (ix2 (0 : Fin 1) ch)) := by
  unfold k1_pay7 k1_pay8 Cert.Spec.yi
  simp only [shapeCast_self]
  rw [bcast_row, bcast_row, bcast_row, whitened_re, whitened_im]

/-- A [1568, 256] value given a trailing unit axis, read at (r, ch, 0). -/
theorem trailing_unit (v : FVec Ideal S1568x256 .f32) (r : Fin 1568) (ch : Fin 256) :
    shapeCast S1568x256x1 v shapeCasts_S1568x256_S1568x256x1 (ix3 r ch (0 : Fin 1)) = v (ix2 r ch) :=
  shapeCast_apply v _ (ix3 r ch (0 : Fin 1)) (ix2 r ch) (by
    rw [Shape.rowMajor_val_two, Shape.rowMajor_val_three]
    show r.val * 256 + ch.val = (r.val * 256 + ch.val) * 1 + 0
    omega)

/-- The stored value at row r, lane 2·ch + k: the real part for k = 0, the imaginary part for k = 1. -/
theorem body_apply (x0 x1 : Vec Ideal S1568x256 .f32) (x2 x3 x4 x5 x6 x7 x8 x9 x10 : Vec Ideal S1x256 .f32)
    (r : Fin 1568) (ch : Fin 256) (k : Fin 2) (col : Fin 512) (hcol : col.val = 2 * ch.val + k.val) :
    body x0 x1 x2 x3 x4 x5 x6 x7 x8 x9 x10 (ix2 r col)
      = if k.val = 0 then
          Cert.Spec.yr (x0 (ix2 r ch)) (x1 (ix2 r ch)) (x2 (ix2 (0 : Fin 1) ch)) (x3 (ix2 (0 : Fin 1) ch))
            (x4 (ix2 (0 : Fin 1) ch)) (x5 (ix2 (0 : Fin 1) ch)) (x6 (ix2 (0 : Fin 1) ch))
            (x7 (ix2 (0 : Fin 1) ch)) (x8 (ix2 (0 : Fin 1) ch)) (x9 (ix2 (0 : Fin 1) ch))
        else
          Cert.Spec.yi (x0 (ix2 r ch)) (x1 (ix2 r ch)) (x2 (ix2 (0 : Fin 1) ch)) (x3 (ix2 (0 : Fin 1) ch))
            (x4 (ix2 (0 : Fin 1) ch)) (x5 (ix2 (0 : Fin 1) ch)) (x6 (ix2 (0 : Fin 1) ch))
            (x7 (ix2 (0 : Fin 1) ch)) (x8 (ix2 (0 : Fin 1) ch)) (x10 (ix2 (0 : Fin 1) ch)) := by
  unfold body k1_pay1
  rw [shapeCast_apply _ shapeCasts_S1568x256x2_S1568x512 (ix2 r col) (ix3 r ch k) (by
    rw [Shape.rowMajor_val_three, Shape.rowMajor_val_two]
    show (r.val * 256 + ch.val) * 2 + k.val = r.val * 512 + col.val
    omega)]
  match k with
  | ⟨0, _⟩ =>
    rw [if_pos rfl]
    rw [concatenate_pair_apply_left (t := S1568x256x2) (s₁ := S1568x256x1) (s₂ := S1568x256x1) (2 : Fin 3) _ _ concatenates_S1568x256x1_S1568x256x1_S1568x256x2_d2
      (ix3 r ch (⟨0, by omega⟩ : Fin 2)) rfl (ix3 r ch (0 : Fin 1)) (fun b => by
        match b with
        | ⟨0, _⟩ => rfl
        | ⟨1, _⟩ => rfl
        | ⟨2, _⟩ => rfl)]
    rw [trailing_unit]
    exact scaled_re x0 x1 x2 x3 x4 x5 x6 x7 x8 x9 r ch
  | ⟨1, _⟩ =>
    rw [if_neg Nat.one_ne_zero]
    rw [concatenate_pair_apply_right (t := S1568x256x2) (s₁ := S1568x256x1) (s₂ := S1568x256x1) (2 : Fin 3) _ _ concatenates_S1568x256x1_S1568x256x1_S1568x256x2_d2
      (ix3 r ch (⟨1, by omega⟩ : Fin 2)) rfl rfl (ix3 r ch (0 : Fin 1)) (fun b hb => by
        match b with
        | ⟨0, _⟩ => rfl
        | ⟨1, _⟩ => rfl
        | ⟨2, _⟩ => exact absurd rfl hb) rfl]
    rw [trailing_unit]
    exact scaled_im x0 x1 x2 x3 x4 x5 x6 x7 x8 x10 r ch

end Cert.KernelIdeal.Transform

end
-- ==== Proof.TransformArray.lean ====
/-
  What the second kernel region leaves in its result array [100352, 512], as one function of the arrays the region
  finds on entry. Grid point t reads rows 1568·t … 1568·t + 1567 of the two sample arrays and the whole of each
  parameter row, and writes back rows 1568·t … of the result; the 64 points' blocks tile the result, so row n, lane
  2·ch + k of the result is part k of channel ch of sample n.
-/
import proofs.«177178_j57784490000847_2_alg».proof.Proof.Gen.KernelIdeal.Frame
import proofs.«177178_j57784490000847_2_alg».proof.Proof.TransformBody

set_option maxRecDepth 16384

noncomputable section

namespace Cert.KernelIdeal.Transform

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole result as a function of the sample arrays X, Y [100352, 256] and the nine parameter rows [1, 256]. -/
def whole (X Y : S100352x256.Idx → EReal) (p2 p3 p4 p5 p6 p7 p8 p9 p10 : S1x256.Idx → EReal) : S100352x512.Idx → EReal :=
  fun i =>
    let n : Fin 100352 := ⟨(i 0).val, (i 0).isLt⟩
    let ch : Fin 256 := ⟨(i 1).val / 2, by have h : (i 1).val < 512 := (i 1).isLt; omega⟩
    if (i 1).val % 2 = 0 then
      Cert.Spec.yr (X (ix2 n ch)) (Y (ix2 n ch)) (p2 (ix2 (0 : Fin 1) ch)) (p3 (ix2 (0 : Fin 1) ch))
        (p4 (ix2 (0 : Fin 1) ch)) (p5 (ix2 (0 : Fin 1) ch)) (p6 (ix2 (0 : Fin 1) ch))
        (p7 (ix2 (0 : Fin 1) ch)) (p8 (ix2 (0 : Fin 1) ch)) (p9 (ix2 (0 : Fin 1) ch))
    else
      Cert.Spec.yi (X (ix2 n ch)) (Y (ix2 n ch)) (p2 (ix2 (0 : Fin 1) ch)) (p3 (ix2 (0 : Fin 1) ch))
        (p4 (ix2 (0 : Fin 1) ch)) (p5 (ix2 (0 : Fin 1) ch)) (p6 (ix2 (0 : Fin 1) ch))
        (p7 (ix2 (0 : Fin 1) ch)) (p8 (ix2 (0 : Fin 1) ch)) (p10 (ix2 (0 : Fin 1) ch))

/-- The whole result at row n, lane col. -/
theorem whole_apply (X Y : S100352x256.Idx → EReal) (p2 p3 p4 p5 p6 p7 p8 p9 p10 : S1x256.Idx → EReal)
    (n : Fin 100352) (col : Fin 512) (ch : Fin 256) (hch : ch.val = col.val / 2) :
    whole X Y p2 p3 p4 p5 p6 p7 p8 p9 p10 (ix2 n col)
      = if col.val % 2 = 0 then
          Cert.Spec.yr (X (ix2 n ch)) (Y (ix2 n ch)) (p2 (ix2 (0 : Fin 1) ch)) (p3 (ix2 (0 : Fin 1) ch))
            (p4 (ix2 (0 : Fin 1) ch)) (p5 (ix2 (0 : Fin 1) ch)) (p6 (ix2 (0 : Fin 1) ch))
            (p7 (ix2 (0 : Fin 1) ch)) (p8 (ix2 (0 : Fin 1) ch)) (p9 (ix2 (0 : Fin 1) ch))
        else
          Cert.Spec.yi (X (ix2 n ch)) (Y (ix2 n ch)) (p2 (ix2 (0 : Fin 1) ch)) (p3 (ix2 (0 : Fin 1) ch))
            (p4 (ix2 (0 : Fin 1) ch)) (p5 (ix2 (0 : Fin 1) ch)) (p6 (ix2 (0 : Fin 1) ch))
            (p7 (ix2 (0 : Fin 1) ch)) (p8 (ix2 (0 : Fin 1) ch)) (p10 (ix2 (0 : Fin 1) ch)) := by
  obtain ⟨chv, hlt⟩ := ch
  have e : chv = col.val / 2 := hch
  subst e
  rfl

/-- The index maps over the grid: the sample windows and the result window take row block t, every parameter
    window its one block. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = t.val ∧ win1_11.index t (1 : Fin 2) = 0) :=
  (by decide +kernel : ∀ t : Fin grid1.N, _)

theorem t_lt (t : Fin cfg1.N) : t.val < 64 := by have h : cfg1.N = 64 := N_1; have := t.isLt; omega

/-- Row r of sample block t is row 1568·t + r of the array. -/
theorem read_re (c : Dev nD) (t : Fin cfg1.N) (r : Fin 1568) (ch : Fin 256) :
    (iblk1 V c 0 t : Vec Ideal S1568x256 .f32) (ix2 r ch)
      = V c main_v0 (ix2 (⟨1568 * t.val + r.val, by have := t_lt t; omega⟩ : Fin 100352) ch) := by
  unfold iblk1
  rw [View.read_apply]
  show V c main_v0 _ = _
  congr 1
  funext a
  apply Fin.ext
  obtain ⟨⟨e0, e1⟩, -⟩ := idx_facts t
  match a with
  | ⟨0, _⟩ => show win1_0.index t (0 : Fin 2) * 1568 + 1 * r.val = 1568 * t.val + r.val; omega
  | ⟨1, _⟩ => show win1_0.index t (1 : Fin 2) * 256 + 1 * ch.val = ch.val; omega

theorem read_im (c : Dev nD) (t : Fin cfg1.N) (r : Fin 1568) (ch : Fin 256) :
    (iblk1 V c 1 t : Vec Ideal S1568x256 .f32) (ix2 r ch)
      = V c main_v1 (ix2 (⟨1568 * t.val + r.val, by have := t_lt t; omega⟩ : Fin 100352) ch) := by
  unfold iblk1
  rw [View.read_apply]
  show V c main_v1 _ = _
  congr 1
  funext a
  apply Fin.ext
  obtain ⟨-, ⟨e0, e1⟩, -⟩ := idx_facts t
  match a with
  | ⟨0, _⟩ => show win1_1.index t (0 : Fin 2) * 1568 + 1 * r.val = 1568 * t.val + r.val; omega
  | ⟨1, _⟩ => show win1_1.index t (1 : Fin 2) * 256 + 1 * ch.val = ch.val; omega

/-! Each parameter window's one block is its whole array. -/

theorem read_p2 (c : Dev nD) (t : Fin cfg1.N) (ch : Fin 256) :
    (iblk1 V c 2 t : Vec Ideal S1x256 .f32) (ix2 (0 : Fin 1) ch) = V c main_v69 (ix2 (0 : Fin 1) ch) := by
  unfold iblk1
  rw [View.read_apply]
  show V c main_v69 _ = _
  congr 1
  funext a
  apply Fin.ext
  obtain ⟨e0, e1⟩ := (idx_facts t).2.2.1
  match a with
  | ⟨0, _⟩ => show win1_2.index t (0 : Fin 2) * 1 + 1 * 0 = 0; omega
  | ⟨1, _⟩ => show win1_2.index t (1 : Fin 2) * 256 + 1 * ch.val = ch.val; omega

theorem read_p3 (c : Dev nD) (t : Fin cfg1.N) (ch : Fin 256) :
    (iblk1 V c 3 t : Vec Ideal S1x256 .f32) (ix2 (0 : Fin 1) ch) = V c main_v70 (ix2 (0 : Fin 1) ch) := by
  unfold iblk1
  rw [View.read_apply]
  show V c main_v70 _ = _
  congr 1
  funext a
  apply Fin.ext
  obtain ⟨e0, e1⟩ := (idx_facts t).2.2.2.1
  match a with
  | ⟨0, _⟩ => show win1_3.index t (0 : Fin 2) * 1 + 1 * 0 = 0; omega
  | ⟨1, _⟩ => show win1_3.index t (1 : Fin 2) * 256 + 1 * ch.val = ch.val; omega

theorem read_p4 (c : Dev nD) (t : Fin cfg1.N) (ch : Fin 256) :
    (iblk1 V c 4 t : Vec Ideal S1x256 .f32) (ix2 (0 : Fin 1) ch) = V c main_v71 (ix2 (0 : Fin 1) ch) := by
  unfold iblk1
  rw [View.read_apply]
  show V c main_v71 _ = _
  congr 1
  funext a
  apply Fin.ext
  obtain ⟨e0, e1⟩ := (idx_facts t).2.2.2.2.1
  match a with
  | ⟨0, _⟩ => show win1_4.index t (0 : Fin 2) * 1 + 1 * 0 = 0; omega
  | ⟨1, _⟩ => show win1_4.index t (1 : Fin 2) * 256 + 1 * ch.val = ch.val; omega

theorem read_p5 (c : Dev nD) (t : Fin cfg1.N) (ch : Fin 256) :
    (iblk1 V c 5 t : Vec Ideal S1x256 .f32) (ix2 (0 : Fin 1) ch) = V c main_v72 (ix2 (0 : Fin 1) ch) := by
  unfold iblk1
  rw [View.read_apply]
  show V c main_v72 _ = _
  congr 1
  funext a
  apply Fin.ext
  obtain ⟨e0, e1⟩ := (idx_facts t).2.2.2.2.2.1
  match a with
  | ⟨0, _⟩ => show win1_5.index t (0 : Fin 2) * 1 + 1 * 0 = 0; omega
  | ⟨1, _⟩ => show win1_5.index t (1 : Fin 2) * 256 + 1 * ch.val = ch.val; omega

theorem read_p6 (c : Dev nD) (t : Fin cfg1.N) (ch : Fin 256) :
    (iblk1 V c 6 t : Vec Ideal S1x256 .f32) (ix2 (0 : Fin 1) ch) = V c main_v73 (ix2 (0 : Fin 1) ch) := by
  unfold iblk1
  rw [View.read_apply]
  show V c main_v73 _ = _
  congr 1
  funext a
  apply Fin.ext
  obtain ⟨e0, e1⟩ := (idx_facts t).2.2.2.2.2.2.1
  match a with
  | ⟨0, _⟩ => show win1_6.index t (0 : Fin 2) * 1 + 1 * 0 = 0; omega
  | ⟨1, _⟩ => show win1_6.index t (1 : Fin 2) * 256 + 1 * ch.val = ch.val; omega

theorem read_p7 (c : Dev nD) (t : Fin cfg1.N) (ch : Fin 256) :
    (iblk1 V c 7 t : Vec Ideal S1x256 .f32) (ix2 (0 : Fin 1) ch) = V c main_v74 (ix2 (0 : Fin 1) ch) := by
  unfold iblk1
  rw [View.read_apply]
  show V c main_v74 _ = _
  congr 1
  funext a
  apply Fin.ext
  obtain ⟨e0, e1⟩ := (idx_facts t).2.2.2.2.2.2.2.1
  match a with
  | ⟨0, _⟩ => show win1_7.index t (0 : Fin 2) * 1 + 1 * 0 = 0; omega
  | ⟨1, _⟩ => show win1_7.index t (1 : Fin 2) * 256 + 1 * ch.val = ch.val; omega

theorem read_p8 (c : Dev nD) (t : Fin cfg1.N) (ch : Fin 256) :
    (iblk1 V c 8 t : Vec Ideal S1x256 .f32) (ix2 (0 : Fin 1) ch) = V c main_v75 (ix2 (0 : Fin 1) ch) := by
  unfold iblk1
  rw [View.read_apply]
  show V c main_v75 _ = _
  congr 1
  funext a
  apply Fin.ext
  obtain ⟨e0, e1⟩ := (idx_facts t).2.2.2.2.2.2.2.2.1
  match a with
  | ⟨0, _⟩ => show win1_8.index t (0 : Fin 2) * 1 + 1 * 0 = 0; omega
  | ⟨1, _⟩ => show win1_8.index t (1 : Fin 2) * 256 + 1 * ch.val = ch.val; omega

theorem read_p9 (c : Dev nD) (t : Fin cfg1.N) (ch : Fin 256) :
    (iblk1 V c 9 t : Vec Ideal S1x256 .f32) (ix2 (0 : Fin 1) ch) = V c main_v76 (ix2 (0 : Fin 1) ch) := by
  unfold iblk1
  rw [View.read_apply]
  show V c main_v76 _ = _
  congr 1
  funext a
  apply Fin.ext
  obtain ⟨e0, e1⟩ := (idx_facts t).2.2.2.2.2.2.2.2.2.1
  match a with
  | ⟨0, _⟩ => show win1_9.index t (0 : Fin 2) * 1 + 1 * 0 = 0; omega
  | ⟨1, _⟩ => show win1_9.index t (1 : Fin 2) * 256 + 1 * ch.val = ch.val; omega

theorem read_p10 (c : Dev nD) (t : Fin cfg1.N) (ch : Fin 256) :
    (iblk1 V c 10 t : Vec Ideal S1x256 .f32) (ix2 (0 : Fin 1) ch) = V c main_v77 (ix2 (0 : Fin 1) ch) := by
  unfold iblk1
  rw [View.read_apply]
  show V c main_v77 _ = _
  congr 1
  funext a
  apply Fin.ext
  obtain ⟨e0, e1⟩ := (idx_facts t).2.2.2.2.2.2.2.2.2.2.1
  match a with
  | ⟨0, _⟩ => show win1_10.index t (0 : Fin 2) * 1 + 1 * 0 = 0; omega
  | ⟨1, _⟩ => show win1_10.index t (1 : Fin 2) * 256 + 1 * ch.val = ch.val; omega

/-- What point t writes back is block t of the whole result. -/
theorem flushed_eq (c : Dev nD) (t : Fin cfg1.N) :
    (dat1 V c).flushed 11 t = ((cfg1.win 11).blk t).view.read (Elt Ideal) (whole (V c main_v0) (V c main_v1) (V c main_v69) (V c main_v70) (V c main_v71) (V c main_v72) (V c main_v73) (V c main_v74) (V c main_v75) (V c main_v76) (V c main_v77)) := by
  show (cfg1.win 11).cut (grid1.coords t) ((dat1 V c).after 11 t) = _
  rw [after1_11]
  unfold out1_11
  rw [View.canon_unit_zero hz]
  simp only [View.ld_unit_zero (S := S1568x256) hz, View.ld_unit_zero (S := S1x256) hz]
  funext j
  have hj0 : (j 0).val < 1568 := (j 0).isLt
  have hc : (j 1).val < 512 := (j 1).isLt
  have hx : ((cfg1.win 11).xinj (grid1.coords t) j : S1568x512.Idx)
      = ix2 (⟨(j 0).val, hj0⟩ : Fin 1568) (⟨(j 1).val, hc⟩ : Fin 512) := by
    funext a
    match a with
    | ⟨0, _⟩ => rfl
    | ⟨1, _⟩ => rfl
  show body (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) ((cfg1.win 11).xinj (grid1.coords t) j) = whole (V c main_v0) (V c main_v1) (V c main_v69) (V c main_v70) (V c main_v71) (V c main_v72) (V c main_v73) (V c main_v74) (V c main_v75) (V c main_v76) (V c main_v77) (((cfg1.win 11).blk t).view.emb j)
  rw [hx]
  generalize hr : (⟨(j 0).val, hj0⟩ : Fin 1568) = r
  generalize hcol' : (⟨(j 1).val, hc⟩ : Fin 512) = col
  have hrv : (j 0).val = r.val := by rw [← hr]
  have hcv : (j 1).val = col.val := by rw [← hcol']
  have hc : col.val < 512 := col.isLt
  refine (body_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) r (⟨col.val / 2, by omega⟩ : Fin 256) (⟨col.val % 2, by omega⟩ : Fin 2) col (by show col.val = 2 * (col.val / 2) + col.val % 2; omega)).trans ?_
  obtain ⟨e0, e1⟩ := (idx_facts t).2.2.2.2.2.2.2.2.2.2.2
  have hrow : ((((cfg1.win 11).blk t).view.emb j) 0).val = 1568 * t.val + r.val := by
    show win1_11.index t (0 : Fin 2) * 1568 + 1 * (j 0).val = _; omega
  have hcol : ((((cfg1.win 11).blk t).view.emb j) 1).val = col.val := by
    show win1_11.index t (1 : Fin 2) * 512 + 1 * (j 1).val = _; omega
  generalize ((cfg1.win 11).blk t).view.emb j = i at hrow hcol ⊢
  have hi : (i : S100352x512.Idx) = ix2 (⟨1568 * t.val + r.val, by have := t_lt t; omega⟩ : Fin 100352) col := by
    funext a
    apply Fin.ext
    match a with
    | ⟨0, _⟩ => exact hrow
    | ⟨1, _⟩ => exact hcol
  rw [hi]
  refine Eq.trans ?_ (whole_apply _ _ _ _ _ _ _ _ _ _ _ _ col (⟨col.val / 2, by omega⟩ : Fin 256) rfl).symm
  have h0 := read_re V c t r (⟨col.val / 2, by omega⟩ : Fin 256)
  have h1 := read_im V c t r (⟨col.val / 2, by omega⟩ : Fin 256)
  have h2 := read_p2 V c t (⟨col.val / 2, by omega⟩ : Fin 256)
  have h3 := read_p3 V c t (⟨col.val / 2, by omega⟩ : Fin 256)
  have h4 := read_p4 V c t (⟨col.val / 2, by omega⟩ : Fin 256)
  have h5 := read_p5 V c t (⟨col.val / 2, by omega⟩ : Fin 256)
  have h6 := read_p6 V c t (⟨col.val / 2, by omega⟩ : Fin 256)
  have h7 := read_p7 V c t (⟨col.val / 2, by omega⟩ : Fin 256)
  have h8 := read_p8 V c t (⟨col.val / 2, by omega⟩ : Fin 256)
  have h9 := read_p9 V c t (⟨col.val / 2, by omega⟩ : Fin 256)
  have h10 := read_p10 V c t (⟨col.val / 2, by omega⟩ : Fin 256)
  simp only [h0, h1, h2, h3, h4, h5, h6, h7, h8, h9, h10]

/-- An index of the result is in point t's block iff each coordinate is in the block's range. -/
theorem mem_blk (t : Fin cfg1.N) (i : S100352x512.Idx) :
    i ∈ ((cfg1.win 11).blk t).view.set ↔ ∀ a : Fin 2, win1_11.index t a * S1568x512.size a ≤ (i a).val ∧ (i a).val < win1_11.index t a * S1568x512.size a + S1568x512.size a := by
  show i ∈ ((View.whole main_v78).slice (win1_11.rect t)).set ↔ _
  rw [View.set_slice_whole, Rect.mem_set_unit]
  exact Iff.rfl

/-- The blocks tile the result: row n lies in block n / 1568. -/
theorem final (c : Dev nD) : (dat1 V c).arrAt 11 cfg1.N = whole (V c main_v0) (V c main_v1) (V c main_v69) (V c main_v70) (V c main_v71) (V c main_v72) (V c main_v73) (V c main_v74) (V c main_v75) (V c main_v76) (V c main_v77) :=
  (dat1 V c).arrAt_eq_of_cover 11 _ (fun t _ => flushed_eq V c t) fun i => by
    have h0 : (i 0).val < 100352 := (i 0).isLt
    have h1 : (i 1).val < 512 := (i 1).isLt
    refine ⟨⟨(i 0).val / 1568, by have hN : cfg1.N = 64 := N_1; omega⟩, flush1_11 _, ?_⟩
    rw [mem_blk]
    obtain ⟨e0, e1⟩ := (idx_facts ⟨(i 0).val / 1568, by have hN : cfg1.N = 64 := N_1; omega⟩).2.2.2.2.2.2.2.2.2.2.2
    intro a
    match a with
    | ⟨0, _⟩ =>
      show win1_11.index _ (0 : Fin 2) * 1568 ≤ (i 0).val ∧ (i 0).val < win1_11.index _ (0 : Fin 2) * 1568 + 1568
      rw [e0]; dsimp only; omega
    | ⟨1, _⟩ =>
      show win1_11.index _ (1 : Fin 2) * 512 ≤ (i 1).val ∧ (i 1).val < win1_11.index _ (1 : Fin 2) * 512 + 512
      rw [e1]; omega

end Cert.KernelIdeal.Transform

end
-- ==== Proof.KernelValue.lean ====
/-
  The idealized kernel program's result, index by index: the specification over the moments spelling of the
  covariance. The result buffer is the second region's array [100352, 512] reshaped to [32, 56, 56, 256, 2]; entry
  (b, h, w, ch, k) is row (b·56 + h)·56 + w, lane 2·ch + k. The second region's array is the body's function of the
  sample arrays (the arguments reshaped to [100352, 256]) and of the nine parameter rows, which the host operations
  between the regions compute from the first region's accumulator arrays; rows 0 and 8 of those add up to the five
  moments' sums over a channel's samples.
-/
import proofs.«177178_j57784490000847_2_alg».proof.Proof.Gen.KernelIdeal.Frame
import proofs.«177178_j57784490000847_2_alg».proof.Proof.StatsFinal
import proofs.«177178_j57784490000847_2_alg».proof.Proof.MidRun
import proofs.«177178_j57784490000847_2_alg».proof.Proof.TransformArray

set_option maxRecDepth 16384

noncomputable section

namespace Cert.KernelIdeal.KernelValue

open Cert.KernelIdeal Cert.KernelIdeal.Gen Cert.KernelIdeal.Mid Cert.KernelIdeal.MidRun Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The real and imaginary argument arrays. -/
abbrev xr (c : Dev nD) : Cert.Spec.X4.Idx → EReal := m ((c : Thread nD τ).loc main_arg0)
abbrev xi (c : Dev nD) : Cert.Spec.X4.Idx → EReal := m ((c : Thread nD τ).loc main_arg1)

/-- Sample n of channel ch in the reshaped array is the argument at (n / 3136, n / 56 % 56, n % 56, ch). -/
theorem sample_re (c : Dev nD) (n : Fin 100352) (ch : Fin 256) :
    V1 m ρ c main_v0 (ix2 n ch) = xr m c (Cert.Spec.samp n ch) := by
  rw [V1_re m ρ c]
  refine shapeCast_apply _ _ (ix2 n ch) (Cert.Spec.samp n ch) ?_
  rw [Shape.rowMajor_val_two, Shape.rowMajor_val_four]
  show ((n.val / 3136 * 56 + n.val / 56 % 56) * 56 + n.val % 56) * 256 + ch.val = n.val * 256 + ch.val
  have := n.isLt
  omega
theorem sample_im (c : Dev nD) (n : Fin 100352) (ch : Fin 256) :
    V1 m ρ c main_v1 (ix2 n ch) = xi m c (Cert.Spec.samp n ch) := by
  rw [V1_im m ρ c]
  refine shapeCast_apply _ _ (ix2 n ch) (Cert.Spec.samp n ch) ?_
  rw [Shape.rowMajor_val_two, Shape.rowMajor_val_four]
  show ((n.val / 3136 * 56 + n.val / 56 % 56) * 56 + n.val % 56) * 256 + ch.val = n.val * 256 + ch.val
  have := n.isLt
  omega

/-- The same, with the sample read as an extended real. -/
theorem sample_re' (c : Dev nD) (n : Fin 100352) (ch : Fin 256) :
    Cert.KernelIdeal.Stats.mRe (V1 m ρ c main_v0) ch n = xr m c (Cert.Spec.samp n ch) := sample_re m ρ c n ch
theorem sample_im' (c : Dev nD) (n : Fin 100352) (ch : Fin 256) :
    Cert.KernelIdeal.Stats.mRe (V1 m ρ c main_v1) ch n = xi m c (Cert.Spec.samp n ch) := sample_im m ρ c n ch

/-- The accumulator arrays are what the first region's proof data leave. -/
theorem acc0_eq (c : Dev nD) : acc0 m ρ c = (dat0 (V1 m ρ) c).arrAt 2 cfg0.N := W2_arr m ρ c 2
theorem acc1_eq (c : Dev nD) : acc1 m ρ c = (dat0 (V1 m ρ) c).arrAt 3 cfg0.N := W2_arr m ρ c 3
theorem acc2_eq (c : Dev nD) : acc2 m ρ c = (dat0 (V1 m ρ) c).arrAt 4 cfg0.N := W2_arr m ρ c 4
theorem acc3_eq (c : Dev nD) : acc3 m ρ c = (dat0 (V1 m ρ) c).arrAt 5 cfg0.N := W2_arr m ρ c 5
theorem acc4_eq (c : Dev nD) : acc4 m ρ c = (dat0 (V1 m ρ) c).arrAt 6 cfg0.N := W2_arr m ρ c 6

/-- The channel means. -/
theorem mean_re_eq (c : Dev nD) (ch : Fin 256) : meanV (acc0 m ρ c) (ix1 ch) = Cert.Spec.mean (xr m c) ch := by
  rw [meanV_apply, Cert.KernelIdeal.Stats.total_re (V1 m ρ) c ch (acc0 m ρ c) (acc0_eq m ρ c)]
  exact congrArg (Ideal.div · Cert.Spec.cnt) (Finset.sum_congr rfl fun n _ => sample_re m ρ c n ch)
theorem mean_im_eq (c : Dev nD) (ch : Fin 256) : meanV (acc1 m ρ c) (ix1 ch) = Cert.Spec.mean (xi m c) ch := by
  rw [meanV_apply, Cert.KernelIdeal.Stats.total_im (V1 m ρ) c ch (acc1 m ρ c) (acc1_eq m ρ c)]
  exact congrArg (Ideal.div · Cert.Spec.cnt) (Finset.sum_congr rfl fun n _ => sample_im m ρ c n ch)

/-- The regularised covariance entries, in the moments spelling. -/
theorem vrr_eq (c : Dev nD) (ch : Fin 256) : vrr m ρ c (ix1 ch) = Cert.Spec.covM (xr m c) (xr m c) ch + Cert.Spec.eps := by
  show varV (acc2 m ρ c) (acc0 m ρ c) (ix1 ch) = _
  rw [varV_apply, covV_apply, mean_re_eq, Cert.KernelIdeal.Stats.total_rr (V1 m ρ) c ch (acc2 m ρ c) (acc2_eq m ρ c)]
  exact congrArg (fun z => Ideal.div z Cert.Spec.cnt - Cert.Spec.mean (xr m c) ch * Cert.Spec.mean (xr m c) ch + Cert.Spec.eps)
    (Finset.sum_congr rfl fun n _ => congrArg₂ (fun a b : EReal => a * b) (sample_re' m ρ c n ch) (sample_re' m ρ c n ch))
theorem vii_eq (c : Dev nD) (ch : Fin 256) : vii m ρ c (ix1 ch) = Cert.Spec.covM (xi m c) (xi m c) ch + Cert.Spec.eps := by
  show varV (acc3 m ρ c) (acc1 m ρ c) (ix1 ch) = _
  rw [varV_apply, covV_apply, mean_im_eq, Cert.KernelIdeal.Stats.total_ii (V1 m ρ) c ch (acc3 m ρ c) (acc3_eq m ρ c)]
  exact congrArg (fun z => Ideal.div z Cert.Spec.cnt - Cert.Spec.mean (xi m c) ch * Cert.Spec.mean (xi m c) ch + Cert.Spec.eps)
    (Finset.sum_congr rfl fun n _ => congrArg₂ (fun a b : EReal => a * b) (sample_im' m ρ c n ch) (sample_im' m ρ c n ch))
theorem vri_eq (c : Dev nD) (ch : Fin 256) : vri m ρ c (ix1 ch) = Cert.Spec.covM (xr m c) (xi m c) ch := by
  show covV (acc4 m ρ c) (acc0 m ρ c) (acc1 m ρ c) (ix1 ch) = _
  rw [covV_apply, mean_re_eq, mean_im_eq, Cert.KernelIdeal.Stats.total_ri (V1 m ρ) c ch (acc4 m ρ c) (acc4_eq m ρ c)]
  exact congrArg (fun z => Ideal.div z Cert.Spec.cnt - Cert.Spec.mean (xr m c) ch * Cert.Spec.mean (xi m c) ch)
    (Finset.sum_congr rfl fun n _ => congrArg₂ (fun a b : EReal => a * b) (sample_re' m ρ c n ch) (sample_im' m ρ c n ch))

/-- The second region's array. -/
theorem region1 (c : Dev nD) : W4 m ρ c (Proc.devRef .tc main_v78)
    = Cert.KernelIdeal.Transform.whole (V1 m ρ c main_v0) (V1 m ρ c main_v1)
        (row (meanV (acc0 m ρ c))) (row (meanV (acc1 m ρ c)))
        (row (s00V (vrr m ρ c) (vii m ρ c) (vri m ρ c))) (row (s01V (vrr m ρ c) (vii m ρ c) (vri m ρ c)))
        (row (s11V (vrr m ρ c) (vii m ρ c) (vri m ρ c)))
        (row (m ((c : Thread nD τ).loc main_arg2))) (row (m ((c : Thread nD τ).loc main_arg3)))
        (row (m ((c : Thread nD τ).loc main_arg4))) (row (m ((c : Thread nD τ).loc main_arg5))) := by
  rw [show W4 m ρ c (Proc.devRef .tc main_v78) = (dat1 (V3 m ρ) c).arrAt 11 cfg1.N from W4_arr m ρ c 11,
    Cert.KernelIdeal.Transform.final (V3 m ρ) c, V3_re, V3_im, mean_re, mean_im, p00, p01, p11, gamma_re, gamma_im, beta_re, beta_im]

/-- The result buffer is the specification over the moments spelling. -/
theorem result_eq (c : Dev nD) : W5 m ρ c (Proc.devRef .tc main_v79)
    = Cert.Spec.result Cert.Spec.covM (xr m c) (xi m c) (m ((c : Thread nD τ).loc main_arg2)) (m ((c : Thread nD τ).loc main_arg3))
        (m ((c : Thread nD τ).loc main_arg4)) (m ((c : Thread nD τ).loc main_arg5)) := by
  have e : W5 m ρ c (Proc.devRef .tc main_v79)
      = fun i => shapeCast S32x56x56x256x2 (W4 m ρ c (Proc.devRef .tc main_v78)) shapeCasts_S100352x512_S32x56x56x256x2 i := by
    show StableHlo.after hostOps2 (W4 m ρ c) (Proc.devRef .tc main_v79) = _
    after_results; rfl
  rw [e, region1]
  funext j
  obtain ⟨b, h, w, ch, k, rfl⟩ : ∃ (b : Fin 32) (h : Fin 56) (w : Fin 56) (ch : Fin 256) (k : Fin 2), j = ix5 b h w ch k :=
    ⟨j 0, j 1, j 2, j 3, j 4, eq_ix5 j⟩
  have hb := b.isLt; have hh := h.isLt; have hw := w.isLt; have hch := ch.isLt; have hk := k.isLt
  show shapeCast S32x56x56x256x2 _ shapeCasts_S100352x512_S32x56x56x256x2 (ix5 b h w ch k) = Cert.Spec.resultAt Cert.Spec.covM _ _ _ _ _ _ b h w ch k
  rw [shapeCast_apply _ shapeCasts_S100352x512_S32x56x56x256x2 (ix5 b h w ch k)
    (ix2 (⟨(b.val * 56 + h.val) * 56 + w.val, by omega⟩ : Fin 100352) (⟨2 * ch.val + k.val, by omega⟩ : Fin 512)) (by
      rw [Shape.rowMajor_val_two, Shape.rowMajor_val_five]
      show ((b.val * 56 + h.val) * 56 + w.val) * 512 + (2 * ch.val + k.val) = (((b.val * 56 + h.val) * 56 + w.val) * 256 + ch.val) * 2 + k.val
      omega)]
  unfold Cert.KernelIdeal.Transform.whole Cert.Spec.resultAt
  dsimp only
  have hch2 : ∀ h', (⟨(2 * ch.val + k.val) / 2, h'⟩ : Fin 256) = ch := fun _ => Fin.ext (by show (2 * ch.val + k.val) / 2 = ch.val; omega)
  have hn : ∀ h', (⟨(b.val * 56 + h.val) * 56 + w.val, h'⟩ : Fin 100352) = ⟨(b.val * 56 + h.val) * 56 + w.val, by omega⟩ := fun _ => rfl
  have hpar : ((2 * ch.val + k.val) % 2 = 0) = (k.val = 0) := propext ⟨fun e => by omega, fun e => by omega⟩
  have hx : V1 m ρ c main_v0 (ix2 (⟨(b.val * 56 + h.val) * 56 + w.val, by omega⟩ : Fin 100352) ch) = xr m c (ix4 b h w ch) := by
    rw [sample_re]
    refine congrArg (xr m c) ?_
    unfold Cert.Spec.samp
    funext a
    apply Fin.ext
    match a with
    | ⟨0, _⟩ => show ((b.val * 56 + h.val) * 56 + w.val) / 3136 = b.val; omega
    | ⟨1, _⟩ => show ((b.val * 56 + h.val) * 56 + w.val) / 56 % 56 = h.val; omega
    | ⟨2, _⟩ => show ((b.val * 56 + h.val) * 56 + w.val) % 56 = w.val; omega
    | ⟨3, _⟩ => rfl
  have hy : V1 m ρ c main_v1 (ix2 (⟨(b.val * 56 + h.val) * 56 + w.val, by omega⟩ : Fin 100352) ch) = xi m c (ix4 b h w ch) := by
    rw [sample_im]
    refine congrArg (xi m c) ?_
    unfold Cert.Spec.samp
    funext a
    apply Fin.ext
    match a with
    | ⟨0, _⟩ => show ((b.val * 56 + h.val) * 56 + w.val) / 3136 = b.val; omega
    | ⟨1, _⟩ => show ((b.val * 56 + h.val) * 56 + w.val) / 56 % 56 = h.val; omega
    | ⟨2, _⟩ => show ((b.val * 56 + h.val) * 56 + w.val) % 56 = w.val; omega
    | ⟨3, _⟩ => rfl
  simp only [hch2, hpar, hx, hy, row_apply, s00V_apply, s01V_apply, s11V_apply]
  rw [mean_re_eq m ρ c ch, mean_im_eq m ρ c ch, vrr_eq m ρ c ch, vii_eq m ρ c ch, vri_eq m ρ c ch]

end Cert.KernelIdeal.KernelValue

end
-- ==== Proof.LibMomentLaw.lean ====
/- General lemmas on the extended reals for moment computations over a finite index
   type: a finite sum of coerced reals is the coerced real sum; a mean taken with the extended
   division by a nonzero real count is the coerced real mean; and the covariance law "mean of
   products minus product of means = mean of the products of centred values", stated on the
   extended reals with every value a coerced real. Two float constants are read as the extended
   reals their patterns denote. -/
import Mathlib
import Idealize.ShloMosaic.PureOps.Ideal
import Idealize.ShloMosaic.PureOps.Ideal.Laws

noncomputable section

namespace Cert.LibMomentLaw

open Idealize.ShloMosaic
open scoped BigOperators

/-- A finite sum of coerced reals is the coercion of the real sum: every partial sum stays finite,
    so no corner of the extended addition is met. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The mean of finitely many coerced reals, taken with the extended division by a nonzero real
    `N`, is the coerced real mean `(∑ f) / N`. -/
theorem mean_coe {ι : Type*} [Fintype ι] (N : ℝ) (hN : N ≠ 0) (f : ι → ℝ) :
    Ideal.div (∑ i, ((f i : ℝ) : EReal)) (N : EReal) = (((∑ i, f i) / N : ℝ) : EReal) := by
  rw [Ideal.div_coe hN, coe_sum, ← EReal.coe_mul, mul_one_div]

/-- The real covariance identity behind `cov_law`: with `N` the number of indices, the mean of the
    products of the centred values is the mean of the products minus the product of the means. -/
theorem cov_real {ι : Type*} [Fintype ι] (N : ℝ) (hcard : (Fintype.card ι : ℝ) = N) (hN : N ≠ 0)
    (f g : ι → ℝ) :
    (∑ i, (f i - (∑ i, f i) / N) * (g i - (∑ i, g i) / N)) / N
      = (∑ i, f i * g i) / N - (∑ i, f i) / N * ((∑ i, g i) / N) := by
  have h1 : ∀ a b : ℝ, ∑ i, (f i - a) * (g i - b)
      = (∑ i, f i * g i) - a * (∑ i, g i) - b * (∑ i, f i) + N * (a * b) := by
    intro a b
    have h2 : ∀ i, (f i - a) * (g i - b) = f i * g i - a * g i - b * f i + a * b := fun i => by ring
    simp_rw [h2]
    rw [Finset.sum_add_distrib, Finset.sum_sub_distrib, Finset.sum_sub_distrib, ← Finset.mul_sum,
      ← Finset.mul_sum, Finset.sum_const, Finset.card_univ, nsmul_eq_mul, hcard]
  rw [h1]
  field_simp
  ring

/-- The covariance law on the extended reals, every value a coerced real and `N ≠ 0` the number of
    indices: the mean of the products of the centred values equals the mean of the products minus
    the product of the means. All means are taken with the extended division. -/
theorem cov_law {ι : Type*} [Fintype ι] (N : ℝ) (hcard : (Fintype.card ι : ℝ) = N) (hN : N ≠ 0)
    (f g : ι → ℝ) :
    Ideal.div (∑ i, (((f i : ℝ) : EReal) - Ideal.div (∑ i, ((f i : ℝ) : EReal)) (N : EReal))
        * (((g i : ℝ) : EReal) - Ideal.div (∑ i, ((g i : ℝ) : EReal)) (N : EReal))) (N : EReal)
      = Ideal.div (∑ i, ((f i : ℝ) : EReal) * ((g i : ℝ) : EReal)) (N : EReal)
        - Ideal.div (∑ i, ((f i : ℝ) : EReal)) (N : EReal)
          * Ideal.div (∑ i, ((g i : ℝ) : EReal)) (N : EReal) := by
  rw [mean_coe N hN f, mean_coe N hN g]
  simp_rw [← EReal.coe_sub, ← EReal.coe_mul]
  rw [mean_coe N hN (fun i => (f i - (∑ i, f i) / N) * (g i - (∑ i, g i) / N)),
    mean_coe N hN (fun i => f i * g i), ← EReal.coe_sub, cov_real N hcard hN f g]

/-- The `f32` pattern `0x47C40000` denotes the real `100352` (`= 32 · 56 · 56`):
    exponent field `143`, significand `2^23 + 0x440000`, so `12845056 · 2^(-7)`. -/
theorem ofBits_count : Ideal.ofBits .f32 0x47C40000#32 = ((100352 : ℝ) : EReal) := by
  simp [Ideal.ofBits, Ideal.ieee, -EReal.coe_mul]; norm_num

/-- The `f32` zero pattern denotes `0`, the unit of the extended addition: a sum started from it
    is the sum. -/
theorem zero_add_sum (x : EReal) : (Ideal.ofBits .f32 0x00000000#32) + x = x := by
  rw [Ideal.ofBits_zero_f32, zero_add]

end Cert.LibMomentLaw

end
-- ==== Proof.CovAgree.lean ====
/-
  On finite inputs the two spellings of a channel's covariance agree: the mean of the products of the centred values
  is the mean of the products minus the product of the means. So the specification does not depend on the spelling.
-/
import proofs.«177178_j57784490000847_2_alg».proof.Proof.Spec
import proofs.«177178_j57784490000847_2_alg».proof.Proof.LibMomentLaw

noncomputable section

namespace Cert.Spec

open Idealize.ShloMosaic

/-- Centred and moments spellings of the covariance agree when every entry is a real number. -/
theorem cov_agree (x y : X4.Idx → EReal) (hx : ∀ i, ∃ r : ℝ, x i = (r : EReal)) (hy : ∀ i, ∃ r : ℝ, y i = (r : EReal))
    (ch : Fin 256) : covC x y ch = covM x y ch := by
  choose fx hfx using hx
  choose fy hfy using hy
  unfold covC covM mean cnt
  rw [Cert.LibMomentLaw.ofBits_count]
  simp only [hfx, hfy]
  exact Cert.LibMomentLaw.cov_law (ι := Fin 100352) 100352 (by simp) (by norm_num)
    (fun n => fx (samp n ch)) (fun n => fy (samp n ch))

/-- The specification over either spelling is the same array on finite inputs. -/
theorem result_agree (xr xi : X4.Idx → EReal) (gr gi br bi : C1.Idx → EReal)
    (hr : ∀ i, ∃ r : ℝ, xr i = (r : EReal)) (hi : ∀ i, ∃ r : ℝ, xi i = (r : EReal)) :
    result covM xr xi gr gi br bi = result covC xr xi gr gi br bi := by
  funext j
  unfold result resultAt
  have a : covC xr xr = covM xr xr := funext (cov_agree xr xr hr hr)
  have b : covC xi xi = covM xi xi := funext (cov_agree xi xi hi hi)
  have d : covC xr xi = covM xr xi := funext (cov_agree xr xi hr hi)
  rw [a, b, d]

end Cert.Spec

end
-- ==== Proof.FiniteInputs.lean ====
/- The precondition `finite_inputs` decoded at the extended reals: each input passes
   the test `|x| < +∞` at every element, and an extended real whose absolute value is below `⊤` is
   neither `⊥` nor `⊤`, hence a coerced real. Stated for the first two inputs. -/
import proofs.«177178_j57784490000847_2_alg».proof.Pre_finite_inputs
import Idealize.ShloMosaic.Lib.ReduceAll
import Idealize.ShloMosaic.Lib.IdealHost
import Idealize.ShloMosaic.PureOps.Ideal
import Idealize.ShloMosaic.PureOps.Ideal.Laws

noncomputable section

namespace Cert.FiniteInputs

open Idealize.ShloMosaic Idealize.ShloMosaic.ValueIdx Cert.Pre_finite_inputs

/-- A rank-0 shape has one index. -/
instance : Subsingleton S_.Idx := ⟨fun a b => funext fun d => d.elim0⟩

/-- The `f32` pattern `0x7F800000` (all-ones exponent, zero significand, sign clear) denotes `⊤`. -/
theorem ofBits_inf : Ideal.ofBits .f32 0x7F800000#32 = ⊤ := by
  simp [Ideal.ofBits, Ideal.ieee]

/-- An extended real whose absolute value `max x (-x)` is below `⊤` is a coerced real:
    at `⊥` and at `⊤` the absolute value is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One element's test `|x| < +∞` that came out true says the element is a coerced real. -/
theorem real_of_test {s : Shape} (h : S_.BroadcastsInDim s ![]) (a : FVec Ideal s .f32) (i : s.Idx)
    (e : cmpf .olt (Host.absf a) (broadcastInDim s ![] h (constant S_ .f32 0x7F800000#32)) i = 1#1) :
    ∃ r : ℝ, a i = (r : EReal) := by
  apply real_of_abs_lt_top
  have e' : Ideal.cmp .olt (max (a i) (-(a i))) (Ideal.ofBits .f32 0x7F800000#32) = 1#1 := by
    rw [← e]
    show _ = FloatOps.cmpf .olt (FloatOps.hostAbsf (a i))
      (broadcastInDim s ![] h (constant S_ .f32 0x7F800000#32) i)
    rw [broadcastInDim_scalar_apply]; rfl
  rw [ofBits_inf] at e'
  by_contra hlt
  have e0 : Ideal.cmp .olt (max (a i) (-(a i))) ⊤ = 0#1 := by
    show BitVec.ofBool (decide (max (a i) (-(a i)) < ⊤)) = 0#1
    rw [decide_eq_false hlt]; rfl
  rw [e0] at e'
  exact absurd e' (by decide)

/-- The precondition decoded: every element of the first two inputs is a coerced real. -/
theorem real_of_pre [Cert.Pre_finite_inputs.Facts] (a0 a1 : FVec Ideal S32x56x56x256 .f32)
    (a2 a3 a4 a5 : FVec Ideal S256 .f32)
    (h : fn (F := Ideal) a0 a1 a2 a3 a4 a5 = fun _ => 1#1) :
    (∀ i, ∃ r : ℝ, a0 i = (r : EReal)) ∧ (∀ i, ∃ r : ℝ, a1 i = (r : EReal)) := by
  have e := congrFun h ix0
  unfold fn fn_part1 at e
  dsimp only at e
  simp only [andi, IntOp.andi_eq_one] at e
  obtain ⟨⟨⟨⟨⟨h0, h1⟩, -⟩, -⟩, -⟩, -⟩ := e
  exact ⟨fun i => real_of_test _ a0 i (Host.reduce_andi_all _ _ _ _ _ h0 i),
    fun i => real_of_test _ a1 i (Host.reduce_andi_all _ _ _ _ _ h1 i)⟩

end Cert.FiniteInputs

end
-- ==== Proof.RefSums.lean ====
/-
  The reference program's non-pointwise operations read at an index: its five sums over batch and the two
  spatial axes as sums over a channel's 100352 samples, its broadcasts of a per-channel vector and of a scalar
  constant, the trailing unit axis, and the two halves of the final concatenation.
-/
import proofs.«177178_j57784490000847_2_alg».proof.Proof.Spec
import proofs.«177178_j57784490000847_2_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The sum over a channel's samples -/

/-- The dropped index of a 4-index on the one kept axis is its channel coordinate. -/
theorem drop_val (i : S32x56x56x256.Idx) :
    ((reducesTo_S32x56x56x256_S256_d0_1_2).drop i (0 : Fin 1) : Nat) = (i (3 : Fin 4) : Nat) :=
  Shape.ReducesTo.drop_apply_val_of_eq reducesTo_S32x56x56x256_S256_d0_1_2 i (0 : Fin 1) (3 : Fin 4)

/-- The position of a 4-index among its channel's samples. -/
def flat (i : S32x56x56x256.Idx) : Fin 100352 :=
  ⟨((i 0).val * 56 + (i 1).val) * 56 + (i 2).val, by
    have h0 : (i 0).val < 32 := (i 0).isLt
    have h1 : (i 1).val < 56 := (i 1).isLt
    have h2 : (i 2).val < 56 := (i 2).isLt
    omega⟩

/-- A sample's position is its number. -/
theorem flat_samp (n : Fin 100352) (ch : Fin 256) : flat (Cert.Spec.samp n ch) = n := by
  refine Fin.ext ?_
  show (n.val / 3136 * 56 + n.val / 56 % 56) * 56 + n.val % 56 = n.val
  omega

/-- The sample at a 4-index's position, on that index's channel, is the index. -/
theorem samp_flat (i : S32x56x56x256.Idx) (ch : Fin 256) (hc : (i 3).val = ch.val) : Cert.Spec.samp (flat i) ch = i := by
  have h0 : (i 0).val < 32 := (i 0).isLt
  have h1 : (i 1).val < 56 := (i 1).isLt
  have h2 : (i 2).val < 56 := (i 2).isLt
  funext a
  refine Fin.ext ?_
  match a with
  | ⟨0, _⟩ => show (((i 0).val * 56 + (i 1).val) * 56 + (i 2).val) / 3136 = (i 0).val; omega
  | ⟨1, _⟩ => show (((i 0).val * 56 + (i 1).val) * 56 + (i 2).val) / 56 % 56 = (i 1).val; omega
  | ⟨2, _⟩ => show (((i 0).val * 56 + (i 1).val) * 56 + (i 2).val) % 56 = (i 2).val; omega
  | ⟨3, _⟩ => exact hc.symm

/-- THE SUM: a float sum over batch and the two spatial axes from the zero word, read at channel `ch`, is the sum of
    the operand over that channel's 100352 samples. -/
theorem sum_channel (x : S32x56x56x256.Idx → EReal) (ch : Fin 256) :
    Host.reduceAdd (F := Ideal) (φ := .f32) x (constant (F := Ideal) S_ .f32 0x00000000#32)
        reducesTo_S32x56x56x256_S256_d0_1_2 h_S_ (ix1 ch)
      = ∑ n : Fin 100352, x (Cert.Spec.samp n ch) := by
  show Ideal.hostReduceAdd reducesTo_S32x56x56x256_S256_d0_1_2 x (Ideal.ofBits .f32 0x00000000#32) (ix1 ch) = _
  unfold Ideal.hostReduceAdd
  rw [Ideal.ofBits_zero_f32, zero_add]
  symm
  refine Finset.sum_nbij' (fun n => Cert.Spec.samp n ch) flat ?_ ?_ ?_ ?_ ?_
  · intro n _
    refine Finset.mem_filter.2 ⟨Finset.mem_univ _, funext fun b => Fin.ext ?_⟩
    match b with
    | ⟨0, _⟩ => exact (drop_val (Cert.Spec.samp n ch)).trans rfl
  · intro i _; exact Finset.mem_univ _
  · intro n _; exact flat_samp n ch
  · intro i hi
    have e := congrFun (Finset.mem_filter.1 hi).2 (0 : Fin 1)
    refine samp_flat i ch ?_
    rw [← drop_val i, e]
  · intro n _; rfl

/-! ## The host's pointwise quotient, negation and square root at an index -/

variable {s : Shape} {φ : FTy}

theorem hdivf_apply (x y : FVec Ideal s φ) (i : s.Idx) : Host.divf x y i = Ideal.div (x i) (y i) := rfl
theorem hnegf_apply (x : FVec Ideal s φ) (i : s.Idx) : Host.negf x i = -(x i) := rfl
theorem hsqrt_apply (x : FVec Ideal s φ) (i : s.Idx) : Host.sqrt x i = Ideal.sqrt (x i) := rfl

/-! ## Broadcasts -/

/-- A per-channel vector broadcast over batch and the two spatial axes reads the vector at the channel. -/
theorem B_apply {α : Type} (v : S256.Idx → α) (b : Fin 32) (h w : Fin 56) (ch : Fin 256) :
    broadcastInDim S32x56x56x256 ![0, 1, 2, 3] bcast_S1x1x1x256_S32x56x56x256_0_1_2_3
        (broadcastInDim S1x1x1x256 ![3] bcast_S256_S1x1x1x256_3 v) (ix4 b h w ch) = v (ix1 ch) := by
  refine (broadcastInDim_apply (s := S1x1x1x256) (t := S32x56x56x256) ![0, 1, 2, 3] bcast_S1x1x1x256_S32x56x56x256_0_1_2_3
    (broadcastInDim S1x1x1x256 ![3] bcast_S256_S1x1x1x256_3 v) (ix4 b h w ch)
    (ix4 (0 : Fin 1) (0 : Fin 1) (0 : Fin 1) ch) ?_).trans ?_
  · intro a
    match a with
    | ⟨0, _⟩ => rfl
    | ⟨1, _⟩ => rfl
    | ⟨2, _⟩ => rfl
    | ⟨3, _⟩ => rfl
  · refine broadcastInDim_apply (s := S256) (t := S1x1x1x256) ![3] bcast_S256_S1x1x1x256_3 v
      (ix4 (0 : Fin 1) (0 : Fin 1) (0 : Fin 1) ch) (ix1 ch) ?_
    intro a
    match a with
    | ⟨0, _⟩ => rfl

/-- A scalar constant broadcast to the channel vector reads the word's value. -/
theorem K_apply (wd : BitVec 32) (ch : Fin 256) :
    broadcastInDim S256 ![] bcast_S_S256 (constant (F := Ideal) S_ .f32 wd) (ix1 ch) = Ideal.ofBits .f32 wd := by
  refine (broadcastInDim_apply (s := S_) (t := S256) ![] bcast_S_S256 (constant (F := Ideal) S_ .f32 wd) (ix1 ch) ix0 ?_).trans rfl
  intro a
  exact a.elim0

/-- An array given a trailing unit axis reads the array at the leading four coordinates. -/
theorem U_apply {α : Type} (y : S32x56x56x256.Idx → α) (b : Fin 32) (h w : Fin 56) (ch : Fin 256) :
    broadcastInDim S32x56x56x256x1 ![0, 1, 2, 3] bcast_S32x56x56x256_S32x56x56x256x1_0_1_2_3 y (ix5 b h w ch (0 : Fin 1))
      = y (ix4 b h w ch) := by
  refine broadcastInDim_apply (s := S32x56x56x256) (t := S32x56x56x256x1) ![0, 1, 2, 3]
    bcast_S32x56x56x256_S32x56x56x256x1_0_1_2_3 y (ix5 b h w ch (0 : Fin 1)) (ix4 b h w ch) ?_
  intro a
  match a with
  | ⟨0, _⟩ => rfl
  | ⟨1, _⟩ => rfl
  | ⟨2, _⟩ => rfl
  | ⟨3, _⟩ => rfl

/-! ## The concatenation along the last axis -/

/-- The two-piece concatenation along the last axis at last coordinate 0 reads the first piece. -/
theorem cat_left {α : Type} (x1 x2 : S32x56x56x256x1.Idx → α) (b : Fin 32) (h w : Fin 56) (ch : Fin 256) :
    concatenate S32x56x56x256x2 4 [⟨S32x56x56x256x1, x1⟩, ⟨S32x56x56x256x1, x2⟩]
        concatenates_S32x56x56x256x1_S32x56x56x256x1_S32x56x56x256x2_d4 (ix5 b h w ch (0 : Fin 2))
      = x1 (ix5 b h w ch (0 : Fin 1)) := by
  refine concatenate_pair_apply_left (t := S32x56x56x256x2) (s₁ := S32x56x56x256x1) (s₂ := S32x56x56x256x1) 4 x1 x2
    concatenates_S32x56x56x256x1_S32x56x56x256x1_S32x56x56x256x2_d4 (ix5 b h w ch (0 : Fin 2)) rfl
    (ix5 b h w ch (0 : Fin 1)) ?_
  intro a
  match a with
  | ⟨0, _⟩ => rfl
  | ⟨1, _⟩ => rfl
  | ⟨2, _⟩ => rfl
  | ⟨3, _⟩ => rfl
  | ⟨4, _⟩ => rfl

/-- … and at last coordinate 1 the second piece. -/
theorem cat_right {α : Type} (x1 x2 : S32x56x56x256x1.Idx → α) (b : Fin 32) (h w : Fin 56) (ch : Fin 256) :
    concatenate S32x56x56x256x2 4 [⟨S32x56x56x256x1, x1⟩, ⟨S32x56x56x256x1, x2⟩]
        concatenates_S32x56x56x256x1_S32x56x56x256x1_S32x56x56x256x2_d4 (ix5 b h w ch (1 : Fin 2))
      = x2 (ix5 b h w ch (0 : Fin 1)) := by
  refine concatenate_pair_apply_right (t := S32x56x56x256x2) (s₁ := S32x56x56x256x1) (s₂ := S32x56x56x256x1) 4 x1 x2
    concatenates_S32x56x56x256x1_S32x56x56x256x1_S32x56x56x256x2_d4 (ix5 b h w ch (1 : Fin 2)) rfl rfl
    (ix5 b h w ch (0 : Fin 1)) ?_ rfl
  intro a
  match a with
  | ⟨0, _⟩ => exact fun _ => rfl
  | ⟨1, _⟩ => exact fun _ => rfl
  | ⟨2, _⟩ => exact fun _ => rfl
  | ⟨3, _⟩ => exact fun _ => rfl
  | ⟨4, _⟩ => exact fun hne => (hne rfl).elim

end Cert.ReferenceIdeal.RefValue

end
-- ==== Proof.RefStats.lean ====
/-
  The reference program's per-channel statistics read at an index: the centred arrays, the three regularised
  covariances, and the chain of pointwise operations that forms the inverse square root of the 2×2 covariance.
-/
import proofs.«177178_j57784490000847_2_alg».proof.Proof.RefSums
import proofs.«177178_j57784490000847_2_alg».proof.Proof.Gen.ReferenceIdeal.Run

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo
open Idealize.ShloMosaic.ValueIdx

variable (V0 : Valuation τ sig (Elt Ideal))

/-- The two input arrays (real and imaginary parts) as the run finds them. -/
abbrev xr : S32x56x56x256.Idx → EReal := V0 (Proc.devRef .tc main_arg0)
abbrev xi : S32x56x56x256.Idx → EReal := V0 (Proc.devRef .tc main_arg1)

/-! ## The centred arrays -/

theorem v8_apply (b : Fin 32) (h w : Fin 56) (ch : Fin 256) :
    res_main_v8 (F := Ideal) V0 (ix4 b h w ch) = xr V0 (ix4 b h w ch) - Cert.Spec.mean (xr V0) ch := by
  unfold res_main_v8
  refine (subf_apply _ _ _).trans ?_
  rw [B_apply, hdivf_apply, sum_channel, K_apply]
  rfl

theorem v11_apply (b : Fin 32) (h w : Fin 56) (ch : Fin 256) :
    res_main_v11 (F := Ideal) V0 (ix4 b h w ch) = xi V0 (ix4 b h w ch) - Cert.Spec.mean (xi V0) ch := by
  unfold res_main_v11
  refine (subf_apply _ _ _).trans ?_
  rw [B_apply, hdivf_apply, sum_channel, K_apply]
  rfl

theorem v8_samp (n : Fin 100352) (ch : Fin 256) :
    res_main_v8 (F := Ideal) V0 (Cert.Spec.samp n ch) = xr V0 (Cert.Spec.samp n ch) - Cert.Spec.mean (xr V0) ch := by
  unfold Cert.Spec.samp
  exact v8_apply V0 _ _ _ ch

theorem v11_samp (n : Fin 100352) (ch : Fin 256) :
    res_main_v11 (F := Ideal) V0 (Cert.Spec.samp n ch) = xi V0 (Cert.Spec.samp n ch) - Cert.Spec.mean (xi V0) ch := by
  unfold Cert.Spec.samp
  exact v11_apply V0 _ _ _ ch

/-! ## The three covariances -/

/-- The mean over a channel of the product of two arrays that are the centred `x` and `y` on that channel is the
    covariance of `x` and `y` there. -/
theorem cov_apply (p q x y : S32x56x56x256.Idx → EReal) (ch : Fin 256)
    (hp : ∀ n, p (Cert.Spec.samp n ch) = x (Cert.Spec.samp n ch) - Cert.Spec.mean x ch)
    (hq : ∀ n, q (Cert.Spec.samp n ch) = y (Cert.Spec.samp n ch) - Cert.Spec.mean y ch) :
    Host.divf (F := Ideal) (φ := .f32)
        (Host.reduceAdd (F := Ideal) (φ := .f32) (mulf p q) (constant (F := Ideal) S_ .f32 0x00000000#32)
          reducesTo_S32x56x56x256_S256_d0_1_2 h_S_)
        (broadcastInDim S256 ![] bcast_S_S256 (constant (F := Ideal) S_ .f32 0x47C40000#32)) (ix1 ch)
      = Cert.Spec.covC x y ch := by
  rw [hdivf_apply, sum_channel, K_apply]
  rw [Finset.sum_congr rfl (fun n _ => (mulf_apply p q (Cert.Spec.samp n ch)).trans
    (congrArg₂ (· * ·) (hp n) (hq n)))]
  rfl

/-- The regularised covariance entries of a channel. -/
abbrev vrr (ch : Fin 256) : EReal := Cert.Spec.covC (xr V0) (xr V0) ch + Cert.Spec.eps
abbrev vii (ch : Fin 256) : EReal := Cert.Spec.covC (xi V0) (xi V0) ch + Cert.Spec.eps
abbrev vri (ch : Fin 256) : EReal := Cert.Spec.covC (xr V0) (xi V0) ch

theorem v17_apply (ch : Fin 256) : res_main_v17 (F := Ideal) V0 (ix1 ch) = vrr V0 ch := by
  unfold res_main_v17
  refine (addf_apply _ _ _).trans ?_
  rw [cov_apply _ _ (xr V0) (xr V0) ch (fun n => v8_samp V0 n ch) (fun n => v8_samp V0 n ch), K_apply]
  rfl

theorem v27_apply (ch : Fin 256) : res_main_v27 (F := Ideal) V0 (ix1 ch) = vii V0 ch := by
  unfold res_main_v27
  refine (addf_apply _ _ _).trans ?_
  rw [cov_apply _ _ (xi V0) (xi V0) ch (fun n => v11_samp V0 n ch) (fun n => v11_samp V0 n ch), K_apply]
  rfl

theorem v21_apply (ch : Fin 256) : res_main_v21 (F := Ideal) V0 (ix1 ch) = vri V0 ch := by
  unfold res_main_v21
  exact cov_apply _ _ (xr V0) (xi V0) ch (fun n => v8_samp V0 n ch) (fun n => v11_samp V0 n ch)

/-! ## The inverse square root of the covariance, entry by entry -/

theorem v30_apply (ch : Fin 256) :
    res_main_v30 (F := Ideal) V0 (ix1 ch) = Cert.Spec.det (vrr V0 ch) (vii V0 ch) (vri V0 ch) := by
  unfold res_main_v30
  rw [subf_apply, mulf_apply, mulf_apply, v17_apply, v27_apply, v21_apply]
  rfl

theorem v31_apply (ch : Fin 256) :
    res_main_v31 (F := Ideal) V0 (ix1 ch) = Cert.Spec.ca (vrr V0 ch) (vii V0 ch) (vri V0 ch) := by
  unfold res_main_v31
  rw [hdivf_apply, v27_apply, v30_apply]
  rfl

theorem v33_apply (ch : Fin 256) :
    res_main_v33 (F := Ideal) V0 (ix1 ch) = Cert.Spec.cb (vrr V0 ch) (vii V0 ch) (vri V0 ch) := by
  unfold res_main_v33
  rw [hdivf_apply, hnegf_apply, v21_apply, v30_apply]
  rfl

theorem v34_apply (ch : Fin 256) :
    res_main_v34 (F := Ideal) V0 (ix1 ch) = Cert.Spec.cd (vrr V0 ch) (vii V0 ch) (vri V0 ch) := by
  unfold res_main_v34
  rw [hdivf_apply, v17_apply, v30_apply]
  rfl

theorem v38_apply (ch : Fin 256) :
    res_main_v38 (F := Ideal) V0 (ix1 ch) = Cert.Spec.cs (vrr V0 ch) (vii V0 ch) (vri V0 ch) := by
  unfold res_main_v38
  rw [hsqrt_apply, subf_apply, mulf_apply, mulf_apply, v31_apply, v34_apply, v33_apply]
  rfl

theorem v43_apply (ch : Fin 256) :
    res_main_v43 (F := Ideal) V0 (ix1 ch) = Cert.Spec.ct (vrr V0 ch) (vii V0 ch) (vri V0 ch) := by
  unfold res_main_v43
  rw [hsqrt_apply, addf_apply, addf_apply, mulf_apply, K_apply, v31_apply, v34_apply, v38_apply]
  rfl

theorem v46_apply (ch : Fin 256) :
    res_main_v46 (F := Ideal) V0 (ix1 ch) = Cert.Spec.s01 (vrr V0 ch) (vii V0 ch) (vri V0 ch) := by
  unfold res_main_v46
  rw [hdivf_apply, v33_apply, v43_apply]
  rfl

theorem s00_apply (ch : Fin 256) :
    Host.divf (F := Ideal) (φ := .f32) (addf (res_main_v31 (F := Ideal) V0) (res_main_v38 (F := Ideal) V0))
        (res_main_v43 (F := Ideal) V0) (ix1 ch)
      = Cert.Spec.s00 (vrr V0 ch) (vii V0 ch) (vri V0 ch) := by
  rw [hdivf_apply, addf_apply, v31_apply, v38_apply, v43_apply]
  rfl

theorem s11_apply (ch : Fin 256) :
    Host.divf (F := Ideal) (φ := .f32) (addf (res_main_v34 (F := Ideal) V0) (res_main_v38 (F := Ideal) V0))
        (res_main_v43 (F := Ideal) V0) (ix1 ch)
      = Cert.Spec.s11 (vrr V0 ch) (vii V0 ch) (vri V0 ch) := by
  rw [hdivf_apply, addf_apply, v34_apply, v38_apply, v43_apply]
  rfl

end Cert.ReferenceIdeal.RefValue

end
-- ==== Proof.RefSide.lean ====
/-
  The reference program's run ends at the specification: its result buffer, read index by index through the
  final concatenation, the per-channel scale and shift and the whitening of the centred pair, is the complex
  batch normalisation over the covariance spelt as the mean of products of centred values.
-/
import proofs.«177178_j57784490000847_2_alg».proof.Proof.RefStats

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo
open Idealize.ShloMosaic.ValueIdx

section Pure

variable (V0 : Valuation τ sig (Elt Ideal))

/-- The complex scale (real and imaginary parts) and shift (real and imaginary parts) as the run finds them. -/
abbrev gr : S256.Idx → EReal := V0 (Proc.devRef .tc main_arg2)
abbrev gi : S256.Idx → EReal := V0 (Proc.devRef .tc main_arg3)
abbrev br : S256.Idx → EReal := V0 (Proc.devRef .tc main_arg4)
abbrev bi : S256.Idx → EReal := V0 (Proc.devRef .tc main_arg5)

/-! ## The whitened pair -/

theorem v55_apply (b : Fin 32) (h w : Fin 56) (ch : Fin 256) :
    res_main_v55 (F := Ideal) V0 (ix4 b h w ch)
      = Cert.Spec.outr (xr V0 (ix4 b h w ch)) (xi V0 (ix4 b h w ch)) (Cert.Spec.mean (xr V0) ch) (Cert.Spec.mean (xi V0) ch)
          (Cert.Spec.s00 (vrr V0 ch) (vii V0 ch) (vri V0 ch)) (Cert.Spec.s01 (vrr V0 ch) (vii V0 ch) (vri V0 ch)) := by
  unfold res_main_v55
  rw [addf_apply, mulf_apply, mulf_apply, B_apply, B_apply, s00_apply, v46_apply, v8_apply, v11_apply]
  rfl

theorem v62_apply (b : Fin 32) (h w : Fin 56) (ch : Fin 256) :
    res_main_v62 (F := Ideal) V0 (ix4 b h w ch)
      = Cert.Spec.outi (xr V0 (ix4 b h w ch)) (xi V0 (ix4 b h w ch)) (Cert.Spec.mean (xr V0) ch) (Cert.Spec.mean (xi V0) ch)
          (Cert.Spec.s01 (vrr V0 ch) (vii V0 ch) (vri V0 ch)) (Cert.Spec.s11 (vrr V0 ch) (vii V0 ch) (vri V0 ch)) := by
  unfold res_main_v62
  rw [addf_apply, mulf_apply, mulf_apply, B_apply, B_apply, v46_apply, s11_apply, v8_apply, v11_apply]
  rfl

/-! ## The two halves of the result -/

/-- The real half: scale the whitened pair as a complex number, take the real part, shift. -/
theorem re_apply (b : Fin 32) (h w : Fin 56) (ch : Fin 256) :
    (broadcastInDim S32x56x56x256x1 ![0, 1, 2, 3] bcast_S32x56x56x256_S32x56x56x256x1_0_1_2_3 (addf (subf (mulf (broadcastInDim S32x56x56x256 ![0, 1, 2, 3] bcast_S1x1x1x256_S32x56x56x256_0_1_2_3 (broadcastInDim S1x1x1x256 ![3] bcast_S256_S1x1x1x256_3 (V0 (Proc.devRef .tc main_arg2)))) (res_main_v55 V0)) (mulf (broadcastInDim S32x56x56x256 ![0, 1, 2, 3] bcast_S1x1x1x256_S32x56x56x256_0_1_2_3 (broadcastInDim S1x1x1x256 ![3] bcast_S256_S1x1x1x256_3 (V0 (Proc.devRef .tc main_arg3)))) (res_main_v62 V0))) (broadcastInDim S32x56x56x256 ![0, 1, 2, 3] bcast_S1x1x1x256_S32x56x56x256_0_1_2_3 (broadcastInDim S1x1x1x256 ![3] bcast_S256_S1x1x1x256_3 (V0 (Proc.devRef .tc main_arg4)))))) (ix5 b h w ch (0 : Fin 1))
      = Cert.Spec.yr (xr V0 (ix4 b h w ch)) (xi V0 (ix4 b h w ch)) (Cert.Spec.mean (xr V0) ch) (Cert.Spec.mean (xi V0) ch)
          (Cert.Spec.s00 (vrr V0 ch) (vii V0 ch) (vri V0 ch)) (Cert.Spec.s01 (vrr V0 ch) (vii V0 ch) (vri V0 ch))
          (Cert.Spec.s11 (vrr V0 ch) (vii V0 ch) (vri V0 ch)) (gr V0 (ix1 ch)) (gi V0 (ix1 ch)) (br V0 (ix1 ch)) := by
  rw [U_apply, addf_apply, subf_apply, mulf_apply, mulf_apply, B_apply, B_apply, B_apply, v55_apply, v62_apply]
  rfl

/-- The imaginary half likewise. -/
theorem im_apply (b : Fin 32) (h w : Fin 56) (ch : Fin 256) :
    (broadcastInDim S32x56x56x256x1 ![0, 1, 2, 3] bcast_S32x56x56x256_S32x56x56x256x1_0_1_2_3 (addf (addf (mulf (broadcastInDim S32x56x56x256 ![0, 1, 2, 3] bcast_S1x1x1x256_S32x56x56x256_0_1_2_3 (broadcastInDim S1x1x1x256 ![3] bcast_S256_S1x1x1x256_3 (V0 (Proc.devRef .tc main_arg2)))) (res_main_v62 V0)) (mulf (broadcastInDim S32x56x56x256 ![0, 1, 2, 3] bcast_S1x1x1x256_S32x56x56x256_0_1_2_3 (broadcastInDim S1x1x1x256 ![3] bcast_S256_S1x1x1x256_3 (V0 (Proc.devRef .tc main_arg3)))) (res_main_v55 V0))) (broadcastInDim S32x56x56x256 ![0, 1, 2, 3] bcast_S1x1x1x256_S32x56x56x256_0_1_2_3 (broadcastInDim S1x1x1x256 ![3] bcast_S256_S1x1x1x256_3 (V0 (Proc.devRef .tc main_arg5)))))) (ix5 b h w ch (0 : Fin 1))
      = Cert.Spec.yi (xr V0 (ix4 b h w ch)) (xi V0 (ix4 b h w ch)) (Cert.Spec.mean (xr V0) ch) (Cert.Spec.mean (xi V0) ch)
          (Cert.Spec.s00 (vrr V0 ch) (vii V0 ch) (vri V0 ch)) (Cert.Spec.s01 (vrr V0 ch) (vii V0 ch) (vri V0 ch))
          (Cert.Spec.s11 (vrr V0 ch) (vii V0 ch) (vri V0 ch)) (gr V0 (ix1 ch)) (gi V0 (ix1 ch)) (bi V0 (ix1 ch)) := by
  rw [U_apply, addf_apply, addf_apply, mulf_apply, mulf_apply, B_apply, B_apply, B_apply, v55_apply, v62_apply]
  rfl

/-! ## The whole result -/

/-- The run's composed term for the result buffer is the specification over the mean of products of centred values. -/
theorem result_eq :
    concatenate S32x56x56x256x2 4 [⟨S32x56x56x256x1, (broadcastInDim S32x56x56x256x1 ![0, 1, 2, 3] bcast_S32x56x56x256_S32x56x56x256x1_0_1_2_3 (addf (subf (mulf (broadcastInDim S32x56x56x256 ![0, 1, 2, 3] bcast_S1x1x1x256_S32x56x56x256_0_1_2_3 (broadcastInDim S1x1x1x256 ![3] bcast_S256_S1x1x1x256_3 (V0 (Proc.devRef .tc main_arg2)))) (res_main_v55 V0)) (mulf (broadcastInDim S32x56x56x256 ![0, 1, 2, 3] bcast_S1x1x1x256_S32x56x56x256_0_1_2_3 (broadcastInDim S1x1x1x256 ![3] bcast_S256_S1x1x1x256_3 (V0 (Proc.devRef .tc main_arg3)))) (res_main_v62 V0))) (broadcastInDim S32x56x56x256 ![0, 1, 2, 3] bcast_S1x1x1x256_S32x56x56x256_0_1_2_3 (broadcastInDim S1x1x1x256 ![3] bcast_S256_S1x1x1x256_3 (V0 (Proc.devRef .tc main_arg4))))))⟩, ⟨S32x56x56x256x1, (broadcastInDim S32x56x56x256x1 ![0, 1, 2, 3] bcast_S32x56x56x256_S32x56x56x256x1_0_1_2_3 (addf (addf (mulf (broadcastInDim S32x56x56x256 ![0, 1, 2, 3] bcast_S1x1x1x256_S32x56x56x256_0_1_2_3 (broadcastInDim S1x1x1x256 ![3] bcast_S256_S1x1x1x256_3 (V0 (Proc.devRef .tc main_arg2)))) (res_main_v62 V0)) (mulf (broadcastInDim S32x56x56x256 ![0, 1, 2, 3] bcast_S1x1x1x256_S32x56x56x256_0_1_2_3 (broadcastInDim S1x1x1x256 ![3] bcast_S256_S1x1x1x256_3 (V0 (Proc.devRef .tc main_arg3)))) (res_main_v55 V0))) (broadcastInDim S32x56x56x256 ![0, 1, 2, 3] bcast_S1x1x1x256_S32x56x56x256_0_1_2_3 (broadcastInDim S1x1x1x256 ![3] bcast_S256_S1x1x1x256_3 (V0 (Proc.devRef .tc main_arg5))))))⟩] concatenates_S32x56x56x256x1_S32x56x56x256x1_S32x56x56x256x2_d4
      = Cert.Spec.result Cert.Spec.covC (xr V0) (xi V0) (gr V0) (gi V0) (br V0) (bi V0) := by
  funext j
  obtain ⟨b, h, w, ch, k, rfl⟩ : ∃ (b : Fin 32) (h w : Fin 56) (ch : Fin 256) (k : Fin 2), j = ix5 b h w ch k :=
    ⟨j 0, j 1, j 2, j 3, j 4, eq_ix5 j⟩
  match k with
  | ⟨0, _⟩ =>
    refine (cat_left _ _ b h w ch).trans ?_
    refine (re_apply V0 b h w ch).trans ?_
    rfl
  | ⟨1, _⟩ =>
    refine (cat_right _ _ b h w ch).trans ?_
    refine (im_apply V0 b h w ch).trans ?_
    rfl

end Pure

/-! ## The run -/

/-- On every device, from any memory with zero counters: every weakly fair execution of the reference program
    terminates with the result buffer at the specification of the arguments' launch contents, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v85)
        = Cert.Spec.result Cert.Spec.covC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result_eq (launchContents m c)), (h c).2⟩)
    (Value.run (F := Ideal) m ρ)

end Cert.ReferenceIdeal.RefValue

end
-- ==== Proof.lean ====
/-
  Complex batch normalisation over the last axis of two real arrays [32, 56, 56, 256]: a two-pass kernel program
  against its direct reference, equal on the extended reals under finite inputs.

  The kernel program first accumulates, per channel and per core, the sums of the real parts, the imaginary parts,
  their squares and their product over the 100352 samples; the host adds the two cores' totals, divides by the count
  and forms the covariance as the mean of products minus the product of means, regularises it, and takes the entries
  of its inverse square root; a second kernel centres, whitens, scales and shifts every sample and writes real and
  imaginary parts interleaved. The reference centres first and takes the covariance as the mean of products of the
  centred values; everything after the covariance is the same chain of operations in both programs. On finite inputs
  the two spellings of the covariance agree (all sums are sums of real numbers), and sums on the extended reals may be
  regrouped freely, so both programs end at one array.
-/
import proofs.«177178_j57784490000847_2_alg».proof.Defs
import proofs.«177178_j57784490000847_2_alg».proof.Proof.Gen.Kernel
import proofs.«177178_j57784490000847_2_alg».proof.Proof.Gen.Kernel.Skeleton
import proofs.«177178_j57784490000847_2_alg».proof.Proof.Gen.Kernel.Launch
import proofs.«177178_j57784490000847_2_alg».proof.Proof.Gen.Kernel.Points
import proofs.«177178_j57784490000847_2_alg».proof.Proof.Gen.Kernel.Frame
import proofs.«177178_j57784490000847_2_alg».proof.Proof.Gen.KernelIdeal
import proofs.«177178_j57784490000847_2_alg».proof.Proof.Gen.KernelIdeal.Skeleton
import proofs.«177178_j57784490000847_2_alg».proof.Proof.Gen.KernelIdeal.Launch
import proofs.«177178_j57784490000847_2_alg».proof.Proof.Gen.KernelIdeal.Points
import proofs.«177178_j57784490000847_2_alg».proof.Proof.Gen.KernelIdeal.Frame
import proofs.«177178_j57784490000847_2_alg».proof.Proof.Gen.ReferenceIdeal
import proofs.«177178_j57784490000847_2_alg».proof.Proof.Gen.ReferenceIdeal.Run
import proofs.«177178_j57784490000847_2_alg».proof.Proof.Gen.Pre_finite_inputs
import proofs.«177178_j57784490000847_2_alg».proof.Proof.RunValue
import proofs.«177178_j57784490000847_2_alg».proof.Proof.KernelValue
import proofs.«177178_j57784490000847_2_alg».proof.Proof.CovAgree
import proofs.«177178_j57784490000847_2_alg».proof.Proof.FiniteInputs
import proofs.«177178_j57784490000847_2_alg».proof.Proof.RefSide
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the specification: the kernel program at its moments spelling, which on finite
    inputs is the centred spelling the reference ends at. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.result Cert.Spec.covC
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.RunValue.run (F := Ideal) m ρ)
    obtain ⟨hr, hi⟩ := Cert.FiniteInputs.real_of_pre _ _ _ _ _ _ (hpre c)
    exact (Cert.KernelIdeal.KernelValue.result_eq m ρ c).trans (Cert.Spec.result_agree _ _ _ _ _ _ hr hi)
  · refine (θ_run Cert.ReferenceIdeal.defs _ _).mono (fun r h c => ⟨(h c).1.trans ?_, (h c).2⟩)
      (Cert.ReferenceIdeal.RefValue.run_spec m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
